-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S400000x8 : Shape := ⟨2, ![400000, 8]⟩
abbrev S400000 : Shape := ⟨1, ![400000]⟩
abbrev S136x128 : Shape := ⟨2, ![136, 128]⟩
abbrev S128 : Shape := ⟨1, ![128]⟩
abbrev S128x64 : Shape := ⟨2, ![128, 64]⟩
abbrev S64 : Shape := ⟨1, ![64]⟩
abbrev S64x192 : Shape := ⟨2, ![64, 192]⟩
abbrev S192 : Shape := ⟨1, ![192]⟩
abbrev S64x128 : Shape := ⟨2, ![64, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S400000x8 : S_.BroadcastsInDim S400000x8 (![] : Fin 0 → Fin S400000x8.rank)
  reducesTo_S400000x8_S_d0_1 : S400000x8.ReducesTo [0, 1] S_
  bcast_S_S136x128 : S_.BroadcastsInDim S136x128 (![] : Fin 0 → Fin S136x128.rank)
  reducesTo_S136x128_S_d0_1 : S136x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x192 : S_.BroadcastsInDim S64x192 (![] : Fin 0 → Fin S64x192.rank)
  reducesTo_S64x192_S_d0_1 : S64x192.ReducesTo [0, 1] S_
  bcast_S_S192 : S_.BroadcastsInDim S192 (![] : Fin 0 → Fin S192.rank)
  reducesTo_S192_S_d0 : S192.ReducesTo [0] S_
  bcast_S_S64x128 : S_.BroadcastsInDim S64x128 (![] : Fin 0 → Fin S64x128.rank)
  reducesTo_S64x128_S_d0_1 : S64x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S64x192 .f32) (main_arg10 : FVec F S192 .f32) (main_arg11 : FVec F S64x128 .f32) (main_arg12 : FVec F S128 .f32) (main_arg13 : FVec F S128x1 .f32) (main_arg14 : FVec F S1 .f32) (main_v33 : IVec S_ 1) : IVec S_ 1 :=
  let main_v34 : FVec F S64x192 .f32 := Host.absf main_arg9
  let main_cst_12 : FVec F S_ .f32 := constant S_ .f32 0x7F800000#32
  let main_v35 : FVec F S64x192 .f32 := broadcastInDim S64x192 ![] bcast_S_S64x192 main_cst_12
  let main_v36 : IVec S64x192 1 := cmpf .olt main_v34 main_v35
  let main_c_13 : IVec S_ 1 := constantI S_ 1 1#1
  let main_v37 : IVec S_ 1 := (fun x v => Host.reduce IntOp.andi x v reducesTo_S64x192_S_d0_1 h_S_) main_v36 main_c_13
  let main_v38 : IVec S_ 1 := andi main_v33 main_v37
  let main_v39 : FVec F S192 .f32 := Host.absf main_arg10
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S128x64 .f32) (main_arg7 : FVec F S64 .f32) (main_arg8 : FVec F S64x192 .f32) (main_arg9 : FVec F S64x192 .f32) (main_arg10 : FVec F S192 .f32) (main_arg11 : FVec F S64x128 .f32) (main_arg12 : FVec F S128 .f32) (main_arg13 : FVec F S128x1 .f32) (main_arg14 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x192 .f32 := Host.absf main_arg8
  let main_cst_10 : FVec F S_ .f32 := constant S_ .f32 0x7F800000#32
  let main_v30 : FVec F S64x192 .f32 := broadcastInDim S64x192 ![] bcast_S_S64x192 main_cst_10
  let main_v31 : IVec S64x192 1 := cmpf .olt main_v29 main_v30
  let main_c_11 : IVec S_ 1 := constantI S_ 1 1#1
  let main_v32 : IVec S_ 1 := (fun x v => Host.reduce IntOp.andi x v reducesTo_S64x192_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x64 .f32) (main_arg1 : FVec F S400000x8 .f32) (main_arg2 : IVec S400000 32) (main_arg3 : IVec S400000 32) (main_arg4 : FVec F S136x128 .f32) (main_arg5 : FVec F S128 .f32) (main_arg6 : FVec F S128x64 .f32) (main_arg7 : FVec F S64 .f32) (main_arg8 : FVec F S64x192 .f32) (main_arg9 : FVec F S64x192 .f32) (main_arg10 : FVec F S192 .f32) (main_arg11 : FVec F S64x128 .f32) (main_arg12 : FVec F S128 .f32) (main_arg13 : FVec F S128x1 .f32) (main_arg14 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S400000x8 .f32 := Host.absf main_arg1
  let main_cst_0 : FVec F S_ .f32 := constant S_ .f32 0x7F800000#32
  let main_v5 : FVec F S400000x8 .f32 := broadcastInDim S400000x8 ![] bcast_S_S400000x8 main_cst_0
  let main_v6 : IVec S400000x8 1 := cmpf .olt main_v4 main_v5
  let main_c_1 : IVec S_ 1 := constantI S_ 1 1#1
  let main_v7 : IVec S_ 1 := (fun x v => Host.reduce IntOp.andi x v reducesTo_S400000x8_S_d0_1 h_S_) main_v6 main_c_1
  let main_v8 : IVec S_ 1 := andi main_v3 main_v7
  let main_v9 : FVec F S136x128 .f32 := Host.absf main_arg4
  let main_cst_2 : FVec F S_ .f32 := constant S_ .f32 0x7F800000#32
  let main_v10 : FVec F S136x128 .f32 := broadcastInDim S136x128 ![] bcast_S_S136x128 main_cst_2
  let main_v11 : IVec S136x128 1 := cmpf .olt main_v9 main_v10
  let main_c_3 : IVec S_ 1 := constantI S_ 1 1#1
  let main_v12 : IVec S_ 1 := (fun x v => Host.reduce IntOp.andi x v reducesTo_S136x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_v13 main_v16
-- ==== Kernel.lean ====
abbrev S50000x64 : Shape := ⟨2, ![50000, 64]⟩
abbrev S400000x8 : Shape := ⟨2, ![400000, 8]⟩
abbrev S400000 : Shape := ⟨1, ![400000]⟩
abbrev S136x128 : Shape := ⟨2, ![136, 128]⟩
abbrev S128 : Shape := ⟨1, ![128]⟩
abbrev S128x64 : Shape := ⟨2, ![128, 64]⟩
abbrev S64 : Shape := ⟨1, ![64]⟩
abbrev S64x192 : Shape := ⟨2, ![64, 192]⟩
abbrev S192 : Shape := ⟨1, ![192]⟩
abbrev S64x128 : Shape := ⟨2, ![64, 128]⟩
abbrev S128x1 : Shape := ⟨2, ![128, 1]⟩
abbrev S1 : Shape := ⟨1, ![1]⟩
abbrev S_ : Shape := ⟨0, ![]⟩
abbrev S400000x1 : Shape := ⟨2, ![400000, 1]⟩
abbrev S400000x64 : Shape := ⟨2, ![400000, 64]⟩
abbrev S8x128 : Shape := ⟨2, ![8, 128]⟩
abbrev S1x128 : Shape := ⟨2, ![1, 128]⟩
abbrev S1x64 : Shape := ⟨2, ![1, 64]⟩
abbrev S64x64 : Shape := ⟨2, ![64, 64]⟩
abbrev S1x1 : Shape := ⟨2, ![1, 1]⟩
abbrev S50000x1 : Shape := ⟨2, ![50000, 1]⟩
abbrev S4000x64 : Shape := ⟨2, ![4000, 64]⟩
abbrev S4000x8 : Shape := ⟨2, ![4000, 8]⟩
abbrev S4000x128 : Shape := ⟨2, ![4000, 128]⟩
abbrev S5000x64 : Shape := ⟨2, ![5000, 64]⟩
abbrev S10000x64 : Shape := ⟨2, ![10000, 64]⟩
abbrev S10000x1 : Shape := ⟨2, ![10000, 1]⟩
abbrev S10000x128 : Shape := ⟨2, ![10000, 128]⟩
abbrev S10000 : Shape := ⟨1, ![10000]⟩

abbrev nBuf : Space → Nat
  | .hbm => 104
  | .vmem => 66
  | .smem => 0
  | _ => 0

abbrev bufTy : (tb : Table) → Fin (tcTables nBuf tb) → BufTy
  | .hbm, ⟨0, _⟩ => ⟨S50000x64, .f32⟩
  | .hbm, ⟨1, _⟩ => ⟨S400000x8, .f32⟩
  | .hbm, ⟨2, _⟩ => ⟨S400000, .i32⟩
  | .hbm, ⟨3, _⟩ => ⟨S400000, .i32⟩
  | .hbm, ⟨4, _⟩ => ⟨S136x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x192, .f32⟩
  | .hbm, ⟨9, _⟩ => ⟨S64x192, .f32⟩
  | .hbm, ⟨10, _⟩ => ⟨S192, .f32⟩
  | .hbm, ⟨11, _⟩ => ⟨S64x128, .f32⟩
  | .hbm, ⟨12, _⟩ => ⟨S128, .f32⟩
  | .hbm, ⟨13, _⟩ => ⟨S128x1, .f32⟩
  | .hbm, ⟨14, _⟩ => ⟨S1, .f32⟩
  | .hbm, ⟨15, _⟩ => ⟨S400000x8, .bf16⟩
  | .hbm, ⟨16, _⟩ => ⟨S50000x64, .bf16⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x64, .bf16⟩
  | .hbm, ⟨26, _⟩ => ⟨S_, .i32⟩
  | .hbm, ⟨27, _⟩ => ⟨S400000, .i32⟩
  | .hbm, ⟨28, _⟩ => ⟨S400000, .i1⟩
  | .hbm, ⟨29, _⟩ => ⟨S_, .i32⟩
  | .hbm, ⟨30, _⟩ => ⟨S400000, .i32⟩
  | .hbm, ⟨31, _⟩ => ⟨S400000, .i32⟩
  | .hbm, ⟨32, _⟩ => ⟨S400000, .i32⟩
  | .hbm, ⟨33, _⟩ => ⟨S400000x1, .i32⟩
  | .hbm, ⟨34, _⟩ => ⟨S400000x64, .bf16⟩
  | .hbm, ⟨35, _⟩ => ⟨S64x128, .f32⟩
  | .hbm, ⟨36, _⟩ => ⟨S64x128, .f32⟩
  | .hbm, ⟨37, _⟩ => ⟨S8x128, .f32⟩
  | .hbm, ⟨38, _⟩ => ⟨S1x128, .f32⟩
  | .hbm, ⟨39, _⟩ => ⟨S1x64, .f32⟩
  | .hbm, ⟨40, _⟩ => ⟨S400000x64, .f32⟩
  | .hbm, ⟨41, _⟩ => ⟨S_, .f32⟩
  | .hbm, ⟨42, _⟩ => ⟨S50000x64, .f32⟩
  | .hbm, ⟨43, _⟩ => ⟨S400000x1, .i32⟩
  | .hbm, ⟨44, _⟩ => ⟨S50000x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S50000x64, .f32⟩
  | .hbm, ⟨58, _⟩ => ⟨S50000x64, .bf16⟩
  | .hbm, ⟨59, _⟩ => ⟨S_, .i32⟩
  | .hbm, ⟨60, _⟩ => ⟨S400000, .i32⟩
  | .hbm, ⟨61, _⟩ => ⟨S400000, .i1⟩
  | .hbm, ⟨62, _⟩ => ⟨S_, .i32⟩
  | .hbm, ⟨63, _⟩ => ⟨S400000, .i32⟩
  | .hbm, ⟨64, _⟩ => ⟨S400000, .i32⟩
  | .hbm, ⟨65, _⟩ => ⟨S400000, .i32⟩
  | .hbm, ⟨66, _⟩ => ⟨S400000x1, .i32⟩
  | .hbm, ⟨67, _⟩ => ⟨S400000x64, .bf16⟩
  | .hbm, ⟨68, _⟩ => ⟨S_, .i32⟩
  | .hbm, ⟨69, _⟩ => ⟨S400000, .i32⟩
  | .hbm, ⟨70, _⟩ => ⟨S400000, .i1⟩
  | .hbm, ⟨71, _⟩ => ⟨S_, .i32⟩
  | .hbm, ⟨72, _⟩ => ⟨S400000, .i32⟩
  | .hbm, ⟨73, _⟩ => ⟨S400000, .i32⟩
  | .hbm, ⟨74, _⟩ => ⟨S400000, .i32⟩
  | .hbm, ⟨75, _⟩ => ⟨S400000x1, .i32⟩
  | .hbm, ⟨76, _⟩ => ⟨S400000x64, .bf16⟩
  | .hbm, ⟨77, _⟩ => ⟨S64x128, .f32⟩
  | .hbm, ⟨78, _⟩ => ⟨S64x128, .f32⟩
  | .hbm, ⟨79, _⟩ => ⟨S8x128, .f32⟩
  | .hbm, ⟨80, _⟩ => ⟨S1x128, .f32⟩
  | .hbm, ⟨81, _⟩ => ⟨S1x64, .f32⟩
  | .hbm, ⟨82, _⟩ => ⟨S400000x64, .f32⟩
  | .hbm, ⟨83, _⟩ => ⟨S_, .f32⟩
  | .hbm, ⟨84, _⟩ => ⟨S50000x64, .f32⟩
  | .hbm, ⟨85, _⟩ => ⟨S400000x1, .i32⟩
  | .hbm, ⟨86, _⟩ => ⟨S50000x64, .f32⟩
  | .hbm, ⟨87, _⟩ => ⟨S64x64, .f32⟩
  | .hbm, ⟨88, _⟩ => ⟨S64x64, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S64x64, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S50000x64, .f32⟩
  | .hbm, ⟨100, _⟩ => ⟨S1x128, .f32⟩
  | .hbm, ⟨101, _⟩ => ⟨S1x1, .f32⟩
  | .hbm, ⟨102, _⟩ => ⟨S1x128, .f32⟩
  | .hbm, ⟨103, _⟩ => ⟨S50000x1, .f32⟩
  | .local _ .vmem, ⟨0, _⟩ => ⟨S4000x64, .bf16⟩
  | .local _ .vmem, ⟨1, _⟩ => ⟨S4000x64, .bf16⟩
  | .local _ .vmem, ⟨2, _⟩ => ⟨S4000x64, .bf16⟩
  | .local _ .vmem, ⟨3, _⟩ => ⟨S4000x64, .bf16⟩
  | .local _ .vmem, ⟨4, _⟩ => ⟨S4000x8, .bf16⟩
  | .local _ .vmem, ⟨5, _⟩ => ⟨S4000x8, .bf16⟩
  | .local _ .vmem, ⟨6, _⟩ => ⟨S64x128, .f32⟩
  | .local _ .vmem, ⟨7, _⟩ => ⟨S64x128, .f32⟩
  | .local _ .vmem, ⟨8, _⟩ => ⟨S8x128, .f32⟩
  | .local _ .vmem, ⟨9, _⟩ => ⟨S1x128, .f32⟩
  | .local _ .vmem, ⟨10, _⟩ => ⟨S128x64, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S64x64, .f32⟩
  | .local _ .vmem, ⟨20, _⟩ => ⟨S64x64, .f32⟩
  | .local _ .vmem, ⟨21, _⟩ => ⟨S64x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S5000x64, .f32⟩
  | .local _ .vmem, ⟨28, _⟩ => ⟨S5000x64, .f32⟩
  | .local _ .vmem, ⟨29, _⟩ => ⟨S4000x64, .bf16⟩
  | .local _ .vmem, ⟨30, _⟩ => ⟨S4000x64, .bf16⟩
  | .local _ .vmem, ⟨31, _⟩ => ⟨S4000x64, .bf16⟩
  | .local _ .vmem, ⟨32, _⟩ => ⟨S4000x64, .bf16⟩
  | .local _ .vmem, ⟨33, _⟩ => ⟨S4000x8, .bf16⟩
  | .local _ .vmem, ⟨34, _⟩ => ⟨S4000x8, .bf16⟩
  | .local _ .vmem, ⟨35, _⟩ => ⟨S64x128, .f32⟩
  | .local _ .vmem, ⟨36, _⟩ => ⟨S64x128, .f32⟩
  | .local _ .vmem, ⟨37, _⟩ => ⟨S8x128, .f32⟩
  | .local _ .vmem, ⟨38, _⟩ => ⟨S1x128, .f32⟩
  | .local _ .vmem, ⟨39, _⟩ => ⟨S128x64, .f32⟩
  | .local _ .vmem, ⟨40, _⟩ => ⟨S1x64, .f32⟩
  | .local _ .vmem, ⟨41, _⟩ => ⟨S4000x64, .f32⟩
  | .local _ .vmem, ⟨42, _⟩ => ⟨S4000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S64x64, .f32⟩
  | .local _ .vmem, ⟨48, _⟩ => ⟨S64x64, .f32⟩
  | .local _ .vmem, ⟨49, _⟩ => ⟨S64x64, .f32⟩
  | .local _ .vmem, ⟨50, _⟩ => ⟨S64x64, .f32⟩
  | .local _ .vmem, ⟨51, _⟩ => ⟨S64x64, .f32⟩
  | .local _ .vmem, ⟨52, _⟩ => ⟨S64x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | .local _ .vmem, ⟨58, _⟩ => ⟨S10000x64, .f32⟩
  | .local _ .vmem, ⟨59, _⟩ => ⟨S10000x64, .f32⟩
  | .local _ .vmem, ⟨60, _⟩ => ⟨S64x128, .f32⟩
  | .local _ .vmem, ⟨61, _⟩ => ⟨S1x128, .f32⟩
  | .local _ .vmem, ⟨62, _⟩ => ⟨S1x128, .f32⟩
  | .local _ .vmem, ⟨63, _⟩ => ⟨S1x1, .f32⟩
  | .local _ .vmem, ⟨64, _⟩ => ⟨S10000x1, .f32⟩
  | .local _ .vmem, ⟨65, _⟩ => ⟨S10000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_c : Ref sig .tc := ⟨.hbm, 17, rfl⟩
abbrev main_call0_v2 : Ref sig .tc := ⟨.hbm, 18, rfl⟩
abbrev main_call0_v3 : Ref sig .tc := ⟨.hbm, 19, rfl⟩
abbrev main_call0_c_0 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c_1 : Ref sig .tc := ⟨.hbm, 26, rfl⟩
abbrev main_call0_v9 : Ref sig .tc := ⟨.hbm, 27, rfl⟩
abbrev main_call0_v10 : Ref sig .tc := ⟨.hbm, 28, rfl⟩
abbrev main_call0_c_2 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_cst : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_v31 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_v38 : Ref sig .tc := ⟨.hbm, 58, rfl⟩
abbrev main_call0_c_3 : Ref sig .tc := ⟨.hbm, 59, rfl⟩
abbrev main_call0_v39 : Ref sig .tc := ⟨.hbm, 60, rfl⟩
abbrev main_call0_v40 : Ref sig .tc := ⟨.hbm, 61, rfl⟩
abbrev main_call0_c_4 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_c_5 : Ref sig .tc := ⟨.hbm, 68, rfl⟩
abbrev main_call0_v46 : Ref sig .tc := ⟨.hbm, 69, rfl⟩
abbrev main_call0_v47 : Ref sig .tc := ⟨.hbm, 70, rfl⟩
abbrev main_call0_c_6 : Ref sig .tc := ⟨.hbm, 71, rfl⟩
abbrev main_call0_v48 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_v53 : Ref sig .tc := ⟨.hbm, 77, rfl⟩
abbrev main_call0_v54 : Ref sig .tc := ⟨.hbm, 78, rfl⟩
abbrev main_call0_v55 : Ref sig .tc := ⟨.hbm, 79, rfl⟩
abbrev main_call0_v56 : Ref sig .tc := ⟨.hbm, 80, rfl⟩
abbrev main_call0_v57 : Ref sig .tc := ⟨.hbm, 81, rfl⟩
abbrev main_call0_v58 : Ref sig .tc := ⟨.hbm, 82, rfl⟩
abbrev main_call0_cst_7 : Ref sig .tc := ⟨.hbm, 83, rfl⟩
abbrev main_call0_v59 : Ref sig .tc := ⟨.hbm, 84, rfl⟩
abbrev main_call0_v60 : Ref sig .tc := ⟨.hbm, 85, rfl⟩
abbrev main_call0_v61 : Ref sig .tc := ⟨.hbm, 86, rfl⟩
abbrev main_call0_v62 : Ref sig .tc := ⟨.hbm, 87, rfl⟩
abbrev main_call0_v63 : Ref sig .tc := ⟨.hbm, 88, rfl⟩
abbrev main_call0_v64 : Ref sig .tc := ⟨.hbm, 89, rfl⟩
abbrev main_call0_v65 : Ref sig .tc := ⟨.hbm, 90, rfl⟩
abbrev main_call0_v66 : Ref sig .tc := ⟨.hbm, 91, rfl⟩
abbrev main_call0_v67 : Ref sig .tc := ⟨.hbm, 92, rfl⟩
abbrev main_call0_v68 : Ref sig .tc := ⟨.hbm, 93, rfl⟩
abbrev main_call0_v69 : Ref sig .tc := ⟨.hbm, 94, rfl⟩
abbrev main_call0_v70 : Ref sig .tc := ⟨.hbm, 95, rfl⟩
abbrev main_call0_v71 : Ref sig .tc := ⟨.hbm, 96, rfl⟩
abbrev main_call0_v72 : Ref sig .tc := ⟨.hbm, 97, rfl⟩
abbrev main_call0_v73 : Ref sig .tc := ⟨.hbm, 98, rfl⟩
abbrev main_call0_v74 : Ref sig .tc := ⟨.hbm, 99, rfl⟩
abbrev main_call0_v75 : Ref sig .tc := ⟨.hbm, 100, rfl⟩
abbrev main_call0_v76 : Ref sig .tc := ⟨.hbm, 101, rfl⟩
abbrev main_call0_v77 : Ref sig .tc := ⟨.hbm, 102, rfl⟩
abbrev main_v0 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg9_1 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg3_0 : Ref sig .tc := ⟨.vmem, 48, rfl⟩
abbrev cc3_stg4_0 : Ref sig .tc := ⟨.vmem, 49, rfl⟩
abbrev cc3_stg5_0 : Ref sig .tc := ⟨.vmem, 50, rfl⟩
abbrev cc3_stg6_0 : Ref sig .tc := ⟨.vmem, 51, rfl⟩
abbrev cc3_stg7_0 : Ref sig .tc := ⟨.vmem, 52, rfl⟩
abbrev cc3_stg8_0 : Ref sig .tc := ⟨.vmem, 53, rfl⟩
abbrev cc3_stg9_0 : Ref sig .tc := ⟨.vmem, 54, rfl⟩
abbrev cc3_stg10_0 : Ref sig .tc := ⟨.vmem, 55, rfl⟩
abbrev cc3_stg11_0 : Ref sig .tc := ⟨.vmem, 56, rfl⟩
abbrev cc3_stg11_1 : Ref sig .tc := ⟨.vmem, 57, rfl⟩
abbrev cc4_stg0_0 : Ref sig .tc := ⟨.vmem, 58, rfl⟩
abbrev cc4_stg0_1 : Ref sig .tc := ⟨.vmem, 59, rfl⟩
abbrev cc4_stg1_0 : Ref sig .tc := ⟨.vmem, 60, rfl⟩
abbrev cc4_stg2_0 : Ref sig .tc := ⟨.vmem, 61, rfl⟩
abbrev cc4_stg3_0 : Ref sig .tc := ⟨.vmem, 62, rfl⟩
abbrev cc4_stg4_0 : Ref sig .tc := ⟨.vmem, 63, rfl⟩
abbrev cc4_stg5_0 : Ref sig .tc := ⟨.vmem, 64, rfl⟩
abbrev cc4_stg5_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem11_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem9_1 : DmaSem sig := 42
abbrev cc3_sem0_0 : DmaSem sig := 43
abbrev cc3_sem0_1 : DmaSem sig := 44
abbrev cc3_sem1_0 : DmaSem sig := 45
abbrev cc3_sem1_1 : DmaSem sig := 46
abbrev cc3_sem2_0 : DmaSem sig := 47
abbrev cc3_sem3_0 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem10_0 : DmaSem sig := 55
abbrev cc3_sem11_0 : DmaSem sig := 56
abbrev cc3_sem11_1 : DmaSem sig := 57
abbrev cc4_sem0_0 : DmaSem sig := 58
abbrev cc4_sem0_1 : DmaSem sig := 59
abbrev cc4_sem1_0 : DmaSem sig := 60
abbrev cc4_sem2_0 : DmaSem sig := 61
abbrev cc4_sem3_0 : DmaSem sig := 62
abbrev cc4_sem4_0 : DmaSem sig := 63
abbrev cc4_sem5_0 : DmaSem sig := 64
abbrev cc4_sem5_1 : DmaSem sig := 65

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x8 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x64 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bitsLt_bf16_f32 : FTy.bits .bf16 < FTy.bits .f32
  bcast_S_S400000 : S_.BroadcastsInDim S400000 (![] : Fin 0 → Fin S400000.rank)
  bcast_S400000_S400000x1_0 : S400000.BroadcastsInDim S400000x1 (![0] : Fin 1 → Fin S400000x1.rank)
  slices_S136x128_S64x128_0_0 : S136x128.Slices ![0, 0] S64x128
  slices_S136x128_S64x128_64_0 : S136x128.Slices ![64, 0] S64x128
  slices_S136x128_S8x128_128_0 : S136x128.Slices ![128, 0] S8x128
  shapeCasts_S128_S1x128 : S128.ShapeCasts S1x128
  shapeCasts_S64_S1x64 : S64.ShapeCasts S1x64
  bcast_S_S50000x64 : S_.BroadcastsInDim S50000x64 (![] : Fin 0 → Fin S50000x64.rank)
  slices_S64x192_S64x64_0_0 : S64x192.Slices ![0, 0] S64x64
  slices_S64x192_S64x64_0_64 : S64x192.Slices ![0, 64] S64x64
  slices_S64x192_S64x64_0_128 : S64x192.Slices ![0, 128] S64x64
  slices_S192_S64_0 : S192.Slices ![0] S64
  slices_S192_S64_64 : S192.Slices ![64] S64
  slices_S192_S64_128 : S192.Slices ![128] S64
  shapeCasts_S1_S1x1 : S1.ShapeCasts S1x1
  shapeCasts_S128x1_S1x128 : S128x1.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x128_S10000x128 : S1x128.Broadcasts S10000x128
  reduces_S10000x128_S10000 : S10000x128.Reduces [1] S10000
  shapeCasts_S10000_S10000x1 : S10000.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S50000x64_S400000x1_S400000x64_1_0_n_n_0_1_164_wf : GatherDims.WF S50000x64 S400000x1 S400000x64 [1] [0] [] [0] [] 1 ![1, 64]
  scatter_S50000x64_S400000x1_S400000x64_1_0_0_1_wf : ScatterDims.WF S50000x64 S400000x1 S400000x64 [1] [0] [0] 1
  dot_S4000x64_S64x128_S4000x128_1_0_0_1_n_n_wf : DotDims.WF S4000x64 S64x128 S4000x128 [1] [0] [0] [1] [] []
  dot_S4000x8_S8x128_S4000x128_1_0_0_1_n_n_wf : DotDims.WF S4000x8 S8x128 S4000x128 [1] [0] [0] [1] [] []
  dot_S4000x128_S128x64_S4000x64_1_0_0_1_n_n_wf : DotDims.WF S4000x128 S128x64 S4000x64 [1] [0] [0] [1] [] []
  dot_S5000x64_S64x64_S5000x64_1_0_0_1_n_n_wf : DotDims.WF S5000x64 S64x64 S5000x64 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S400000x64.size a
  hwx0_0 : ∀ i : grid0.Coords, EltTy.bits .bf16 = 32 ∨ (Rect.block (s := S400000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S400000x64.size a
  hwx0_1 : ∀ i : grid0.Coords, EltTy.bits .bf16 = 32 ∨ (Rect.block (s := S400000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x8.size a ≤ S400000x8.size a
  hwx0_2 : ∀ i : grid0.Coords, EltTy.bits .bf16 = 32 ∨ (Rect.block (s := S400000x8) S4000x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S400000x64.size a
  hwx0_9 : ∀ i : grid0.Coords, EltTy.bits .f32 = 32 ∨ (Rect.block (s := S400000x64) S4000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S50000x64.size a
  hwx1_11 : ∀ i : grid1.Coords, EltTy.bits .f32 = 32 ∨ (Rect.block (s := S50000x64) S5000x64.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S400000x64.size a
  hwx2_0 : ∀ i : grid2.Coords, EltTy.bits .bf16 = 32 ∨ (Rect.block (s := S400000x64) S4000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S400000x64.size a
  hwx2_1 : ∀ i : grid2.Coords, EltTy.bits .bf16 = 32 ∨ (Rect.block (s := S400000x64) S4000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x8.size a ≤ S400000x8.size a
  hwx2_2 : ∀ i : grid2.Coords, EltTy.bits .bf16 = 32 ∨ (Rect.block (s := S400000x8) S4000x8.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x128.size a ≤ S8x128.size a
  hwx2_5 : ∀ i : grid2.Coords, EltTy.bits .f32 = 32 ∨ (Rect.block (s := S8x128) S8x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x64.size a ≤ S128x64.size a
  hwx2_7 : ∀ i : grid2.Coords, EltTy.bits .f32 = 32 ∨ (Rect.block (s := S128x64) S128x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x64.size a ≤ S400000x64.size a
  hwx2_9 : ∀ i : grid2.Coords, EltTy.bits .f32 = 32 ∨ (Rect.block (s := S400000x64) S4000x64.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x64.size a ≤ S1x64.size a
  hwx3_9 : ∀ i : grid3.Coords, EltTy.bits .f32 = 32 ∨ (Rect.block (s := S1x64) S1x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x64.size a ≤ S1x64.size a
  hwx3_10 : ∀ i : grid3.Coords, EltTy.bits .f32 = 32 ∨ (Rect.block (s := S1x64) S1x64.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x64.size a ≤ S50000x64.size a
  hwx3_11 : ∀ i : grid3.Coords, EltTy.bits .f32 = 32 ∨ (Rect.block (s := S50000x64) S5000x64.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x1.size a ≤ S50000x1.size a
  hwx4_5 : ∀ i : grid4.Coords, EltTy.bits .f32 = 32 ∨ (Rect.block (s := S50000x1) S10000x1.size (cc4_transform_5 i) (hinb4_5 i)).WholeWords (EltTy.packing .f32)

variable [Facts₀]

def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_call0_v8) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S4000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v17) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v18) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v20) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v21) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v25) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v26) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v27) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v28) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v29) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v30) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v34) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v35) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_call0_v36) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_call0_v37) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_call0_v45) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v52) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v0) S4000x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v53) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v54) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v55) S8x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v56) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg6) S128x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_call0_v57) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_call0_v58) S4000x64.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_call0_v37) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v61) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v62) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v63) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v64) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v65) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v66) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v67) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_call0_v71) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_call0_v72) S1x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_call0_v73) S1x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_call0_v74) S5000x64.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_call0_v74) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v75) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v77) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v76) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v0) S10000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x64 : Shape := ⟨2, ![50000, 64]⟩
abbrev S400000x8 : Shape := ⟨2, ![400000, 8]⟩
abbrev S400000 : Shape := ⟨1, ![400000]⟩
abbrev S136x128 : Shape := ⟨2, ![136, 128]⟩
abbrev S128 : Shape := ⟨1, ![128]⟩
abbrev S128x64 : Shape := ⟨2, ![128, 64]⟩
abbrev S64 : Shape := ⟨1, ![64]⟩
abbrev S64x192 : Shape := ⟨2, ![64, 192]⟩
abbrev S192 : Shape := ⟨1, ![192]⟩
abbrev S64x128 : Shape := ⟨2, ![64, 128]⟩
abbrev S128x1 : Shape := ⟨2, ![128, 1]⟩
abbrev S1 : Shape := ⟨1, ![1]⟩
abbrev S_ : Shape := ⟨0, ![]⟩
abbrev S400000x1 : Shape := ⟨2, ![400000, 1]⟩
abbrev S400000x64 : Shape := ⟨2, ![400000, 64]⟩
abbrev S400000x136 : Shape := ⟨2, ![400000, 136]⟩
abbrev S400000x128 : Shape := ⟨2, ![400000, 128]⟩
abbrev S1x128 : Shape := ⟨2, ![1, 128]⟩
abbrev S1x64 : Shape := ⟨2, ![1, 64]⟩
abbrev S50000x192 : Shape := ⟨2, ![50000, 192]⟩
abbrev S1x192 : Shape := ⟨2, ![1, 192]⟩
abbrev S50000x128 : Shape := ⟨2, ![50000, 128]⟩
abbrev S50000x1 : Shape := ⟨2, ![50000, 1]⟩
abbrev S1x1 : Shape := ⟨2, ![1, 1]⟩

abbrev nBuf : Space → Nat
  | .hbm => 170
  | .vmem => 0
  | .smem => 0
  | _ => 0

abbrev hbmTy0_0 (i : Nat) : BufTy := match i % 128 with
  | 0 => ⟨S50000x64, .f32⟩
  | 1 => ⟨S400000x8, .f32⟩
  | 2 => ⟨S400000, .i32⟩
  | 3 => ⟨S400000, .i32⟩
  | 4 => ⟨S136x128, .f32⟩
  | 5 => ⟨S128, .f32⟩
  | 6 => ⟨S128x64, .f32⟩
  | 7 => ⟨S64, .f32⟩
  | 8 => ⟨S64x192, .f32⟩
  | 9 => ⟨S64x192, .f32⟩
  | 10 => ⟨S192, .f32⟩
  | 11 => ⟨S64x128, .f32⟩
  | 12 => ⟨S128, .f32⟩
  | 13 => ⟨S128x1, .f32⟩
  | 14 => ⟨S1, .f32⟩
  | 15 => ⟨S_, .i32⟩
  | 16 => ⟨S400000, .i32⟩
  | 17 => ⟨S400000, .i1⟩
  | 18 => ⟨S_, .i32⟩
  | 19 => ⟨S400000, .i32⟩
  | 20 => ⟨S400000, .i32⟩
  | 21 => ⟨S400000, .i32⟩
  | 22 => ⟨S400000x1, .i32⟩
  | 23 => ⟨S400000x64, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S400000x64, .f32⟩
  | 33 => ⟨S400000x136, .f32⟩
  | 34 => ⟨S400000x128, .f32⟩
  | 35 => ⟨S1x128, .f32⟩
  | 36 => ⟨S400000x128, .f32⟩
  | 37 => ⟨S400000x128, .f32⟩
  | 38 => ⟨S_, .f32⟩
  | 39 => ⟨S400000x128, .f32⟩
  | 40 => ⟨S400000x128, .f32⟩
  | 41 => ⟨S400000x64, .f32⟩
  | 42 => ⟨S1x64, .f32⟩
  | 43 => ⟨S400000x64, .f32⟩
  | 44 => ⟨S400000x64, .f32⟩
  | 45 => ⟨S_, .f32⟩
  | 46 => ⟨S50000x64, .f32⟩
  | 47 => ⟨S400000x1, .i32⟩
  | 48 => ⟨S50000x64, .f32⟩
  | 49 => ⟨S50000x192, .f32⟩
  | 50 => ⟨S1x192, .f32⟩
  | 51 => ⟨S50000x192, .f32⟩
  | 52 => ⟨S50000x192, .f32⟩
  | 53 => ⟨S50000x192, .f32⟩
  | 54 => ⟨S50000x64, .f32⟩
  | 55 => ⟨S50000x64, .f32⟩
  | 56 => ⟨S50000x64, .f32⟩
  | 57 => ⟨S50000x64, .f32⟩
  | 58 => ⟨S50000x64, .f32⟩
  | 59 => ⟨S50000x64, .f32⟩
  | 60 => ⟨S50000x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S50000x64, .f32⟩
  | 79 => ⟨S50000x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S50000x64, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x64, .f32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S400000x64, .f32⟩
  | 105 => ⟨S400000x136, .f32⟩
  | 106 => ⟨S400000x128, .f32⟩
  | 107 => ⟨S1x128, .f32⟩
  | 108 => ⟨S400000x128, .f32⟩
  | 109 => ⟨S400000x128, .f32⟩
  | 110 => ⟨S_, .f32⟩
  | 111 => ⟨S400000x128, .f32⟩
  | 112 => ⟨S400000x128, .f32⟩
  | 113 => ⟨S400000x64, .f32⟩
  | 114 => ⟨S1x64, .f32⟩
  | 115 => ⟨S400000x64, .f32⟩
  | 116 => ⟨S400000x64, .f32⟩
  | 117 => ⟨S_, .f32⟩
  | 118 => ⟨S50000x64, .f32⟩
  | 119 => ⟨S400000x1, .i32⟩
  | 120 => ⟨S50000x64, .f32⟩
  | 121 => ⟨S50000x192, .f32⟩
  | 122 => ⟨S1x192, .f32⟩
  | 123 => ⟨S50000x192, .f32⟩
  | 124 => ⟨S50000x192, .f32⟩
  | 125 => ⟨S50000x192, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S50000x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S_, .f32⟩
  | 11 => ⟨S50000x64, .f32⟩
  | 12 => ⟨S50000x64, .f32⟩
  | 13 => ⟨S50000x64, .f32⟩
  | 14 => ⟨S50000x64, .f32⟩
  | 15 => ⟨S50000x64, .f32⟩
  | 16 => ⟨S_, .f32⟩
  | 17 => ⟨S50000x64, .f32⟩
  | 18 => ⟨S50000x64, .f32⟩
  | 19 => ⟨S_, .f32⟩
  | 20 => ⟨S50000x64, .f32⟩
  | 21 => ⟨S50000x64, .f32⟩
  | 22 => ⟨S50000x64, .f32⟩
  | 23 => ⟨S50000x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S50000x64, .f32⟩
  | 30 => ⟨S50000x64, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x1, .f32⟩
  | 39 => ⟨S1x1, .f32⟩
  | 40 => ⟨S50000x1, .f32⟩
  | 41 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_8 : Ref sig .tc := ⟨.hbm, 87, rfl⟩
abbrev main_v60 : Ref sig .tc := ⟨.hbm, 88, rfl⟩
abbrev main_v61 : Ref sig .tc := ⟨.hbm, 89, rfl⟩
abbrev main_c_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_10 : Ref sig .tc := ⟨.hbm, 96, rfl⟩
abbrev main_v67 : Ref sig .tc := ⟨.hbm, 97, rfl⟩
abbrev main_v68 : Ref sig .tc := ⟨.hbm, 98, rfl⟩
abbrev main_c_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_call1_cst : Ref sig .tc := ⟨.hbm, 110, rfl⟩
abbrev main_call1_v0 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_12 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_13 : Ref sig .tc := ⟨.hbm, 135, rfl⟩
abbrev main_v101 : Ref sig .tc := ⟨.hbm, 136, rfl⟩
abbrev main_v102 : Ref sig .tc := ⟨.hbm, 137, rfl⟩
abbrev main_cst_14 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_15 : Ref sig .tc := ⟨.hbm, 144, rfl⟩
abbrev main_v108 : Ref sig .tc := ⟨.hbm, 145, rfl⟩
abbrev main_v109 : Ref sig .tc := ⟨.hbm, 146, rfl⟩
abbrev main_cst_16 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_17 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call2_cst : Ref sig .tc := ⟨.hbm, 163, rfl⟩
abbrev main_call2_v0 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x64_S400000x8_S400000x136_d1 : Shape.Concatenates [S400000x64, S400000x64, S400000x8] S400000x136 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  bcast_S_S50000x64 : S_.BroadcastsInDim S50000x64 (![] : Fin 0 → Fin S50000x64.rank)
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x64_S400000x1_S400000x64_1_0_n_n_0_1_164_wf : GatherDims.WF S50000x64 S400000x1 S400000x64 [1] [0] [] [0] [] 1 ![1, 64]
  dot_S400000x136_S136x128_S400000x128_1_0_0_1_n_n_wf : DotDims.WF S400000x136 S136x128 S400000x128 [1] [0] [0] [1] [] []
  dot_S400000x128_S128x64_S400000x64_1_0_0_1_n_n_wf : DotDims.WF S400000x128 S128x64 S400000x64 [1] [0] [0] [1] [] []
  scatter_S50000x64_S400000x1_S400000x64_1_0_0_1_wf : ScatterDims.WF S50000x64 S400000x1 S400000x64 [1] [0] [0] 1
  dot_S50000x64_S64x192_S50000x192_1_0_0_1_n_n_wf : DotDims.WF S50000x64 S64x192 S50000x192 [1] [0] [0] [1] [] []
  dot_S50000x64_S64x128_S50000x128_1_0_0_1_n_n_wf : DotDims.WF S50000x64 S64x128 S50000x128 [1] [0] [0] [1] [] []
  dot_S50000x128_S128x1_S50000x1_1_0_0_1_n_n_wf : DotDims.WF S50000x128 S128x1 S50000x1 [1] [0] [0] [1] [] []

variable [Facts₀]

def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S400000x136_S136x128_S400000x128_1_0_0_1_n_n : DotDims S400000x136 S136x128 S400000x128 where
  lhsContracting := [1]
  rhsContracting := [0]
  lhsNonContracting := [0]
  rhsNonContracting := [1]
  lhsBatch := []
  rhsBatch := []
  wf := dot_S400000x136_S136x128_S400000x128_1_0_0_1_n_n_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
import proofs.«144611_j71408126263501_2_alg».proof.Proof.Gen.KernelIdeal.Frame

/-!
# The kernel program's run, with its result named

The program is five kernel launches among stretches of host operations.  Its run ends with every buffer of the
TensorCore at the contents the last boundary of that chain has (`W10`): the result buffer at what the last launch
writes back, the argument arrays as they were launched.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and every argument array as launched. -/
theorem run_all : θ_run defs (onTc (τ := τ) (main (F := F))) ⟨m, fun _ => 0, ρ⟩ (fun r => ∀ c : Dev nD,
      r.2.mem ((c.tc : Thread nD τ).loc main_v0) = W10 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.Whole

end
-- ==== Proof.KCarry.lean ====
import proofs.«144611_j71408126263501_2_alg».proof.Proof.Gen.KernelIdeal.Frame

/-!
# Buffers that a stretch of the program leaves alone

The program's buffers are followed from the launch through ten boundaries: after each stretch of host
operations and after each kernel launch.  A host stretch changes only the buffers its operations write, and a
launch only its output array; every other buffer — an argument array, or an intermediate array computed earlier
— holds at the later boundary what it held at the earlier one.  These are those facts for the buffers and
boundaries the value proof reads.
-/

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem W1_arg0 (c : Dev nD) : W1 m ρ c (Proc.devRef .tc main_arg0) = m ((c : Thread nD τ).loc main_arg0) :=
  (show W1 m ρ c (Proc.devRef .tc main_arg0) = W0 m ρ c (Proc.devRef .tc main_arg0) from
    StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg0 (c : Dev nD) : W2 m ρ c (Proc.devRef .tc main_arg0) = m ((c : Thread nD τ).loc main_arg0) :=
  (show W2 m ρ c (Proc.devRef .tc main_arg0) = W1 m ρ c (Proc.devRef .tc main_arg0) from
    W2_of_ne m ρ c main_arg0 (by decide)).trans (W1_arg0 m ρ c)
theorem W3_arg0 (c : Dev nD) : W3 m ρ c (Proc.devRef .tc main_arg0) = m ((c : Thread nD τ).loc main_arg0) :=
  (show W3 m ρ c (Proc.devRef .tc main_arg0) = W2 m ρ c (Proc.devRef .tc main_arg0) from
    StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg0 m ρ c)
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) from
    StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg2 (c : Dev nD) : W2 m ρ c (Proc.devRef .tc main_arg2) = m ((c : Thread nD τ).loc main_arg2) :=
  (show W2 m ρ c (Proc.devRef .tc main_arg2) = W1 m ρ c (Proc.devRef .tc main_arg2) from
    W2_of_ne m ρ c main_arg2 (by decide)).trans (W1_arg2 m ρ c)
theorem W3_arg2 (c : Dev nD) : W3 m ρ c (Proc.devRef .tc main_arg2) = m ((c : Thread nD τ).loc main_arg2) :=
  (show W3 m ρ c (Proc.devRef .tc main_arg2) = W2 m ρ c (Proc.devRef .tc main_arg2) from
    StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg2 m ρ c)
theorem W4_arg2 (c : Dev nD) : W4 m ρ c (Proc.devRef .tc main_arg2) = m ((c : Thread nD τ).loc main_arg2) :=
  (show W4 m ρ c (Proc.devRef .tc main_arg2) = W3 m ρ c (Proc.devRef .tc main_arg2) from
    W4_of_ne m ρ c main_arg2 (by decide)).trans (W3_arg2 m ρ c)
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) from
    StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg3 (c : Dev nD) : W2 m ρ c (Proc.devRef .tc main_arg3) = m ((c : Thread nD τ).loc main_arg3) :=
  (show W2 m ρ c (Proc.devRef .tc main_arg3) = W1 m ρ c (Proc.devRef .tc main_arg3) from
    W2_of_ne m ρ c main_arg3 (by decide)).trans (W1_arg3 m ρ c)
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) from
    StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg3 m ρ c)
theorem W4_arg3 (c : Dev nD) : W4 m ρ c (Proc.devRef .tc main_arg3) = m ((c : Thread nD τ).loc main_arg3) :=
  (show W4 m ρ c (Proc.devRef .tc main_arg3) = W3 m ρ c (Proc.devRef .tc main_arg3) from
    W4_of_ne m ρ c main_arg3 (by decide)).trans (W3_arg3 m ρ c)
theorem W5_arg3 (c : Dev nD) : W5 m ρ c (Proc.devRef .tc main_arg3) = m ((c : Thread nD τ).loc main_arg3) :=
  (show W5 m ρ c (Proc.devRef .tc main_arg3) = W4 m ρ c (Proc.devRef .tc main_arg3) from
    StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg3 m ρ c)
theorem W6_arg3 (c : Dev nD) : W6 m ρ c (Proc.devRef .tc main_arg3) = m ((c : Thread nD τ).loc main_arg3) :=
  (show W6 m ρ c (Proc.devRef .tc main_arg3) = W5 m ρ c (Proc.devRef .tc main_arg3) from
    W6_of_ne m ρ c main_arg3 (by decide)).trans (W5_arg3 m ρ c)
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) from
    StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg4 (c : Dev nD) : W2 m ρ c (Proc.devRef .tc main_arg4) = m ((c : Thread nD τ).loc main_arg4) :=
  (show W2 m ρ c (Proc.devRef .tc main_arg4) = W1 m ρ c (Proc.devRef .tc main_arg4) from
    W2_of_ne m ρ c main_arg4 (by decide)).trans (W1_arg4 m ρ c)
theorem W3_arg4 (c : Dev nD) : W3 m ρ c (Proc.devRef .tc main_arg4) = m ((c : Thread nD τ).loc main_arg4) :=
  (show W3 m ρ c (Proc.devRef .tc main_arg4) = W2 m ρ c (Proc.devRef .tc main_arg4) from
    StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg4 m ρ c)
theorem W4_arg4 (c : Dev nD) : W4 m ρ c (Proc.devRef .tc main_arg4) = m ((c : Thread nD τ).loc main_arg4) :=
  (show W4 m ρ c (Proc.devRef .tc main_arg4) = W3 m ρ c (Proc.devRef .tc main_arg4) from
    W4_of_ne m ρ c main_arg4 (by decide)).trans (W3_arg4 m ρ c)
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) from
    StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg5 (c : Dev nD) : W2 m ρ c (Proc.devRef .tc main_arg5) = m ((c : Thread nD τ).loc main_arg5) :=
  (show W2 m ρ c (Proc.devRef .tc main_arg5) = W1 m ρ c (Proc.devRef .tc main_arg5) from
    W2_of_ne m ρ c main_arg5 (by decide)).trans (W1_arg5 m ρ c)
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) from
    StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg5 m ρ c)
theorem W4_arg5 (c : Dev nD) : W4 m ρ c (Proc.devRef .tc main_arg5) = m ((c : Thread nD τ).loc main_arg5) :=
  (show W4 m ρ c (Proc.devRef .tc main_arg5) = W3 m ρ c (Proc.devRef .tc main_arg5) from
    W4_of_ne m ρ c main_arg5 (by decide)).trans (W3_arg5 m ρ c)
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) from
    StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg6 (c : Dev nD) : W2 m ρ c (Proc.devRef .tc main_arg6) = m ((c : Thread nD τ).loc main_arg6) :=
  (show W2 m ρ c (Proc.devRef .tc main_arg6) = W1 m ρ c (Proc.devRef .tc main_arg6) from
    (W2_arr m ρ c 7).trans (((dat0 (V1 m ρ) c).arrAt_in 7 rfl _).trans (A_eq0 (V1 m ρ) c 7))).trans (W1_arg6 m ρ c)
theorem W3_arg6 (c : Dev nD) : W3 m ρ c (Proc.devRef .tc main_arg6) = m ((c : Thread nD τ).loc main_arg6) :=
  (show W3 m ρ c (Proc.devRef .tc main_arg6) = W2 m ρ c (Proc.devRef .tc main_arg6) from
    StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg6 m ρ c)
theorem W4_arg6 (c : Dev nD) : W4 m ρ c (Proc.devRef .tc main_arg6) = m ((c : Thread nD τ).loc main_arg6) :=
  (show W4 m ρ c (Proc.devRef .tc main_arg6) = W3 m ρ c (Proc.devRef .tc main_arg6) from
    W4_of_ne m ρ c main_arg6 (by decide)).trans (W3_arg6 m ρ c)
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) from
    StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg6 m ρ c)
theorem W1_arg7 (c : Dev nD) : W1 m ρ c (Proc.devRef .tc main_arg7) = m ((c : Thread nD τ).loc main_arg7) :=
  (show W1 m ρ c (Proc.devRef .tc main_arg7) = W0 m ρ c (Proc.devRef .tc main_arg7) from
    StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg7 (c : Dev nD) : W2 m ρ c (Proc.devRef .tc main_arg7) = m ((c : Thread nD τ).loc main_arg7) :=
  (show W2 m ρ c (Proc.devRef .tc main_arg7) = W1 m ρ c (Proc.devRef .tc main_arg7) from
    W2_of_ne m ρ c main_arg7 (by decide)).trans (W1_arg7 m ρ c)
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) from
    StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg7 m ρ c)
theorem W4_arg7 (c : Dev nD) : W4 m ρ c (Proc.devRef .tc main_arg7) = m ((c : Thread nD τ).loc main_arg7) :=
  (show W4 m ρ c (Proc.devRef .tc main_arg7) = W3 m ρ c (Proc.devRef .tc main_arg7) from
    W4_of_ne m ρ c main_arg7 (by decide)).trans (W3_arg7 m ρ c)
theorem W1_arg8 (c : Dev nD) : W1 m ρ c (Proc.devRef .tc main_arg8) = m ((c : Thread nD τ).loc main_arg8) :=
  (show W1 m ρ c (Proc.devRef .tc main_arg8) = W0 m ρ c (Proc.devRef .tc main_arg8) from
    StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg8 (c : Dev nD) : W2 m ρ c (Proc.devRef .tc main_arg8) = m ((c : Thread nD τ).loc main_arg8) :=
  (show W2 m ρ c (Proc.devRef .tc main_arg8) = W1 m ρ c (Proc.devRef .tc main_arg8) from
    W2_of_ne m ρ c main_arg8 (by decide)).trans (W1_arg8 m ρ c)
theorem W3_arg8 (c : Dev nD) : W3 m ρ c (Proc.devRef .tc main_arg8) = m ((c : Thread nD τ).loc main_arg8) :=
  (show W3 m ρ c (Proc.devRef .tc main_arg8) = W2 m ρ c (Proc.devRef .tc main_arg8) from
    StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg8 m ρ c)
theorem W4_arg8 (c : Dev nD) : W4 m ρ c (Proc.devRef .tc main_arg8) = m ((c : Thread nD τ).loc main_arg8) :=
  (show W4 m ρ c (Proc.devRef .tc main_arg8) = W3 m ρ c (Proc.devRef .tc main_arg8) from
    W4_of_ne m ρ c main_arg8 (by decide)).trans (W3_arg8 m ρ c)
theorem W5_arg8 (c : Dev nD) : W5 m ρ c (Proc.devRef .tc main_arg8) = m ((c : Thread nD τ).loc main_arg8) :=
  (show W5 m ρ c (Proc.devRef .tc main_arg8) = W4 m ρ c (Proc.devRef .tc main_arg8) from
    StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg8 m ρ c)
theorem W6_arg8 (c : Dev nD) : W6 m ρ c (Proc.devRef .tc main_arg8) = m ((c : Thread nD τ).loc main_arg8) :=
  (show W6 m ρ c (Proc.devRef .tc main_arg8) = W5 m ρ c (Proc.devRef .tc main_arg8) from
    W6_of_ne m ρ c main_arg8 (by decide)).trans (W5_arg8 m ρ c)
theorem W1_arg9 (c : Dev nD) : W1 m ρ c (Proc.devRef .tc main_arg9) = m ((c : Thread nD τ).loc main_arg9) :=
  (show W1 m ρ c (Proc.devRef .tc main_arg9) = W0 m ρ c (Proc.devRef .tc main_arg9) from
    StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg9 (c : Dev nD) : W2 m ρ c (Proc.devRef .tc main_arg9) = m ((c : Thread nD τ).loc main_arg9) :=
  (show W2 m ρ c (Proc.devRef .tc main_arg9) = W1 m ρ c (Proc.devRef .tc main_arg9) from
    W2_of_ne m ρ c main_arg9 (by decide)).trans (W1_arg9 m ρ c)
theorem W3_arg9 (c : Dev nD) : W3 m ρ c (Proc.devRef .tc main_arg9) = m ((c : Thread nD τ).loc main_arg9) :=
  (show W3 m ρ c (Proc.devRef .tc main_arg9) = W2 m ρ c (Proc.devRef .tc main_arg9) from
    StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg9 m ρ c)
theorem W4_arg9 (c : Dev nD) : W4 m ρ c (Proc.devRef .tc main_arg9) = m ((c : Thread nD τ).loc main_arg9) :=
  (show W4 m ρ c (Proc.devRef .tc main_arg9) = W3 m ρ c (Proc.devRef .tc main_arg9) from
    W4_of_ne m ρ c main_arg9 (by decide)).trans (W3_arg9 m ρ c)
theorem W5_arg9 (c : Dev nD) : W5 m ρ c (Proc.devRef .tc main_arg9) = m ((c : Thread nD τ).loc main_arg9) :=
  (show W5 m ρ c (Proc.devRef .tc main_arg9) = W4 m ρ c (Proc.devRef .tc main_arg9) from
    StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg9 m ρ c)
theorem W6_arg9 (c : Dev nD) : W6 m ρ c (Proc.devRef .tc main_arg9) = m ((c : Thread nD τ).loc main_arg9) :=
  (show W6 m ρ c (Proc.devRef .tc main_arg9) = W5 m ρ c (Proc.devRef .tc main_arg9) from
    W6_of_ne m ρ c main_arg9 (by decide)).trans (W5_arg9 m ρ c)
theorem W1_arg10 (c : Dev nD) : W1 m ρ c (Proc.devRef .tc main_arg10) = m ((c : Thread nD τ).loc main_arg10) :=
  (show W1 m ρ c (Proc.devRef .tc main_arg10) = W0 m ρ c (Proc.devRef .tc main_arg10) from
    StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg10 (c : Dev nD) : W2 m ρ c (Proc.devRef .tc main_arg10) = m ((c : Thread nD τ).loc main_arg10) :=
  (show W2 m ρ c (Proc.devRef .tc main_arg10) = W1 m ρ c (Proc.devRef .tc main_arg10) from
    W2_of_ne m ρ c main_arg10 (by decide)).trans (W1_arg10 m ρ c)
theorem W3_arg10 (c : Dev nD) : W3 m ρ c (Proc.devRef .tc main_arg10) = m ((c : Thread nD τ).loc main_arg10) :=
  (show W3 m ρ c (Proc.devRef .tc main_arg10) = W2 m ρ c (Proc.devRef .tc main_arg10) from
    StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg10 m ρ c)
theorem W4_arg10 (c : Dev nD) : W4 m ρ c (Proc.devRef .tc main_arg10) = m ((c : Thread nD τ).loc main_arg10) :=
  (show W4 m ρ c (Proc.devRef .tc main_arg10) = W3 m ρ c (Proc.devRef .tc main_arg10) from
    W4_of_ne m ρ c main_arg10 (by decide)).trans (W3_arg10 m ρ c)
theorem W5_arg10 (c : Dev nD) : W5 m ρ c (Proc.devRef .tc main_arg10) = m ((c : Thread nD τ).loc main_arg10) :=
  (show W5 m ρ c (Proc.devRef .tc main_arg10) = W4 m ρ c (Proc.devRef .tc main_arg10) from
    StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg10 m ρ c)
theorem W6_arg10 (c : Dev nD) : W6 m ρ c (Proc.devRef .tc main_arg10) = m ((c : Thread nD τ).loc main_arg10) :=
  (show W6 m ρ c (Proc.devRef .tc main_arg10) = W5 m ρ c (Proc.devRef .tc main_arg10) from
    W6_of_ne m ρ c main_arg10 (by decide)).trans (W5_arg10 m ρ c)
theorem W1_arg11 (c : Dev nD) : W1 m ρ c (Proc.devRef .tc main_arg11) = m ((c : Thread nD τ).loc main_arg11) :=
  (show W1 m ρ c (Proc.devRef .tc main_arg11) = W0 m ρ c (Proc.devRef .tc main_arg11) from
    StableHlo.after_of_forall_not_mem (b := Proc.devRef .tc main_arg11) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg11 (c : Dev nD) : W2 m ρ c (Proc.devRef .tc main_arg11) = m ((c : Thread nD τ).loc main_arg11) :=
  (show W2 m ρ c (Proc.devRef .tc main_arg11) = W1 m ρ c (Proc.devRef .tc main_arg11) from
    W2_of_ne m ρ c main_arg11 (by decide)).trans (W1_arg11 m ρ c)
theorem W3_arg11 (c : Dev nD) : W3 m ρ c (Proc.devRef .tc main_arg11) = m ((c : Thread nD τ).loc main_arg11) :=
  (show W3 m ρ c (Proc.devRef .tc main_arg11) = W2 m ρ c (Proc.devRef .tc main_arg11) from
    StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg11 m ρ c)
theorem W4_arg11 (c : Dev nD) : W4 m ρ c (Proc.devRef .tc main_arg11) = m ((c : Thread nD τ).loc main_arg11) :=
  (show W4 m ρ c (Proc.devRef .tc main_arg11) = W3 m ρ c (Proc.devRef .tc main_arg11) from
    W4_of_ne m ρ c main_arg11 (by decide)).trans (W3_arg11 m ρ c)
theorem W5_arg11 (c : Dev nD) : W5 m ρ c (Proc.devRef .tc main_arg11) = m ((c : Thread nD τ).loc main_arg11) :=
  (show W5 m ρ c (Proc.devRef .tc main_arg11) = W4 m ρ c (Proc.devRef .tc main_arg11) from
    StableHlo.after_of_forall_not_mem (b := Proc.devRef .tc main_arg11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg11 m ρ c)
theorem W6_arg11 (c : Dev nD) : W6 m ρ c (Proc.devRef .tc main_arg11) = m ((c : Thread nD τ).loc main_arg11) :=
  (show W6 m ρ c (Proc.devRef .tc main_arg11) = W5 m ρ c (Proc.devRef .tc main_arg11) from
    W6_of_ne m ρ c main_arg11 (by decide)).trans (W5_arg11 m ρ c)
theorem W7_arg11 (c : Dev nD) : W7 m ρ c (Proc.devRef .tc main_arg11) = m ((c : Thread nD τ).loc main_arg11) :=
  (show W7 m ρ c (Proc.devRef .tc main_arg11) = W6 m ρ c (Proc.devRef .tc main_arg11) from
    StableHlo.after_of_forall_not_mem (b := Proc.devRef .tc main_arg11) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg11 m ρ c)
theorem W8_arg11 (c : Dev nD) : W8 m ρ c (Proc.devRef .tc main_arg11) = m ((c : Thread nD τ).loc main_arg11) :=
  (show W8 m ρ c (Proc.devRef .tc main_arg11) = W7 m ρ c (Proc.devRef .tc main_arg11) from
    W8_of_ne m ρ c main_arg11 (by decide)).trans (W7_arg11 m ρ c)
theorem W9_arg11 (c : Dev nD) : W9 m ρ c (Proc.devRef .tc main_arg11) = m ((c : Thread nD τ).loc main_arg11) :=
  (show W9 m ρ c (Proc.devRef .tc main_arg11) = W8 m ρ c (Proc.devRef .tc main_arg11) from
    StableHlo.after_of_forall_not_mem (b := Proc.devRef .tc main_arg11) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W8_arg11 m ρ c)
theorem W1_arg12 (c : Dev nD) : W1 m ρ c (Proc.devRef .tc main_arg12) = m ((c : Thread nD τ).loc main_arg12) :=
  (show W1 m ρ c (Proc.devRef .tc main_arg12) = W0 m ρ c (Proc.devRef .tc main_arg12) from
    StableHlo.after_of_forall_not_mem (b := Proc.devRef .tc main_arg12) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg12 (c : Dev nD) : W2 m ρ c (Proc.devRef .tc main_arg12) = m ((c : Thread nD τ).loc main_arg12) :=
  (show W2 m ρ c (Proc.devRef .tc main_arg12) = W1 m ρ c (Proc.devRef .tc main_arg12) from
    W2_of_ne m ρ c main_arg12 (by decide)).trans (W1_arg12 m ρ c)
theorem W3_arg12 (c : Dev nD) : W3 m ρ c (Proc.devRef .tc main_arg12) = m ((c : Thread nD τ).loc main_arg12) :=
  (show W3 m ρ c (Proc.devRef .tc main_arg12) = W2 m ρ c (Proc.devRef .tc main_arg12) from
    StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg12 m ρ c)
theorem W4_arg12 (c : Dev nD) : W4 m ρ c (Proc.devRef .tc main_arg12) = m ((c : Thread nD τ).loc main_arg12) :=
  (show W4 m ρ c (Proc.devRef .tc main_arg12) = W3 m ρ c (Proc.devRef .tc main_arg12) from
    W4_of_ne m ρ c main_arg12 (by decide)).trans (W3_arg12 m ρ c)
theorem W5_arg12 (c : Dev nD) : W5 m ρ c (Proc.devRef .tc main_arg12) = m ((c : Thread nD τ).loc main_arg12) :=
  (show W5 m ρ c (Proc.devRef .tc main_arg12) = W4 m ρ c (Proc.devRef .tc main_arg12) from
    StableHlo.after_of_forall_not_mem (b := Proc.devRef .tc main_arg12) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg12 m ρ c)
theorem W6_arg12 (c : Dev nD) : W6 m ρ c (Proc.devRef .tc main_arg12) = m ((c : Thread nD τ).loc main_arg12) :=
  (show W6 m ρ c (Proc.devRef .tc main_arg12) = W5 m ρ c (Proc.devRef .tc main_arg12) from
    W6_of_ne m ρ c main_arg12 (by decide)).trans (W5_arg12 m ρ c)
theorem W7_arg12 (c : Dev nD) : W7 m ρ c (Proc.devRef .tc main_arg12) = m ((c : Thread nD τ).loc main_arg12) :=
  (show W7 m ρ c (Proc.devRef .tc main_arg12) = W6 m ρ c (Proc.devRef .tc main_arg12) from
    StableHlo.after_of_forall_not_mem (b := Proc.devRef .tc main_arg12) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg12 m ρ c)
theorem W8_arg12 (c : Dev nD) : W8 m ρ c (Proc.devRef .tc main_arg12) = m ((c : Thread nD τ).loc main_arg12) :=
  (show W8 m ρ c (Proc.devRef .tc main_arg12) = W7 m ρ c (Proc.devRef .tc main_arg12) from
    W8_of_ne m ρ c main_arg12 (by decide)).trans (W7_arg12 m ρ c)
theorem W1_arg13 (c : Dev nD) : W1 m ρ c (Proc.devRef .tc main_arg13) = m ((c : Thread nD τ).loc main_arg13) :=
  (show W1 m ρ c (Proc.devRef .tc main_arg13) = W0 m ρ c (Proc.devRef .tc main_arg13) from
    StableHlo.after_of_forall_not_mem (b := Proc.devRef .tc main_arg13) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg13 (c : Dev nD) : W2 m ρ c (Proc.devRef .tc main_arg13) = m ((c : Thread nD τ).loc main_arg13) :=
  (show W2 m ρ c (Proc.devRef .tc main_arg13) = W1 m ρ c (Proc.devRef .tc main_arg13) from
    W2_of_ne m ρ c main_arg13 (by decide)).trans (W1_arg13 m ρ c)
theorem W3_arg13 (c : Dev nD) : W3 m ρ c (Proc.devRef .tc main_arg13) = m ((c : Thread nD τ).loc main_arg13) :=
  (show W3 m ρ c (Proc.devRef .tc main_arg13) = W2 m ρ c (Proc.devRef .tc main_arg13) from
    StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg13 m ρ c)
theorem W4_arg13 (c : Dev nD) : W4 m ρ c (Proc.devRef .tc main_arg13) = m ((c : Thread nD τ).loc main_arg13) :=
  (show W4 m ρ c (Proc.devRef .tc main_arg13) = W3 m ρ c (Proc.devRef .tc main_arg13) from
    W4_of_ne m ρ c main_arg13 (by decide)).trans (W3_arg13 m ρ c)
theorem W5_arg13 (c : Dev nD) : W5 m ρ c (Proc.devRef .tc main_arg13) = m ((c : Thread nD τ).loc main_arg13) :=
  (show W5 m ρ c (Proc.devRef .tc main_arg13) = W4 m ρ c (Proc.devRef .tc main_arg13) from
    StableHlo.after_of_forall_not_mem (b := Proc.devRef .tc main_arg13) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg13 m ρ c)
theorem W6_arg13 (c : Dev nD) : W6 m ρ c (Proc.devRef .tc main_arg13) = m ((c : Thread nD τ).loc main_arg13) :=
  (show W6 m ρ c (Proc.devRef .tc main_arg13) = W5 m ρ c (Proc.devRef .tc main_arg13) from
    W6_of_ne m ρ c main_arg13 (by decide)).trans (W5_arg13 m ρ c)
theorem W7_arg13 (c : Dev nD) : W7 m ρ c (Proc.devRef .tc main_arg13) = m ((c : Thread nD τ).loc main_arg13) :=
  (show W7 m ρ c (Proc.devRef .tc main_arg13) = W6 m ρ c (Proc.devRef .tc main_arg13) from
    StableHlo.after_of_forall_not_mem (b := Proc.devRef .tc main_arg13) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg13 m ρ c)
theorem W8_arg13 (c : Dev nD) : W8 m ρ c (Proc.devRef .tc main_arg13) = m ((c : Thread nD τ).loc main_arg13) :=
  (show W8 m ρ c (Proc.devRef .tc main_arg13) = W7 m ρ c (Proc.devRef .tc main_arg13) from
    W8_of_ne m ρ c main_arg13 (by decide)).trans (W7_arg13 m ρ c)
theorem W1_arg14 (c : Dev nD) : W1 m ρ c (Proc.devRef .tc main_arg14) = m ((c : Thread nD τ).loc main_arg14) :=
  (show W1 m ρ c (Proc.devRef .tc main_arg14) = W0 m ρ c (Proc.devRef .tc main_arg14) from
    StableHlo.after_of_forall_not_mem (b := Proc.devRef .tc main_arg14) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg14 (c : Dev nD) : W2 m ρ c (Proc.devRef .tc main_arg14) = m ((c : Thread nD τ).loc main_arg14) :=
  (show W2 m ρ c (Proc.devRef .tc main_arg14) = W1 m ρ c (Proc.devRef .tc main_arg14) from
    W2_of_ne m ρ c main_arg14 (by decide)).trans (W1_arg14 m ρ c)
theorem W3_arg14 (c : Dev nD) : W3 m ρ c (Proc.devRef .tc main_arg14) = m ((c : Thread nD τ).loc main_arg14) :=
  (show W3 m ρ c (Proc.devRef .tc main_arg14) = W2 m ρ c (Proc.devRef .tc main_arg14) from
    StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg14 m ρ c)
theorem W4_arg14 (c : Dev nD) : W4 m ρ c (Proc.devRef .tc main_arg14) = m ((c : Thread nD τ).loc main_arg14) :=
  (show W4 m ρ c (Proc.devRef .tc main_arg14) = W3 m ρ c (Proc.devRef .tc main_arg14) from
    W4_of_ne m ρ c main_arg14 (by decide)).trans (W3_arg14 m ρ c)
theorem W5_arg14 (c : Dev nD) : W5 m ρ c (Proc.devRef .tc main_arg14) = m ((c : Thread nD τ).loc main_arg14) :=
  (show W5 m ρ c (Proc.devRef .tc main_arg14) = W4 m ρ c (Proc.devRef .tc main_arg14) from
    StableHlo.after_of_forall_not_mem (b := Proc.devRef .tc main_arg14) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg14 m ρ c)
theorem W6_arg14 (c : Dev nD) : W6 m ρ c (Proc.devRef .tc main_arg14) = m ((c : Thread nD τ).loc main_arg14) :=
  (show W6 m ρ c (Proc.devRef .tc main_arg14) = W5 m ρ c (Proc.devRef .tc main_arg14) from
    W6_of_ne m ρ c main_arg14 (by decide)).trans (W5_arg14 m ρ c)
theorem W7_arg14 (c : Dev nD) : W7 m ρ c (Proc.devRef .tc main_arg14) = m ((c : Thread nD τ).loc main_arg14) :=
  (show W7 m ρ c (Proc.devRef .tc main_arg14) = W6 m ρ c (Proc.devRef .tc main_arg14) from
    StableHlo.after_of_forall_not_mem (b := Proc.devRef .tc main_arg14) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg14 m ρ c)
theorem W8_arg14 (c : Dev nD) : W8 m ρ c (Proc.devRef .tc main_arg14) = m ((c : Thread nD τ).loc main_arg14) :=
  (show W8 m ρ c (Proc.devRef .tc main_arg14) = W7 m ρ c (Proc.devRef .tc main_arg14) from
    W8_of_ne m ρ c main_arg14 (by decide)).trans (W7_arg14 m ρ c)
theorem W2_v0 (c : Dev nD) : W2 m ρ c (Proc.devRef .tc main_call0_v0) = W1 m ρ c (Proc.devRef .tc main_call0_v0) :=
  show W2 m ρ c (Proc.devRef .tc main_call0_v0) = W1 m ρ c (Proc.devRef .tc main_call0_v0) from
    (W2_arr m ρ c 2).trans (((dat0 (V1 m ρ) c).arrAt_in 2 rfl _).trans (A_eq0 (V1 m ρ) c 2))
theorem W3_v0 (c : Dev nD) : W3 m ρ c (Proc.devRef .tc main_call0_v0) = W1 m ρ c (Proc.devRef .tc main_call0_v0) :=
  (show W3 m ρ c (Proc.devRef .tc main_call0_v0) = W2 m ρ c (Proc.devRef .tc main_call0_v0) from
    StableHlo.after_of_forall_not_mem (b := Proc.devRef .tc main_call0_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v0 m ρ c)
theorem W4_v0 (c : Dev nD) : W4 m ρ c (Proc.devRef .tc main_call0_v0) = W1 m ρ c (Proc.devRef .tc main_call0_v0) :=
  (show W4 m ρ c (Proc.devRef .tc main_call0_v0) = W3 m ρ c (Proc.devRef .tc main_call0_v0) from
    W4_of_ne m ρ c main_call0_v0 (by decide)).trans (W3_v0 m ρ c)
theorem W5_v0 (c : Dev nD) : W5 m ρ c (Proc.devRef .tc main_call0_v0) = W1 m ρ c (Proc.devRef .tc main_call0_v0) :=
  (show W5 m ρ c (Proc.devRef .tc main_call0_v0) = W4 m ρ c (Proc.devRef .tc main_call0_v0) from
    StableHlo.after_of_forall_not_mem (b := Proc.devRef .tc main_call0_v0) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v0 m ρ c)
theorem W5_v37 (c : Dev nD) : W5 m ρ c (Proc.devRef .tc main_call0_v37) = W4 m ρ c (Proc.devRef .tc main_call0_v37) :=
  show W5 m ρ c (Proc.devRef .tc main_call0_v37) = W4 m ρ c (Proc.devRef .tc main_call0_v37) from
    StableHlo.after_of_forall_not_mem (b := Proc.devRef .tc main_call0_v37) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem W6_v37 (c : Dev nD) : W6 m ρ c (Proc.devRef .tc main_call0_v37) = W4 m ρ c (Proc.devRef .tc main_call0_v37) :=
  (show W6 m ρ c (Proc.devRef .tc main_call0_v37) = W5 m ρ c (Proc.devRef .tc main_call0_v37) from
    W6_of_ne m ρ c main_call0_v37 (by decide)).trans (W5_v37 m ρ c)
theorem W7_v37 (c : Dev nD) : W7 m ρ c (Proc.devRef .tc main_call0_v37) = W4 m ρ c (Proc.devRef .tc main_call0_v37) :=
  (show W7 m ρ c (Proc.devRef .tc main_call0_v37) = W6 m ρ c (Proc.devRef .tc main_call0_v37) from
    StableHlo.after_of_forall_not_mem (b := Proc.devRef .tc main_call0_v37) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_v37 m ρ c)
theorem W9_v74 (c : Dev nD) : W9 m ρ c (Proc.devRef .tc main_call0_v74) = W8 m ρ c (Proc.devRef .tc main_call0_v74) :=
  show W9 m ρ c (Proc.devRef .tc main_call0_v74) = W8 m ρ c (Proc.devRef .tc main_call0_v74) from
    StableHlo.after_of_forall_not_mem (b := Proc.devRef .tc main_call0_v74) _ _ (List.forall_iff_forall_mem.mp (by
      simp only [hostOps4, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.Carry

end
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.MsgMath.lean ====
import Idealize.ShloMosaic.PureOps.Ideal.Laws
import Idealize.ShloMosaic.Lib.ValueIdx
import proofs.«144611_j71408126263501_2_alg».proof.Proof.LibConcatCols

/-!
# One edge's message, on the extended reals

An edge's message is a two-layer perceptron of the joined row `[h_src | h_dst | e]` (64 + 64 + 8 entries):
`relu([h_src | h_dst | e]·W₁ + b₁)·W₂ + b₂`.  Because the first layer is linear in the joined row, it is the
sum of three products, of each part of the row with the rows of `W₁` it meets (rows 0–63, 64–127, 128–135):
splitting a finite sum at two positions uses only that addition is associative, so it holds with infinite
entries as well.  This file states the message in the three-product form and proves the splitting.
-/

noncomputable section

namespace Cert.Msg

open Idealize.ShloMosaic Idealize.ShloMosaic.ValueIdx
open scoped BigOperators

/-- A matrix of extended reals. -/
abbrev Mat (r c : ℕ) : Type := (⟨2, ![r, c]⟩ : Shape).Idx → EReal

/-- Hidden unit `q` of one edge: `max (s·Wa + d·Wb + e·Wc + b₁) 0` at column `q`. -/
def hidden (s d : Fin 64 → EReal) (e : Fin 8 → EReal) (wa wb : Mat 64 128) (wc : Mat 8 128) (b1 : Mat 1 128) (q : Fin 128) : EReal :=
  max ((((∑ k : Fin 64, s k * wa (ix2 k q)) + ∑ k : Fin 64, d k * wb (ix2 k q)) + ∑ k : Fin 8, e k * wc (ix2 k q))
    + b1 (ix2 (0 : Fin 1) q)) (Ideal.ofBits .f32 0x00000000#32)

/-- Entry `j` of one edge's message: the hidden units times column `j` of `W₂`, plus `b₂`. -/
def row (s d : Fin 64 → EReal) (e : Fin 8 → EReal) (wa wb : Mat 64 128) (wc : Mat 8 128) (b1 : Mat 1 128)
    (w2 : Mat 128 64) (b2 : Mat 1 64) (j : Fin 64) : EReal :=
  (∑ q : Fin 128, hidden s d e wa wb wc b1 q * w2 (ix2 q j)) + b2 (ix2 (0 : Fin 1) j)

/-- The messages of `R` edges: edge `r`'s message from row `r` of the three edge-indexed arrays. -/
def msgs {R : ℕ} (s d : Mat R 64) (e : Mat R 8) (wa wb : Mat 64 128) (wc : Mat 8 128) (b1 : Mat 1 128)
    (w2 : Mat 128 64) (b2 : Mat 1 64) : Mat R 64 :=
  fun i => row (fun k => s (ix2 (i 0) k)) (fun k => d (ix2 (i 0) k)) (fun k => e (ix2 (i 0) k)) wa wb wc b1 w2 b2 (i 1)

theorem msgs_apply {R : ℕ} (s d : Mat R 64) (e : Mat R 8) (wa wb : Mat 64 128) (wc : Mat 8 128) (b1 : Mat 1 128)
    (w2 : Mat 128 64) (b2 : Mat 1 64) (r : Fin R) (j : Fin 64) :
    msgs s d e wa wb wc b1 w2 b2 (ix2 r j)
      = row (fun k => s (ix2 r k)) (fun k => d (ix2 r k)) (fun k => e (ix2 r k)) wa wb wc b1 w2 b2 j := rfl

/-- Rows `o, …, o + n − 1` of a matrix. -/
def rowsFrom (o : ℕ) {n N c : ℕ} (h : o + n ≤ N) (W : Mat N c) : Mat n c :=
  fun i => W (ix2 ⟨o + (i 0).val, by have := (i 0).isLt; simp only [Matrix.cons_val_zero] at this; omega⟩ (i 1))

theorem rowsFrom_apply (o : ℕ) {n N c : ℕ} (h : o + n ≤ N) (W : Mat N c) (k : Fin n) (q : Fin c) :
    rowsFrom o h W (ix2 k q) = W (ix2 ⟨o + k.val, by have := k.isLt; omega⟩ q) := rfl

/-- The first layer on the joined row is the sum of the three parts' products: a sum over 136 positions split at
    64 and at 128. -/
theorem joined_split (f : Fin 136 → EReal) :
    ∑ k : Fin 136, f k
      = ((∑ k : Fin 64, f ⟨k.val, by have := k.isLt; omega⟩) + ∑ k : Fin 64, f ⟨64 + k.val, by have := k.isLt; omega⟩)
        + ∑ k : Fin 8, f ⟨128 + k.val, by have := k.isLt; omega⟩ := by
  rw [Cert.Lib.sum_fin_add (show 128 + 8 = 136 from rfl) f,
    Cert.Lib.sum_fin_add (show 64 + 64 = 128 from rfl) (fun k : Fin 128 => f ⟨k.val, by have := k.isLt; omega⟩)]

end Cert.Msg

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.MsgPay0.lean ====
import proofs.«144611_j71408126263501_2_alg».proof.Proof.Gen.KernelIdeal.Skeleton
import proofs.«144611_j71408126263501_2_alg».proof.Proof.MsgMath
import proofs.«144611_j71408126263501_2_alg».proof.Proof.LibMatDot
import Idealize.ShloMosaic.Lib.ValueLayout
import Idealize.ShloMosaic.Lib.Pipeline.Value

/-!
# The message kernel's arithmetic at an entry (launch 0)

The body multiplies the block of source rows, of destination rows and of edge features each by its part of
`W₁`, adds the three products and the bias row, clamps at zero, multiplies by `W₂` and adds the second bias
row.  Read at row `r` and column `j` of the block this is the message of the edge in row `r`: each matrix
product into a zero accumulator is the row-by-column sum, a change of float format is the identity on extended
reals, and a bias row stretched over the block reads its own entry in every row.
-/

noncomputable section

namespace Cert.KernelIdeal.MsgPay0

open Cert.KernelIdeal Cert.KernelIdeal.Gen Idealize.ShloMosaic Idealize.ShloMosaic.ValueIdx
open scoped BigOperators

/-- A product of a block with a weight matrix into the zero accumulator, the operands first cast in place and
    the weights narrowed: the row-by-column sum. -/
theorem prod64 (x : FVec Ideal S4000x64 .bf16) (w : FVec Ideal S64x128 .f32) (r : Fin 4000) (q : Fin 128) :
    @Eq EReal (matmul (F := Ideal) dot_S4000x64_S64x128_S4000x128_1_0_0_1_n_n none (shapeCast S4000x64 x shapeCasts_S4000x64_S4000x64)
        (truncf .bf16 (shapeCast S64x128 w shapeCasts_S64x128_S64x128) bitsLt_bf16_f32) (constant S4000x128 .f32 0x00000000#32) (ix2 r q))
      (∑ k : Fin 64, (x (ix2 r k) : EReal) * (w (ix2 k q) : EReal)) := by
  rw [shapeCast_self, shapeCast_self]
  exact Cert.Lib.matmul_plain_zero_apply dot_S4000x64_S64x128_S4000x128_1_0_0_1_n_n.wf none x (truncf .bf16 w bitsLt_bf16_f32) r q

theorem prod8 (x : FVec Ideal S4000x8 .bf16) (w : FVec Ideal S8x128 .f32) (r : Fin 4000) (q : Fin 128) :
    @Eq EReal (matmul (F := Ideal) dot_S4000x8_S8x128_S4000x128_1_0_0_1_n_n none (shapeCast S4000x8 x shapeCasts_S4000x8_S4000x8)
        (truncf .bf16 (shapeCast S8x128 w shapeCasts_S8x128_S8x128) bitsLt_bf16_f32) (constant S4000x128 .f32 0x00000000#32) (ix2 r q))
      (∑ k : Fin 8, (x (ix2 r k) : EReal) * (w (ix2 k q) : EReal)) := by
  rw [shapeCast_self, shapeCast_self]
  exact Cert.Lib.matmul_plain_zero_apply dot_S4000x8_S8x128_S4000x128_1_0_0_1_n_n.wf none x (truncf .bf16 w bitsLt_bf16_f32) r q

/-- The bias row stretched over the block reads its own entry. -/
theorem bias128 (b : FVec Ideal S1x128 .f32) (r : Fin 4000) (q : Fin 128) :
    @Eq EReal (broadcastTo S4000x128 (shapeCast S1x128 b shapeCasts_S1x128_S1x128) broadcasts_S1x128_S4000x128 (ix2 r q)) (b (ix2 (0 : Fin 1) q)) := by
  rw [shapeCast_self]
  exact broadcastTo_1b_ab_apply b broadcasts_S1x128_S4000x128 r q

theorem bias64 (b : FVec Ideal S1x64 .f32) (r : Fin 4000) (j : Fin 64) :
    @Eq EReal (broadcastTo S4000x64 (shapeCast S1x64 b shapeCasts_S1x64_S1x64) broadcasts_S1x64_S4000x64 (ix2 r j)) (b (ix2 (0 : Fin 1) j)) := by
  rw [shapeCast_self]
  exact broadcastTo_1b_ab_apply b broadcasts_S1x64_S4000x64 r j

/-- The body's result at row `r`, column `j` of the block is the message of the edge in row `r`. -/
theorem pay_apply (x0 x1 : FVec Ideal S4000x64 .bf16) (x2 : FVec Ideal S4000x8 .bf16) (x3 x4 : FVec Ideal S64x128 .f32)
    (x5 : FVec Ideal S8x128 .f32) (x6 : FVec Ideal S1x128 .f32) (x7 : FVec Ideal S128x64 .f32) (x8 : FVec Ideal S1x64 .f32)
    (r : Fin 4000) (j : Fin 64) :
    @Eq EReal (k0_pay1 (F := Ideal) x0 x1 x2 x3 x4 x5 x6 x7 x8 (ix2 r j))
      (Cert.Msg.row (fun k => x0 (ix2 r k)) (fun k => x1 (ix2 r k)) (fun k => x2 (ix2 r k)) x3 x4 x5 x6 x7 x8 j) := by
  unfold k0_pay1 Cert.Msg.row
  refine (addf_apply _ _ _).trans ?_
  refine congrArg₂ (· + ·) ?_ (bias64 x8 r j)
  refine (Cert.Lib.matmul_plain_zero_apply dot_S4000x128_S128x64_S4000x64_1_0_0_1_n_n.wf none _ _ r j).trans ?_
  refine Finset.sum_congr rfl fun q _ => ?_
  refine congrArg₂ (· * ·) ?_ rfl
  unfold Cert.Msg.hidden
  refine (truncf_apply (s := S4000x128) (φ := .f32) (ψ := .bf16) _ bitsLt_bf16_f32 (ix2 r q)).trans ?_
  refine (maximumf_apply _ _ _).trans ?_
  refine congrArg₂ max ?_ rfl
  refine (addf_apply _ _ _).trans ?_
  refine congrArg₂ (· + ·) ?_ (bias128 x6 r q)
  refine (addf_apply _ _ _).trans ?_
  refine congrArg₂ (· + ·) ?_ (prod8 x2 x5 r q)
  refine (addf_apply _ _ _).trans ?_
  exact congrArg₂ (· + ·) (prod64 x0 x3 r q) (prod64 x1 x4 r q)

end Cert.KernelIdeal.MsgPay0

end
-- ==== Proof.MsgArr0.lean ====
import proofs.«144611_j71408126263501_2_alg».proof.Proof.Gen.KernelIdeal.Frame
import proofs.«144611_j71408126263501_2_alg».proof.Proof.MsgPay0

/-!
# The message array that launch 0 leaves

The launch cuts the 400000 edges into 100 blocks of 4000 rows; at block `t` the body reads rows
`4000·t, …, 4000·t + 3999` of the source rows, the destination rows and the edge features, and the whole of each
weight array, and writes rows `4000·t, …` of the result.  Row `p` of the block's result is the message of edge
`4000·t + p`, so the blocks together are the message array of all edges.
-/

set_option maxRecDepth 16384

noncomputable section

namespace Cert.KernelIdeal.MsgArr0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the edge-indexed windows sit at block `(t, 0)`, the weight windows at `(0, 0)`. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-- Window 3 holds its whole array at every point. -/
theorem whole3 (c : Dev nD) (t : Fin cfg0.N) : iblk0 V c 3 t = V c main_call0_v16 := by
  funext z
  show V c main_call0_v16 (((cfg0.win 3).blk t).view.emb z) = V c main_call0_v16 z
  refine congrArg (V c main_call0_v16) (funext fun ax => Fin.ext ?_)
  have e0 : win0_3.index t (0 : Fin 2) = 0 := (idx_facts t).2.2.2.2.2.2.1
  have e1 : win0_3.index t (1 : Fin 2) = 0 := (idx_facts t).2.2.2.2.2.2.2.1
  match ax with
  | ⟨0, _⟩ => show win0_3.index t (0 : Fin 2) * 64 + 1 * (z 0).val = (z 0).val; omega
  | ⟨1, _⟩ => show win0_3.index t (1 : Fin 2) * 128 + 1 * (z 1).val = (z 1).val; omega

/-- Window 4 holds its whole array at every point. -/
theorem whole4 (c : Dev nD) (t : Fin cfg0.N) : iblk0 V c 4 t = V c main_call0_v17 := by
  funext z
  show V c main_call0_v17 (((cfg0.win 4).blk t).view.emb z) = V c main_call0_v17 z
  refine congrArg (V c main_call0_v17) (funext fun ax => Fin.ext ?_)
  have e0 : win0_4.index t (0 : Fin 2) = 0 := (idx_facts t).2.2.2.2.2.2.2.2.1
  have e1 : win0_4.index t (1 : Fin 2) = 0 := (idx_facts t).2.2.2.2.2.2.2.2.2.1
  match ax with
  | ⟨0, _⟩ => show win0_4.index t (0 : Fin 2) * 64 + 1 * (z 0).val = (z 0).val; omega
  | ⟨1, _⟩ => show win0_4.index t (1 : Fin 2) * 128 + 1 * (z 1).val = (z 1).val; omega

/-- Window 5 holds its whole array at every point. -/
theorem whole5 (c : Dev nD) (t : Fin cfg0.N) : iblk0 V c 5 t = V c main_call0_v18 := by
  funext z
  show V c main_call0_v18 (((cfg0.win 5).blk t).view.emb z) = V c main_call0_v18 z
  refine congrArg (V c main_call0_v18) (funext fun ax => Fin.ext ?_)
  have e0 : win0_5.index t (0 : Fin 2) = 0 := (idx_facts t).2.2.2.2.2.2.2.2.2.2.1
  have e1 : win0_5.index t (1 : Fin 2) = 0 := (idx_facts t).2.2.2.2.2.2.2.2.2.2.2.1
  match ax with
  | ⟨0, _⟩ => show win0_5.index t (0 : Fin 2) * 8 + 1 * (z 0).val = (z 0).val; omega
  | ⟨1, _⟩ => show win0_5.index t (1 : Fin 2) * 128 + 1 * (z 1).val = (z 1).val; omega

/-- Window 6 holds its whole array at every point. -/
theorem whole6 (c : Dev nD) (t : Fin cfg0.N) : iblk0 V c 6 t = V c main_call0_v19 := by
  funext z
  show V c main_call0_v19 (((cfg0.win 6).blk t).view.emb z) = V c main_call0_v19 z
  refine congrArg (V c main_call0_v19) (funext fun ax => Fin.ext ?_)
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  match ax with
  | ⟨0, _⟩ => show win0_6.index t (0 : Fin 2) * 1 + 1 * (z 0).val = (z 0).val; omega
  | ⟨1, _⟩ => show win0_6.index t (1 : Fin 2) * 128 + 1 * (z 1).val = (z 1).val; omega

/-- Window 7 holds its whole array at every point. -/
theorem whole7 (c : Dev nD) (t : Fin cfg0.N) : iblk0 V c 7 t = V c main_arg6 := by
  funext z
  show V c main_arg6 (((cfg0.win 7).blk t).view.emb z) = V c main_arg6 z
  refine congrArg (V c main_arg6) (funext fun ax => Fin.ext ?_)
  have e0 : win0_7.index t (0 : Fin 2) = 0 := (idx_facts t).2.2.2.2.2.2.2.2.2.2.2.2.2.2.1
  have e1 : win0_7.index t (1 : Fin 2) = 0 := (idx_facts t).2.2.2.2.2.2.2.2.2.2.2.2.2.2.2.1
  match ax with
  | ⟨0, _⟩ => show win0_7.index t (0 : Fin 2) * 128 + 1 * (z 0).val = (z 0).val; omega
  | ⟨1, _⟩ => show win0_7.index t (1 : Fin 2) * 64 + 1 * (z 1).val = (z 1).val; omega

/-- Window 8 holds its whole array at every point. -/
theorem whole8 (c : Dev nD) (t : Fin cfg0.N) : iblk0 V c 8 t = V c main_call0_v20 := by
  funext z
  show V c main_call0_v20 (((cfg0.win 8).blk t).view.emb z) = V c main_call0_v20 z
  refine congrArg (V c main_call0_v20) (funext fun ax => Fin.ext ?_)
  have e0 : win0_8.index t (0 : Fin 2) = 0 := (idx_facts t).2.2.2.2.2.2.2.2.2.2.2.2.2.2.2.2.1
  have e1 : win0_8.index t (1 : Fin 2) = 0 := (idx_facts t).2.2.2.2.2.2.2.2.2.2.2.2.2.2.2.2.2.1
  match ax with
  | ⟨0, _⟩ => show win0_8.index t (0 : Fin 2) * 1 + 1 * (z 0).val = (z 0).val; omega
  | ⟨1, _⟩ => show win0_8.index t (1 : Fin 2) * 64 + 1 * (z 1).val = (z 1).val; omega

/-- Row `p` of window 0's block at point `t` is row `4000·t + p` of its array. -/
theorem rowOf0 (c : Dev nD) (t : Fin cfg0.N) (p : Fin 4000) (k : Fin 64) (g : Fin 400000) (hg : g.val = t.val * 4000 + p.val) :
    iblk0 V c 0 t (ix2 p k) = V c main_call0_v8 (ix2 g k) := by
  show V c main_call0_v8 (((cfg0.win 0).blk t).view.emb (ix2 p k)) = V c main_call0_v8 (ix2 g k)
  refine congrArg (V c main_call0_v8) (funext fun ax => Fin.ext ?_)
  have e0 : win0_0.index t (0 : Fin 2) = t.val := (idx_facts t).1
  have e1 : win0_0.index t (1 : Fin 2) = 0 := (idx_facts t).2.1
  match ax with
  | ⟨0, _⟩ => show win0_0.index t (0 : Fin 2) * 4000 + 1 * p.val = g.val; omega
  | ⟨1, _⟩ => show win0_0.index t (1 : Fin 2) * 64 + 1 * k.val = k.val; omega

/-- Row `p` of window 1's block at point `t` is row `4000·t + p` of its array. -/
theorem rowOf1 (c : Dev nD) (t : Fin cfg0.N) (p : Fin 4000) (k : Fin 64) (g : Fin 400000) (hg : g.val = t.val * 4000 + p.val) :
    iblk0 V c 1 t (ix2 p k) = V c main_call0_v15 (ix2 g k) := by
  show V c main_call0_v15 (((cfg0.win 1).blk t).view.emb (ix2 p k)) = V c main_call0_v15 (ix2 g k)
  refine congrArg (V c main_call0_v15) (funext fun ax => Fin.ext ?_)
  have e0 : win0_1.index t (0 : Fin 2) = t.val := (idx_facts t).2.2.1
  have e1 : win0_1.index t (1 : Fin 2) = 0 := (idx_facts t).2.2.2.1
  match ax with
  | ⟨0, _⟩ => show win0_1.index t (0 : Fin 2) * 4000 + 1 * p.val = g.val; omega
  | ⟨1, _⟩ => show win0_1.index t (1 : Fin 2) * 64 + 1 * k.val = k.val; omega

/-- Row `p` of window 2's block at point `t` is row `4000·t + p` of its array. -/
theorem rowOf2 (c : Dev nD) (t : Fin cfg0.N) (p : Fin 4000) (k : Fin 8) (g : Fin 400000) (hg : g.val = t.val * 4000 + p.val) :
    iblk0 V c 2 t (ix2 p k) = V c main_call0_v0 (ix2 g k) := by
  show V c main_call0_v0 (((cfg0.win 2).blk t).view.emb (ix2 p k)) = V c main_call0_v0 (ix2 g k)
  refine congrArg (V c main_call0_v0) (funext fun ax => Fin.ext ?_)
  have e0 : win0_2.index t (0 : Fin 2) = t.val := (idx_facts t).2.2.2.2.1
  have e1 : win0_2.index t (1 : Fin 2) = 0 := (idx_facts t).2.2.2.2.2.1
  match ax with
  | ⟨0, _⟩ => show win0_2.index t (0 : Fin 2) * 4000 + 1 * p.val = g.val; omega
  | ⟨1, _⟩ => show win0_2.index t (1 : Fin 2) * 8 + 1 * k.val = k.val; omega

/-- The arrays the launch finds, as matrices of extended reals. -/
abbrev found (c : Dev nD) : Cert.Msg.Mat 400000 64 :=
  Cert.Msg.msgs (V c main_call0_v8) (V c main_call0_v15) (V c main_call0_v0) (V c main_call0_v16) (V c main_call0_v17) (V c main_call0_v18) (V c main_call0_v19) (V c main_arg6) (V c main_call0_v20)

/-- What point `t` writes back is block `t` of the message array. -/
theorem flushed_eq (c : Dev nD) (t : Fin cfg0.N) :
    (dat0 V c).flushed 9 t = ((cfg0.win 9).blk t).view.read (Elt Ideal) (found V c) := by
  show (cfg0.win 9).cut (grid0.coords t) ((dat0 V c).after 9 t) = _
  rw [after0_9]
  unfold out0_9
  rw [View.canon_unit_zero hz]
  simp only [View.ld_unit_zero (S := S4000x64) hz, View.ld_unit_zero (S := S4000x8) hz, View.ld_unit_zero (S := S64x128) hz,
    View.ld_unit_zero (S := S8x128) hz, View.ld_unit_zero (S := S1x128) hz, View.ld_unit_zero (S := S128x64) hz, View.ld_unit_zero (S := S1x64) hz]
  rw [whole3 V c t, whole4 V c t, whole5 V c t, whole6 V c t, whole7 V c t, whole8 V c t]
  funext y
  have e0 : win0_9.index t (0 : Fin 2) = t.val := (idx_facts t).2.2.2.2.2.2.2.2.2.2.2.2.2.2.2.2.2.2.1
  have e1 : win0_9.index t (1 : Fin 2) = 0 := (idx_facts t).2.2.2.2.2.2.2.2.2.2.2.2.2.2.2.2.2.2.2
  have hp : (y 0).val < 4000 := (y 0).isLt
  have hq : (y 1).val < 64 := (y 1).isLt
  have ht : t.val < 100 := lt_of_lt_of_eq t.isLt N_0
  let p : Fin 4000 := ⟨(y 0).val, hp⟩
  let q : Fin 64 := ⟨(y 1).val, hq⟩
  let g : Fin 400000 := ⟨t.val * 4000 + (y 0).val, by omega⟩
  have hy : y = ix2 p q := funext fun ax => Fin.ext (by match ax with | ⟨0, _⟩ => rfl | ⟨1, _⟩ => rfl)
  have hemb : ((cfg0.win 9).blk t).view.emb y = ix2 g q := funext fun ax => Fin.ext (by
    match ax with
    | ⟨0, _⟩ => show win0_9.index t (0 : Fin 2) * 4000 + 1 * (y 0).val = t.val * 4000 + (y 0).val; omega
    | ⟨1, _⟩ => show win0_9.index t (1 : Fin 2) * 64 + 1 * (y 1).val = (y 1).val; omega)
  show k0_pay1 (F := Ideal) (iblk0 V c 0 t) (iblk0 V c 1 t) (iblk0 V c 2 t) (V c main_call0_v16) (V c main_call0_v17) (V c main_call0_v18) (V c main_call0_v19) (V c main_arg6) (V c main_call0_v20) y
    = found V c (((cfg0.win 9).blk t).view.emb y)
  rw [hemb, hy]
  refine (Cert.KernelIdeal.MsgPay0.pay_apply _ _ _ _ _ _ _ _ _ p q).trans ?_
  show _ = Cert.Msg.row _ _ _ _ _ _ _ _ _ q
  have r0 : (fun k : Fin 64 => iblk0 V c 0 t (ix2 p k)) = fun k => V c main_call0_v8 (ix2 g k) := funext fun k => rowOf0 V c t p k g rfl
  have r1 : (fun k : Fin 64 => iblk0 V c 1 t (ix2 p k)) = fun k => V c main_call0_v15 (ix2 g k) := funext fun k => rowOf1 V c t p k g rfl
  have r2 : (fun k : Fin 8 => iblk0 V c 2 t (ix2 p k)) = fun k => V c main_call0_v0 (ix2 g k) := funext fun k => rowOf2 V c t p k g rfl
  rw [r0, r1, r2]

/-- An index of the array is in point `t`'s block iff each coordinate is in the block's range on its axis. -/
theorem mem_blk (t : Fin cfg0.N) (i : S400000x64.Idx) :
    i ∈ ((cfg0.win 9).blk t).view.set ↔ ∀ a : Fin 2, win0_9.index t a * S4000x64.size a ≤ (i a).val ∧ (i a).val < win0_9.index t a * S4000x64.size a + S4000x64.size a := by
  show i ∈ ((View.whole main_call0_v21).slice (win0_9.rect t)).set ↔ _
  rw [View.set_slice_whole, Rect.mem_set_unit]
  exact Iff.rfl

/-- Every row of the array lies in the block of the point `row / 4000`. -/
theorem cover (i : S400000x64.Idx) : ∃ t : Fin cfg0.N, (cfg0.win 9).flush t = true ∧ i ∈ ((cfg0.win 9).blk t).view.set := by
  have hi0 : (i 0).val < 400000 := (i 0).isLt
  have hi1 : (i 1).val < 64 := (i 1).isLt
  have hN : cfg0.N = 100 := N_0
  let t : Fin cfg0.N := ⟨(i 0).val / 4000, by rw [hN]; omega⟩
  have e0 : win0_9.index t (0 : Fin 2) = t.val := (idx_facts t).2.2.2.2.2.2.2.2.2.2.2.2.2.2.2.2.2.2.1
  have e1 : win0_9.index t (1 : Fin 2) = 0 := (idx_facts t).2.2.2.2.2.2.2.2.2.2.2.2.2.2.2.2.2.2.2
  have htv : t.val = (i 0).val / 4000 := rfl
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 64 ≤ (i 1).val ∧ (i 1).val < win0_9.index t (1 : Fin 2) * 64 + 64; omega

/-- The array the launch leaves is the message array of what it found. -/
theorem array (c : Dev nD) : (dat0 V c).arrAt 9 cfg0.N = found V c :=
  (dat0 V c).arrAt_eq_of_cover 9 (found V c) (fun t _ => flushed_eq V c t) (cover)

end Cert.KernelIdeal.MsgArr0

end
-- ==== Proof.RefSteps.lean ====
import proofs.«144611_j71408126263501_2_alg».proof.Proof.Gen.ReferenceIdeal.Run

/-!
# The reference, step by step

The reference computes two rounds of message passing and a readout.  Each round gathers the rows of the node
states at the two ends of every edge, maps the joined row `[h_src | h_dst | e]` through a two-layer perceptron,
sums the messages arriving at each node, and updates the node states by a gated recurrent cell
`h' = z·h + (1 − z)·tanh(x_h + r·h_h)` with `z, r = 1 / (1 + exp(−(x_· + h_·)))`.  The readout is a
two-layer perceptron with one output.  This file names each of those steps as a function of whole arrays, in
the reference's own operations, and shows that the reference's result is their composition.
-/

noncomputable section

namespace Cert.ReferenceIdeal.Steps

open Cert.ReferenceIdeal Cert.ReferenceIdeal.Gen Idealize.ShloMosaic Idealize.ShloMosaic.TcCoe Idealize.SL.Sem

variable {F : FTy → Type} [FloatOps F]

/-- An array of floats / of 32-bit integers of a given shape. -/
abbrev Arr (s : Shape) : Type := (⟨s, .f32⟩ : BufTy).Contents (Elt F)
abbrev IArr (s : Shape) : Type := (⟨s, .i32⟩ : BufTy).Contents (Elt F)

/-- Row numbers as the lookup takes them: a negative number counts from the end (`i + 50000`), laid out as a column. -/
def wrapIdx (x : IArr (F := F) S400000) : IArr (F := F) S400000x1 :=
  broadcastInDim S400000x1 ![0] bcast_S400000_S400000x1_0
    (select (cmpi .slt x (broadcastInDim S400000 ![] bcast_S_S400000 (constantI S_ 32 0#32)))
      (addi x (broadcastInDim S400000 ![] bcast_S_S400000 (constantI S_ 32 50000#32))) x)

/-- The node states at one end of every edge: row `x e` of `h` for each edge `e`. -/
def rows (h : Arr (F := F) S50000x64) (x : IArr (F := F) S400000) : Arr (F := F) S400000x64 :=
  Host.gather gather_S50000x64_S400000x1_S400000x64_1_0_n_n_0_1_164 h (wrapIdx x)

/-- The message perceptron on the joined rows: `relu([s | d | e]·W₁ + b₁)·W₂ + b₂`. -/
def msgCore (s d : Arr (F := F) S400000x64) (e : Arr (F := F) S400000x8) (W1 : Arr (F := F) S136x128) (b1 : Arr (F := F) S128)
    (W2 : Arr (F := F) S128x64) (b2 : Arr (F := F) S64) : Arr (F := F) S400000x64 :=
  addf (Host.dotGeneral dot_S400000x128_S128x64_S400000x64_1_0_0_1_n_n none
      (maximumf (addf (Host.dotGeneral dot_S400000x136_S136x128_S400000x128_1_0_0_1_n_n none
            (concatenate S400000x136 1 [⟨S400000x64, s⟩, ⟨S400000x64, d⟩, ⟨S400000x8, e⟩] concatenates_S400000x64_S400000x64_S400000x8_S400000x136_d1) W1)
          (broadcastInDim S400000x128 ![0, 1] bcast_S1x128_S400000x128_0_1 (broadcastInDim S1x128 ![1] bcast_S128_S1x128_1 b1)))
        (broadcastInDim S400000x128 ![] bcast_S_S400000x128 (constant S_ .f32 0x00000000#32))) W2)
    (broadcastInDim S400000x64 ![0, 1] bcast_S1x64_S400000x64_0_1 (broadcastInDim S1x64 ![1] bcast_S64_S1x64_1 b2))

/-- The messages summed at their destination nodes, from zero. -/
def agg (msg : Arr (F := F) S400000x64) (dst : IArr (F := F) S400000) : Arr (F := F) S50000x64 :=
  Host.scatterAdd scatter_S50000x64_S400000x1_S400000x64_1_0_0_1
    (broadcastInDim S50000x64 ![] bcast_S_S50000x64 (constant S_ .f32 0x00000000#32))
    (broadcastInDim S400000x1 ![0] bcast_S400000_S400000x1_0 dst) msg

/-- The three gate pre-activations from the aggregated messages, side by side: `x·W_x + b`. -/
def gx (x : Arr (F := F) S50000x64) (Wx : Arr (F := F) S64x192) (b : Arr (F := F) S192) : Arr (F := F) S50000x192 :=
  addf (Host.dotGeneral dot_S50000x64_S64x192_S50000x192_1_0_0_1_n_n none x Wx)
    (broadcastInDim S50000x192 ![0, 1] bcast_S1x192_S50000x192_0_1 (broadcastInDim S1x192 ![1] bcast_S192_S1x192_1 b))

/-- The three gate pre-activations from the node states: `h·W_h`. -/
def gh (h : Arr (F := F) S50000x64) (Wh : Arr (F := F) S64x192) : Arr (F := F) S50000x192 :=
  Host.dotGeneral dot_S50000x64_S64x192_S50000x192_1_0_0_1_n_n none h Wh

/-- The constant one over the node states' shape. -/
def ones : Arr (F := F) S50000x64 := broadcastInDim S50000x64 ![] bcast_S_S50000x64 (constant S_ .f32 0x3F800000#32)

/-- The logistic function as the reference writes it: `1 / (1 + exp (−y))`. -/
def sigm (y : Arr (F := F) S50000x64) : Arr (F := F) S50000x64 := Host.divf ones (addf ones (Host.exp (Host.negf y)))

/-- Columns `0–63`, `64–127`, `128–191` of a `[50000, 192]` array. -/
def colsZ (y : Arr (F := F) S50000x192) : Arr (F := F) S50000x64 := extractStridedSlice S50000x64 ![0, 0] y slices_S50000x192_S50000x64_0_0
def colsR (y : Arr (F := F) S50000x192) : Arr (F := F) S50000x64 := extractStridedSlice S50000x64 ![0, 64] y slices_S50000x192_S50000x64_0_64
def colsH (y : Arr (F := F) S50000x192) : Arr (F := F) S50000x64 := extractStridedSlice S50000x64 ![0, 128] y slices_S50000x192_S50000x64_0_128

/-- The gated recurrent update of the node states `h` by the aggregated messages `x`. -/
def gru (h x : Arr (F := F) S50000x64) (Wx Wh : Arr (F := F) S64x192) (b : Arr (F := F) S192) : Arr (F := F) S50000x64 :=
  addf (mulf (sigm (addf (colsZ (gx x Wx b)) (colsZ (gh h Wh)))) h)
    (mulf (subf ones (sigm (addf (colsZ (gx x Wx b)) (colsZ (gh h Wh)))))
      (Host.tanh (addf (colsH (gx x Wx b)) (mulf (sigm (addf (colsR (gx x Wx b)) (colsR (gh h Wh)))) (colsH (gh h Wh))))))

/-- The readout perceptron: `relu(h·W₁ + b₁)·W₂ + b₂`. -/
def readout (h : Arr (F := F) S50000x64) (W1 : Arr (F := F) S64x128) (b1 : Arr (F := F) S128) (W2 : Arr (F := F) S128x1) (b2 : Arr (F := F) S1) :
    Arr (F := F) S50000x1 :=
  addf (Host.dotGeneral dot_S50000x128_S128x1_S50000x1_1_0_0_1_n_n none
      (maximumf (addf (Host.dotGeneral dot_S50000x64_S64x128_S50000x128_1_0_0_1_n_n none h W1)
          (broadcastInDim S50000x128 ![0, 1] bcast_S1x128_S50000x128_0_1 (broadcastInDim S1x128 ![1] bcast_S128_S1x128_1 b1)))
        (broadcastInDim S50000x128 ![] bcast_S_S50000x128 (constant S_ .f32 0x00000000#32))) W2)
    (broadcastInDim S50000x1 ![0, 1] bcast_S1x1_S50000x1_0_1 (broadcastInDim S1x1 ![1] bcast_S1_S1x1_1 b2))

/-- One round: the node states after gathering, the message perceptron, aggregation and the recurrent update. -/
def round (h : Arr (F := F) S50000x64) (e : Arr (F := F) S400000x8) (src dst : IArr (F := F) S400000) (W1 : Arr (F := F) S136x128) (b1 : Arr (F := F) S128)
    (W2 : Arr (F := F) S128x64) (b2 : Arr (F := F) S64) (Wx Wh : Arr (F := F) S64x192) (b : Arr (F := F) S192) : Arr (F := F) S50000x64 :=
  gru h (agg (msgCore (rows h src) (rows h dst) e W1 b1 W2 b2) dst) Wx Wh b

/-- The whole reference: two rounds, then the readout. -/
def whole (h : Arr (F := F) S50000x64) (e : Arr (F := F) S400000x8) (src dst : IArr (F := F) S400000) (W1 : Arr (F := F) S136x128) (b1 : Arr (F := F) S128)
    (W2 : Arr (F := F) S128x64) (b2 : Arr (F := F) S64) (Wx Wh : Arr (F := F) S64x192) (b : Arr (F := F) S192)
    (R1 : Arr (F := F) S64x128) (c1 : Arr (F := F) S128) (R2 : Arr (F := F) S128x1) (c2 : Arr (F := F) S1) : Arr (F := F) S50000x1 :=
  readout (round (round h e src dst W1 b1 W2 b2 Wx Wh b) e src dst W1 b1 W2 b2 Wx Wh b) R1 c1 R2 c2

set_option maxRecDepth 16384 in
set_option maxHeartbeats 4000000 in
/-- The reference's result is the composition of the steps. -/
theorem res_eq (m : (ℓ : Loc nD τ sig) → Buf (Elt F) ℓ) (c : Dev nD) :
    Cert.ReferenceIdeal.Value.res_main_v128 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) := by
  unfold Cert.ReferenceIdeal.Value.res_main_v128
  rfl

end Cert.ReferenceIdeal.Steps

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibBiasRows.lean ====
import Idealize.ShloMosaic.Lib.ValueIdx
import Idealize.ShloMosaic.Lib.Pipeline.Value
import proofs.«144611_j71408126263501_2_alg».proof.Proof.LibSlabs
import proofs.«144611_j71408126263501_2_alg».proof.Proof.LibAsRow

/-!
# Bias vectors and scalars spread over a matrix, read at an entry

General, program-free lemmas for the host's way of adding a bias: a vector `[n]` laid out as one row `[1, n]`
(`broadcast_in_dim` along axis 1) and repeated over `R` rows (`broadcast_in_dim` keeping both axes) reads, at
`(r, q)`, the vector's entry `q`; a scalar repeated over a matrix reads the scalar at every entry.
-/

noncomputable section

namespace Cert.Lib

open Idealize.ShloMosaic Idealize.ShloMosaic.ValueIdx

variable {α : Type}

/-- A scalar repeated over a matrix reads the scalar everywhere. -/
theorem splat2_apply {a b : ℕ} (x : (⟨0, ![]⟩ : Shape).Idx → α)
    (h0 : (⟨0, ![]⟩ : Shape).BroadcastsInDim ⟨2, ![a, b]⟩ (![] : Fin 0 → Fin 2)) (i : (⟨2, ![a, b]⟩ : Shape).Idx) :
    broadcastInDim ⟨2, ![a, b]⟩ ![] h0 x i = x ix0 :=
  broadcastInDim_apply _ h0 x i ix0 fun ax => ax.elim0

/-- A vector laid out as one row and repeated over `R` rows reads, at `(r, q)`, the vector's entry `q`. -/
theorem biasRows_apply {R n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (q : Fin n) :
    broadcastInDim ⟨2, ![R, n]⟩ ![0, 1] h2 (broadcastInDim ⟨2, ![1, n]⟩ ![1] h1 v) (ix2 r q) = v (ix1 q) := by
  rw [rows_of_oneRow h2 _ r q, broadcastInDim_eq_asRow v h1]
  rfl

end Cert.Lib

end
-- ==== Proof.MsgRef.lean ====
import proofs.«144611_j71408126263501_2_alg».proof.Proof.RefSteps
import proofs.«144611_j71408126263501_2_alg».proof.Proof.MsgMath
import proofs.«144611_j71408126263501_2_alg».proof.Proof.LibMatDot
import proofs.«144611_j71408126263501_2_alg».proof.Proof.LibConcatCols
import proofs.«144611_j71408126263501_2_alg».proof.Proof.LibBiasRows
import Idealize.ShloMosaic.Lib.ValueLayout
import Idealize.ShloMosaic.Lib.Pipeline.Value

/-!
# The reference's message step at an entry

The reference joins the source row, the destination row and the edge features of every edge into one row of 136
entries and multiplies by `W₁`.  Entry `(r, q)` of that product is a sum over the 136 positions of the joined
row; split at positions 64 and 128 it is the sum of the three parts' products with rows 0–63, 64–127 and
128–135 of `W₁`.  With the bias vectors laid out as rows, the reference's message array is therefore the array
of messages in the three-product form.
-/

set_option maxRecDepth 16384

noncomputable section

namespace Cert.ReferenceIdeal.MsgRef

open Cert.ReferenceIdeal Cert.ReferenceIdeal.Gen Cert.ReferenceIdeal.Steps Idealize.ShloMosaic Idealize.ShloMosaic.ValueIdx
open scoped BigOperators

/-- The joined rows times `W₁` at `(r, q)`: the three parts' products. -/
theorem joined_apply (s d : FVec Ideal S400000x64 .f32) (e : FVec Ideal S400000x8 .f32) (W1 : FVec Ideal S136x128 .f32) (r : Fin 400000) (q : Fin 128) :
    @Eq EReal (Host.dotGeneral (F := Ideal) (φ₁ := .f32) (φ₂ := .f32) dot_S400000x136_S136x128_S400000x128_1_0_0_1_n_n none
        (concatenate S400000x136 1 [⟨S400000x64, s⟩, ⟨S400000x64, d⟩, ⟨S400000x8, e⟩] concatenates_S400000x64_S400000x64_S400000x8_S400000x136_d1) W1 (ix2 r q))
      (((∑ k : Fin 64, (s (ix2 r k) : EReal) * (W1 (ix2 ⟨k.val, by have := k.isLt; omega⟩ q) : EReal))
          + ∑ k : Fin 64, (d (ix2 r k) : EReal) * (W1 (ix2 ⟨64 + k.val, by have := k.isLt; omega⟩ q) : EReal))
        + ∑ k : Fin 8, (e (ix2 r k) : EReal) * (W1 (ix2 ⟨128 + k.val, by have := k.isLt; omega⟩ q) : EReal)) := by
  simp only [Host.dotGeneral]
  refine (Cert.Lib.dotGeneral_plain_apply dot_S400000x136_S136x128_S400000x128_1_0_0_1_n_n.wf none _ _ W1 r q).trans ?_
  refine (Cert.Msg.joined_split _).trans ?_
  refine congrArg₂ (· + ·) (congrArg₂ (· + ·) ?_ ?_) ?_
  · refine Finset.sum_congr rfl fun k _ => congrArg₂ (· * ·) ?_ rfl
    have hk : k.val < 64 := k.isLt
    refine (congrArg _ (congrArg (ix2 r) (Fin.ext (Nat.zero_add k.val).symm))).trans
      (Cert.Lib.concat_cols_apply ([⟨S400000x64, s⟩, ⟨S400000x64, d⟩, ⟨S400000x8, e⟩] : List ((t : Shape) × (t.Idx → EReal))) concatenates_S400000x64_S400000x64_S400000x8_S400000x136_d1 0 (show 0 < 3 by omega) s rfl 0 rfl r k (by omega))
  · refine Finset.sum_congr rfl fun k _ => congrArg₂ (· * ·) ?_ rfl
    have hk : k.val < 64 := k.isLt
    exact Cert.Lib.concat_cols_apply ([⟨S400000x64, s⟩, ⟨S400000x64, d⟩, ⟨S400000x8, e⟩] : List ((t : Shape) × (t.Idx → EReal))) concatenates_S400000x64_S400000x64_S400000x8_S400000x136_d1 1 (show 1 < 3 by omega) d rfl 64 rfl r k (by omega)
  · refine Finset.sum_congr rfl fun k _ => congrArg₂ (· * ·) ?_ rfl
    have hk : k.val < 8 := k.isLt
    exact Cert.Lib.concat_cols_apply ([⟨S400000x64, s⟩, ⟨S400000x64, d⟩, ⟨S400000x8, e⟩] : List ((t : Shape) × (t.Idx → EReal))) concatenates_S400000x64_S400000x64_S400000x8_S400000x136_d1 2 (show 2 < 3 by omega) e rfl 128 rfl r k (by omega)

/-- The reference's message array is the array of messages in the three-product form, for weight blocks that are
    the three row ranges of `W₁` and bias rows that are the bias vectors. -/
theorem msgCore_eq (s d : Arr (F := Ideal) S400000x64) (e : Arr (F := Ideal) S400000x8) (W1 : Arr (F := Ideal) S136x128) (b1 : Arr (F := Ideal) S128)
    (W2 : Arr (F := Ideal) S128x64) (b2 : Arr (F := Ideal) S64)
    (wa wb : Cert.Msg.Mat 64 128) (wc : Cert.Msg.Mat 8 128) (r1 : Cert.Msg.Mat 1 128) (r2 : Cert.Msg.Mat 1 64)
    (ha : ∀ (k : Fin 64) (q : Fin 128), wa (ix2 k q) = W1 (ix2 ⟨k.val, by have := k.isLt; omega⟩ q))
    (hb : ∀ (k : Fin 64) (q : Fin 128), wb (ix2 k q) = W1 (ix2 ⟨64 + k.val, by have := k.isLt; omega⟩ q))
    (hc : ∀ (k : Fin 8) (q : Fin 128), wc (ix2 k q) = W1 (ix2 ⟨128 + k.val, by have := k.isLt; omega⟩ q))
    (h1 : ∀ q : Fin 128, r1 (ix2 (0 : Fin 1) q) = b1 (ix1 q)) (h2 : ∀ j : Fin 64, r2 (ix2 (0 : Fin 1) j) = b2 (ix1 j)) :
    Cert.Msg.msgs s d e wa wb wc r1 W2 r2 = msgCore (F := Ideal) s d e W1 b1 W2 b2 := by
  funext i
  obtain ⟨r, j, rfl⟩ : ∃ (r : Fin 400000) (j : Fin 64), i = ix2 r j := ⟨i 0, i 1, eq_ix2 i⟩
  rw [Cert.Msg.msgs_apply]
  unfold msgCore Cert.Msg.row
  refine ((addf_apply _ _ _).trans ?_).symm
  refine congrArg₂ (· + ·) ?_ ((Cert.Lib.biasRows_apply b2 bcast_S64_S1x64_1 bcast_S1x64_S400000x64_0_1 r j).trans (h2 j).symm)
  simp only [Host.dotGeneral]
  refine (Cert.Lib.dotGeneral_plain_apply dot_S400000x128_S128x64_S400000x64_1_0_0_1_n_n.wf none _ _ W2 r j).trans ?_
  refine Finset.sum_congr rfl fun q _ => congrArg₂ (· * ·) ?_ rfl
  unfold Cert.Msg.hidden
  refine (maximumf_apply _ _ _).trans ?_
  refine congrArg₂ max ?_ ((Cert.Lib.splat2_apply _ bcast_S_S400000x128 _).trans (constant_apply _ _))
  refine (addf_apply _ _ _).trans ?_
  refine congrArg₂ (· + ·) ?_ ((Cert.Lib.biasRows_apply b1 bcast_S128_S1x128_1 bcast_S1x128_S400000x128_0_1 r q).trans (h1 q).symm)
  refine (joined_apply s d e W1 r q).trans ?_
  refine congrArg₂ (· + ·) (congrArg₂ (· + ·) ?_ ?_) ?_
  · exact Finset.sum_congr rfl fun k _ => congrArg₂ (· * ·) rfl (ha k q).symm
  · exact Finset.sum_congr rfl fun k _ => congrArg₂ (· * ·) rfl (hb k q).symm
  · exact Finset.sum_congr rfl fun k _ => congrArg₂ (· * ·) rfl (hc k q).symm

end Cert.ReferenceIdeal.MsgRef

end
-- ==== Proof.MsgStep0.lean ====
import proofs.«144611_j71408126263501_2_alg».proof.Proof.MsgArr0
import proofs.«144611_j71408126263501_2_alg».proof.Proof.MsgRef

/-!
# Launch 0 computes the reference's message step

If the arrays the launch finds are the rows of the node states at the two ends of every edge, the edge
features, the three row ranges of `W₁`, the two bias vectors laid out as rows and `W₂`, then the array it
leaves is the reference's message array of those.
-/

set_option maxRecDepth 16384

noncomputable section

namespace Cert.KernelIdeal.MsgStep0

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem msg_of (c : Dev nD) (s d : S400000x64.Idx → EReal) (e : S400000x8.Idx → EReal) (W1 : S136x128.Idx → EReal) (b1 : S128.Idx → EReal)
    (W2 : S128x64.Idx → EReal) (b2 : S64.Idx → EReal)
    (hs : @Eq (S400000x64.Idx → EReal) (V c main_call0_v8) s) (hd : @Eq (S400000x64.Idx → EReal) (V c main_call0_v15) d)
    (he : @Eq (S400000x8.Idx → EReal) (V c main_call0_v0) e)
    (ha : @Eq (S64x128.Idx → EReal) (V c main_call0_v16) (extractStridedSlice S64x128 ![0, 0] W1 slices_S136x128_S64x128_0_0))
    (hb : @Eq (S64x128.Idx → EReal) (V c main_call0_v17) (extractStridedSlice S64x128 ![64, 0] W1 slices_S136x128_S64x128_64_0))
    (hc : @Eq (S8x128.Idx → EReal) (V c main_call0_v18) (extractStridedSlice S8x128 ![128, 0] W1 slices_S136x128_S8x128_128_0))
    (h1 : @Eq (S1x128.Idx → EReal) (V c main_call0_v19) (shapeCast S1x128 b1 shapeCasts_S128_S1x128))
    (hw : @Eq (S128x64.Idx → EReal) (V c main_arg6) W2)
    (h2 : @Eq (S1x64.Idx → EReal) (V c main_call0_v20) (shapeCast S1x64 b2 shapeCasts_S64_S1x64)) :
    @Eq (S400000x64.Idx → EReal) ((dat0 V c).arrAt 9 cfg0.N) (Cert.ReferenceIdeal.Steps.msgCore (F := Ideal) s d e W1 b1 W2 b2) := by
  subst hs hd he hw
  refine (Cert.KernelIdeal.MsgArr0.array V c).trans ?_
  exact Cert.ReferenceIdeal.MsgRef.msgCore_eq _ _ _ W1 b1 _ b2 _ _ _ _ _
    (fun k q => (congrFun ha (ix2 k q)).trans (slice2_axis0_apply 0 W1 slices_S136x128_S64x128_0_0 k q _ (Nat.zero_add _).symm))
    (fun k q => (congrFun hb (ix2 k q)).trans (slice2_axis0_apply 64 W1 slices_S136x128_S64x128_64_0 k q _ rfl))
    (fun k q => (congrFun hc (ix2 k q)).trans (slice2_axis0_apply 128 W1 slices_S136x128_S8x128_128_0 k q _ rfl))
    (fun q => (congrFun h1 (ix2 (0 : Fin 1) q)).trans (shapeCast_a_1a_apply b1 shapeCasts_S128_S1x128 0 q))
    (fun j => (congrFun h2 (ix2 (0 : Fin 1) j)).trans (shapeCast_a_1a_apply b2 shapeCasts_S64_S1x64 0 j))

end Cert.KernelIdeal.MsgStep0

end
-- ==== Proof.MsgPay2.lean ====
import proofs.«144611_j71408126263501_2_alg».proof.Proof.Gen.KernelIdeal.Skeleton
import proofs.«144611_j71408126263501_2_alg».proof.Proof.MsgMath
import proofs.«144611_j71408126263501_2_alg».proof.Proof.LibMatDot
import Idealize.ShloMosaic.Lib.ValueLayout
import Idealize.ShloMosaic.Lib.Pipeline.Value

/-!
# The message kernel's arithmetic at an entry (launch 2)

The body multiplies the block of source rows, of destination rows and of edge features each by its part of
`W₁`, adds the three products and the bias row, clamps at zero, multiplies by `W₂` and adds the second bias
row.  Read at row `r` and column `j` of the block this is the message of the edge in row `r`: each matrix
product into a zero accumulator is the row-by-column sum, a change of float format is the identity on extended
reals, and a bias row stretched over the block reads its own entry in every row.
-/

noncomputable section

namespace Cert.KernelIdeal.MsgPay2

open Cert.KernelIdeal Cert.KernelIdeal.Gen Idealize.ShloMosaic Idealize.ShloMosaic.ValueIdx
open scoped BigOperators

/-- A product of a block with a weight matrix into the zero accumulator, the operands first cast in place and
    the weights narrowed: the row-by-column sum. -/
theorem prod64 (x : FVec Ideal S4000x64 .bf16) (w : FVec Ideal S64x128 .f32) (r : Fin 4000) (q : Fin 128) :
    @Eq EReal (matmul (F := Ideal) dot_S4000x64_S64x128_S4000x128_1_0_0_1_n_n none (shapeCast S4000x64 x shapeCasts_S4000x64_S4000x64)
        (truncf .bf16 (shapeCast S64x128 w shapeCasts_S64x128_S64x128) bitsLt_bf16_f32) (constant S4000x128 .f32 0x00000000#32) (ix2 r q))
      (∑ k : Fin 64, (x (ix2 r k) : EReal) * (w (ix2 k q) : EReal)) := by
  rw [shapeCast_self, shapeCast_self]
  exact Cert.Lib.matmul_plain_zero_apply dot_S4000x64_S64x128_S4000x128_1_0_0_1_n_n.wf none x (truncf .bf16 w bitsLt_bf16_f32) r q

theorem prod8 (x : FVec Ideal S4000x8 .bf16) (w : FVec Ideal S8x128 .f32) (r : Fin 4000) (q : Fin 128) :
    @Eq EReal (matmul (F := Ideal) dot_S4000x8_S8x128_S4000x128_1_0_0_1_n_n none (shapeCast S4000x8 x shapeCasts_S4000x8_S4000x8)
        (truncf .bf16 (shapeCast S8x128 w shapeCasts_S8x128_S8x128) bitsLt_bf16_f32) (constant S4000x128 .f32 0x00000000#32) (ix2 r q))
      (∑ k : Fin 8, (x (ix2 r k) : EReal) * (w (ix2 k q) : EReal)) := by
  rw [shapeCast_self, shapeCast_self]
  exact Cert.Lib.matmul_plain_zero_apply dot_S4000x8_S8x128_S4000x128_1_0_0_1_n_n.wf none x (truncf .bf16 w bitsLt_bf16_f32) r q

/-- The bias row stretched over the block reads its own entry. -/
theorem bias128 (b : FVec Ideal S1x128 .f32) (r : Fin 4000) (q : Fin 128) :
    @Eq EReal (broadcastTo S4000x128 (shapeCast S1x128 b shapeCasts_S1x128_S1x128) broadcasts_S1x128_S4000x128 (ix2 r q)) (b (ix2 (0 : Fin 1) q)) := by
  rw [shapeCast_self]
  exact broadcastTo_1b_ab_apply b broadcasts_S1x128_S4000x128 r q

theorem bias64 (b : FVec Ideal S1x64 .f32) (r : Fin 4000) (j : Fin 64) :
    @Eq EReal (broadcastTo S4000x64 (shapeCast S1x64 b shapeCasts_S1x64_S1x64) broadcasts_S1x64_S4000x64 (ix2 r j)) (b (ix2 (0 : Fin 1) j)) := by
  rw [shapeCast_self]
  exact broadcastTo_1b_ab_apply b broadcasts_S1x64_S4000x64 r j

/-- The body's result at row `r`, column `j` of the block is the message of the edge in row `r`. -/
theorem pay_apply (x0 x1 : FVec Ideal S4000x64 .bf16) (x2 : FVec Ideal S4000x8 .bf16) (x3 x4 : FVec Ideal S64x128 .f32)
    (x5 : FVec Ideal S8x128 .f32) (x6 : FVec Ideal S1x128 .f32) (x7 : FVec Ideal S128x64 .f32) (x8 : FVec Ideal S1x64 .f32)
    (r : Fin 4000) (j : Fin 64) :
    @Eq EReal (k2_pay1 (F := Ideal) x0 x1 x2 x3 x4 x5 x6 x7 x8 (ix2 r j))
      (Cert.Msg.row (fun k => x0 (ix2 r k)) (fun k => x1 (ix2 r k)) (fun k => x2 (ix2 r k)) x3 x4 x5 x6 x7 x8 j) := by
  unfold k2_pay1 Cert.Msg.row
  refine (addf_apply _ _ _).trans ?_
  refine congrArg₂ (· + ·) ?_ (bias64 x8 r j)
  refine (Cert.Lib.matmul_plain_zero_apply dot_S4000x128_S128x64_S4000x64_1_0_0_1_n_n.wf none _ _ r j).trans ?_
  refine Finset.sum_congr rfl fun q _ => ?_
  refine congrArg₂ (· * ·) ?_ rfl
  unfold Cert.Msg.hidden
  refine (truncf_apply (s := S4000x128) (φ := .f32) (ψ := .bf16) _ bitsLt_bf16_f32 (ix2 r q)).trans ?_
  refine (maximumf_apply _ _ _).trans ?_
  refine congrArg₂ max ?_ rfl
  refine (addf_apply _ _ _).trans ?_
  refine congrArg₂ (· + ·) ?_ (bias128 x6 r q)
  refine (addf_apply _ _ _).trans ?_
  refine congrArg₂ (· + ·) ?_ (prod8 x2 x5 r q)
  refine (addf_apply _ _ _).trans ?_
  exact congrArg₂ (· + ·) (prod64 x0 x3 r q) (prod64 x1 x4 r q)

end Cert.KernelIdeal.MsgPay2

end
-- ==== Proof.MsgArr2.lean ====
import proofs.«144611_j71408126263501_2_alg».proof.Proof.Gen.KernelIdeal.Frame
import proofs.«144611_j71408126263501_2_alg».proof.Proof.MsgPay2

/-!
# The message array that launch 2 leaves

The launch cuts the 400000 edges into 100 blocks of 4000 rows; at block `t` the body reads rows
`4000·t, …, 4000·t + 3999` of the source rows, the destination rows and the edge features, and the whole of each
weight array, and writes rows `4000·t, …` of the result.  Row `p` of the block's result is the message of edge
`4000·t + p`, so the blocks together are the message array of all edges.
-/

set_option maxRecDepth 16384

noncomputable section

namespace Cert.KernelIdeal.MsgArr2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the edge-indexed windows sit at block `(t, 0)`, the weight windows at `(0, 0)`. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

/-- Window 3 holds its whole array at every point. -/
theorem whole3 (c : Dev nD) (t : Fin cfg2.N) : iblk2 V c 3 t = V c main_call0_v53 := by
  funext z
  show V c main_call0_v53 (((cfg2.win 3).blk t).view.emb z) = V c main_call0_v53 z
  refine congrArg (V c main_call0_v53) (funext fun ax => Fin.ext ?_)
  have e0 : win2_3.index t (0 : Fin 2) = 0 := (idx_facts t).2.2.2.2.2.2.1
  have e1 : win2_3.index t (1 : Fin 2) = 0 := (idx_facts t).2.2.2.2.2.2.2.1
  match ax with
  | ⟨0, _⟩ => show win2_3.index t (0 : Fin 2) * 64 + 1 * (z 0).val = (z 0).val; omega
  | ⟨1, _⟩ => show win2_3.index t (1 : Fin 2) * 128 + 1 * (z 1).val = (z 1).val; omega

/-- Window 4 holds its whole array at every point. -/
theorem whole4 (c : Dev nD) (t : Fin cfg2.N) : iblk2 V c 4 t = V c main_call0_v54 := by
  funext z
  show V c main_call0_v54 (((cfg2.win 4).blk t).view.emb z) = V c main_call0_v54 z
  refine congrArg (V c main_call0_v54) (funext fun ax => Fin.ext ?_)
  have e0 : win2_4.index t (0 : Fin 2) = 0 := (idx_facts t).2.2.2.2.2.2.2.2.1
  have e1 : win2_4.index t (1 : Fin 2) = 0 := (idx_facts t).2.2.2.2.2.2.2.2.2.1
  match ax with
  | ⟨0, _⟩ => show win2_4.index t (0 : Fin 2) * 64 + 1 * (z 0).val = (z 0).val; omega
  | ⟨1, _⟩ => show win2_4.index t (1 : Fin 2) * 128 + 1 * (z 1).val = (z 1).val; omega

/-- Window 5 holds its whole array at every point. -/
theorem whole5 (c : Dev nD) (t : Fin cfg2.N) : iblk2 V c 5 t = V c main_call0_v55 := by
  funext z
  show V c main_call0_v55 (((cfg2.win 5).blk t).view.emb z) = V c main_call0_v55 z
  refine congrArg (V c main_call0_v55) (funext fun ax => Fin.ext ?_)
  have e0 : win2_5.index t (0 : Fin 2) = 0 := (idx_facts t).2.2.2.2.2.2.2.2.2.2.1
  have e1 : win2_5.index t (1 : Fin 2) = 0 := (idx_facts t).2.2.2.2.2.2.2.2.2.2.2.1
  match ax with
  | ⟨0, _⟩ => show win2_5.index t (0 : Fin 2) * 8 + 1 * (z 0).val = (z 0).val; omega
  | ⟨1, _⟩ => show win2_5.index t (1 : Fin 2) * 128 + 1 * (z 1).val = (z 1).val; omega

/-- Window 6 holds its whole array at every point. -/
theorem whole6 (c : Dev nD) (t : Fin cfg2.N) : iblk2 V c 6 t = V c main_call0_v56 := by
  funext z
  show V c main_call0_v56 (((cfg2.win 6).blk t).view.emb z) = V c main_call0_v56 z
  refine congrArg (V c main_call0_v56) (funext fun ax => Fin.ext ?_)
  have e0 : win2_6.index t (0 : Fin 2) = 0 := (idx_facts t).2.2.2.2.2.2.2.2.2.2.2.2.1
  have e1 : win2_6.index t (1 : Fin 2) = 0 := (idx_facts t).2.2.2.2.2.2.2.2.2.2.2.2.2.1
  match ax with
  | ⟨0, _⟩ => show win2_6.index t (0 : Fin 2) * 1 + 1 * (z 0).val = (z 0).val; omega
  | ⟨1, _⟩ => show win2_6.index t (1 : Fin 2) * 128 + 1 * (z 1).val = (z 1).val; omega

/-- Window 7 holds its whole array at every point. -/
theorem whole7 (c : Dev nD) (t : Fin cfg2.N) : iblk2 V c 7 t = V c main_arg6 := by
  funext z
  show V c main_arg6 (((cfg2.win 7).blk t).view.emb z) = V c main_arg6 z
  refine congrArg (V c main_arg6) (funext fun ax => Fin.ext ?_)
  have e0 : win2_7.index t (0 : Fin 2) = 0 := (idx_facts t).2.2.2.2.2.2.2.2.2.2.2.2.2.2.1
  have e1 : win2_7.index t (1 : Fin 2) = 0 := (idx_facts t).2.2.2.2.2.2.2.2.2.2.2.2.2.2.2.1
  match ax with
  | ⟨0, _⟩ => show win2_7.index t (0 : Fin 2) * 128 + 1 * (z 0).val = (z 0).val; omega
  | ⟨1, _⟩ => show win2_7.index t (1 : Fin 2) * 64 + 1 * (z 1).val = (z 1).val; omega

/-- Window 8 holds its whole array at every point. -/
theorem whole8 (c : Dev nD) (t : Fin cfg2.N) : iblk2 V c 8 t = V c main_call0_v57 := by
  funext z
  show V c main_call0_v57 (((cfg2.win 8).blk t).view.emb z) = V c main_call0_v57 z
  refine congrArg (V c main_call0_v57) (funext fun ax => Fin.ext ?_)
  have e0 : win2_8.index t (0 : Fin 2) = 0 := (idx_facts t).2.2.2.2.2.2.2.2.2.2.2.2.2.2.2.2.1
  have e1 : win2_8.index t (1 : Fin 2) = 0 := (idx_facts t).2.2.2.2.2.2.2.2.2.2.2.2.2.2.2.2.2.1
  match ax with
  | ⟨0, _⟩ => show win2_8.index t (0 : Fin 2) * 1 + 1 * (z 0).val = (z 0).val; omega
  | ⟨1, _⟩ => show win2_8.index t (1 : Fin 2) * 64 + 1 * (z 1).val = (z 1).val; omega

/-- Row `p` of window 0's block at point `t` is row `4000·t + p` of its array. -/
theorem rowOf0 (c : Dev nD) (t : Fin cfg2.N) (p : Fin 4000) (k : Fin 64) (g : Fin 400000) (hg : g.val = t.val * 4000 + p.val) :
    iblk2 V c 0 t (ix2 p k) = V c main_call0_v45 (ix2 g k) := by
  show V c main_call0_v45 (((cfg2.win 0).blk t).view.emb (ix2 p k)) = V c main_call0_v45 (ix2 g k)
  refine congrArg (V c main_call0_v45) (funext fun ax => Fin.ext ?_)
  have e0 : win2_0.index t (0 : Fin 2) = t.val := (idx_facts t).1
  have e1 : win2_0.index t (1 : Fin 2) = 0 := (idx_facts t).2.1
  match ax with
  | ⟨0, _⟩ => show win2_0.index t (0 : Fin 2) * 4000 + 1 * p.val = g.val; omega
  | ⟨1, _⟩ => show win2_0.index t (1 : Fin 2) * 64 + 1 * k.val = k.val; omega

/-- Row `p` of window 1's block at point `t` is row `4000·t + p` of its array. -/
theorem rowOf1 (c : Dev nD) (t : Fin cfg2.N) (p : Fin 4000) (k : Fin 64) (g : Fin 400000) (hg : g.val = t.val * 4000 + p.val) :
    iblk2 V c 1 t (ix2 p k) = V c main_call0_v52 (ix2 g k) := by
  show V c main_call0_v52 (((cfg2.win 1).blk t).view.emb (ix2 p k)) = V c main_call0_v52 (ix2 g k)
  refine congrArg (V c main_call0_v52) (funext fun ax => Fin.ext ?_)
  have e0 : win2_1.index t (0 : Fin 2) = t.val := (idx_facts t).2.2.1
  have e1 : win2_1.index t (1 : Fin 2) = 0 := (idx_facts t).2.2.2.1
  match ax with
  | ⟨0, _⟩ => show win2_1.index t (0 : Fin 2) * 4000 + 1 * p.val = g.val; omega
  | ⟨1, _⟩ => show win2_1.index t (1 : Fin 2) * 64 + 1 * k.val = k.val; omega

/-- Row `p` of window 2's block at point `t` is row `4000·t + p` of its array. -/
theorem rowOf2 (c : Dev nD) (t : Fin cfg2.N) (p : Fin 4000) (k : Fin 8) (g : Fin 400000) (hg : g.val = t.val * 4000 + p.val) :
    iblk2 V c 2 t (ix2 p k) = V c main_call0_v0 (ix2 g k) := by
  show V c main_call0_v0 (((cfg2.win 2).blk t).view.emb (ix2 p k)) = V c main_call0_v0 (ix2 g k)
  refine congrArg (V c main_call0_v0) (funext fun ax => Fin.ext ?_)
  have e0 : win2_2.index t (0 : Fin 2) = t.val := (idx_facts t).2.2.2.2.1
  have e1 : win2_2.index t (1 : Fin 2) = 0 := (idx_facts t).2.2.2.2.2.1
  match ax with
  | ⟨0, _⟩ => show win2_2.index t (0 : Fin 2) * 4000 + 1 * p.val = g.val; omega
  | ⟨1, _⟩ => show win2_2.index t (1 : Fin 2) * 8 + 1 * k.val = k.val; omega

/-- The arrays the launch finds, as matrices of extended reals. -/
abbrev found (c : Dev nD) : Cert.Msg.Mat 400000 64 :=
  Cert.Msg.msgs (V c main_call0_v45) (V c main_call0_v52) (V c main_call0_v0) (V c main_call0_v53) (V c main_call0_v54) (V c main_call0_v55) (V c main_call0_v56) (V c main_arg6) (V c main_call0_v57)

/-- What point `t` writes back is block `t` of the message array. -/
theorem flushed_eq (c : Dev nD) (t : Fin cfg2.N) :
    (dat2 V c).flushed 9 t = ((cfg2.win 9).blk t).view.read (Elt Ideal) (found V c) := by
  show (cfg2.win 9).cut (grid2.coords t) ((dat2 V c).after 9 t) = _
  rw [after2_9]
  unfold out2_9
  rw [View.canon_unit_zero hz]
  simp only [View.ld_unit_zero (S := S4000x64) hz, View.ld_unit_zero (S := S4000x8) hz, View.ld_unit_zero (S := S64x128) hz,
    View.ld_unit_zero (S := S8x128) hz, View.ld_unit_zero (S := S1x128) hz, View.ld_unit_zero (S := S128x64) hz, View.ld_unit_zero (S := S1x64) hz]
  rw [whole3 V c t, whole4 V c t, whole5 V c t, whole6 V c t, whole7 V c t, whole8 V c t]
  funext y
  have e0 : win2_9.index t (0 : Fin 2) = t.val := (idx_facts t).2.2.2.2.2.2.2.2.2.2.2.2.2.2.2.2.2.2.1
  have e1 : win2_9.index t (1 : Fin 2) = 0 := (idx_facts t).2.2.2.2.2.2.2.2.2.2.2.2.2.2.2.2.2.2.2
  have hp : (y 0).val < 4000 := (y 0).isLt
  have hq : (y 1).val < 64 := (y 1).isLt
  have ht : t.val < 100 := lt_of_lt_of_eq t.isLt N_2
  let p : Fin 4000 := ⟨(y 0).val, hp⟩
  let q : Fin 64 := ⟨(y 1).val, hq⟩
  let g : Fin 400000 := ⟨t.val * 4000 + (y 0).val, by omega⟩
  have hy : y = ix2 p q := funext fun ax => Fin.ext (by match ax with | ⟨0, _⟩ => rfl | ⟨1, _⟩ => rfl)
  have hemb : ((cfg2.win 9).blk t).view.emb y = ix2 g q := funext fun ax => Fin.ext (by
    match ax with
    | ⟨0, _⟩ => show win2_9.index t (0 : Fin 2) * 4000 + 1 * (y 0).val = t.val * 4000 + (y 0).val; omega
    | ⟨1, _⟩ => show win2_9.index t (1 : Fin 2) * 64 + 1 * (y 1).val = (y 1).val; omega)
  show k2_pay1 (F := Ideal) (iblk2 V c 0 t) (iblk2 V c 1 t) (iblk2 V c 2 t) (V c main_call0_v53) (V c main_call0_v54) (V c main_call0_v55) (V c main_call0_v56) (V c main_arg6) (V c main_call0_v57) y
    = found V c (((cfg2.win 9).blk t).view.emb y)
  rw [hemb, hy]
  refine (Cert.KernelIdeal.MsgPay2.pay_apply _ _ _ _ _ _ _ _ _ p q).trans ?_
  show _ = Cert.Msg.row _ _ _ _ _ _ _ _ _ q
  have r0 : (fun k : Fin 64 => iblk2 V c 0 t (ix2 p k)) = fun k => V c main_call0_v45 (ix2 g k) := funext fun k => rowOf0 V c t p k g rfl
  have r1 : (fun k : Fin 64 => iblk2 V c 1 t (ix2 p k)) = fun k => V c main_call0_v52 (ix2 g k) := funext fun k => rowOf1 V c t p k g rfl
  have r2 : (fun k : Fin 8 => iblk2 V c 2 t (ix2 p k)) = fun k => V c main_call0_v0 (ix2 g k) := funext fun k => rowOf2 V c t p k g rfl
  rw [r0, r1, r2]

/-- An index of the array is in point `t`'s block iff each coordinate is in the block's range on its axis. -/
theorem mem_blk (t : Fin cfg2.N) (i : S400000x64.Idx) :
    i ∈ ((cfg2.win 9).blk t).view.set ↔ ∀ a : Fin 2, win2_9.index t a * S4000x64.size a ≤ (i a).val ∧ (i a).val < win2_9.index t a * S4000x64.size a + S4000x64.size a := by
  show i ∈ ((View.whole main_call0_v58).slice (win2_9.rect t)).set ↔ _
  rw [View.set_slice_whole, Rect.mem_set_unit]
  exact Iff.rfl

/-- Every row of the array lies in the block of the point `row / 4000`. -/
theorem cover (i : S400000x64.Idx) : ∃ t : Fin cfg2.N, (cfg2.win 9).flush t = true ∧ i ∈ ((cfg2.win 9).blk t).view.set := by
  have hi0 : (i 0).val < 400000 := (i 0).isLt
  have hi1 : (i 1).val < 64 := (i 1).isLt
  have hN : cfg2.N = 100 := N_2
  let t : Fin cfg2.N := ⟨(i 0).val / 4000, by rw [hN]; omega⟩
  have e0 : win2_9.index t (0 : Fin 2) = t.val := (idx_facts t).2.2.2.2.2.2.2.2.2.2.2.2.2.2.2.2.2.2.1
  have e1 : win2_9.index t (1 : Fin 2) = 0 := (idx_facts t).2.2.2.2.2.2.2.2.2.2.2.2.2.2.2.2.2.2.2
  have htv : t.val = (i 0).val / 4000 := rfl
  refine ⟨t, flush2_9 t, ?_⟩
  rw [mem_blk]
  intro a
  match a with
  | ⟨0, _⟩ => show win2_9.index t (0 : Fin 2) * 4000 ≤ (i 0).val ∧ (i 0).val < win2_9.index t (0 : Fin 2) * 4000 + 4000; omega
  | ⟨1, _⟩ => show win2_9.index t (1 : Fin 2) * 64 ≤ (i 1).val ∧ (i 1).val < win2_9.index t (1 : Fin 2) * 64 + 64; omega

/-- The array the launch leaves is the message array of what it found. -/
theorem array (c : Dev nD) : (dat2 V c).arrAt 9 cfg2.N = found V c :=
  (dat2 V c).arrAt_eq_of_cover 9 (found V c) (fun t _ => flushed_eq V c t) (cover)

end Cert.KernelIdeal.MsgArr2

end
-- ==== Proof.MsgStep2.lean ====
import proofs.«144611_j71408126263501_2_alg».proof.Proof.MsgArr2
import proofs.«144611_j71408126263501_2_alg».proof.Proof.MsgRef

/-!
# Launch 2 computes the reference's message step

If the arrays the launch finds are the rows of the node states at the two ends of every edge, the edge
features, the three row ranges of `W₁`, the two bias vectors laid out as rows and `W₂`, then the array it
leaves is the reference's message array of those.
-/

set_option maxRecDepth 16384

noncomputable section

namespace Cert.KernelIdeal.MsgStep2

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem msg_of (c : Dev nD) (s d : S400000x64.Idx → EReal) (e : S400000x8.Idx → EReal) (W1 : S136x128.Idx → EReal) (b1 : S128.Idx → EReal)
    (W2 : S128x64.Idx → EReal) (b2 : S64.Idx → EReal)
    (hs : @Eq (S400000x64.Idx → EReal) (V c main_call0_v45) s) (hd : @Eq (S400000x64.Idx → EReal) (V c main_call0_v52) d)
    (he : @Eq (S400000x8.Idx → EReal) (V c main_call0_v0) e)
    (ha : @Eq (S64x128.Idx → EReal) (V c main_call0_v53) (extractStridedSlice S64x128 ![0, 0] W1 slices_S136x128_S64x128_0_0))
    (hb : @Eq (S64x128.Idx → EReal) (V c main_call0_v54) (extractStridedSlice S64x128 ![64, 0] W1 slices_S136x128_S64x128_64_0))
    (hc : @Eq (S8x128.Idx → EReal) (V c main_call0_v55) (extractStridedSlice S8x128 ![128, 0] W1 slices_S136x128_S8x128_128_0))
    (h1 : @Eq (S1x128.Idx → EReal) (V c main_call0_v56) (shapeCast S1x128 b1 shapeCasts_S128_S1x128))
    (hw : @Eq (S128x64.Idx → EReal) (V c main_arg6) W2)
    (h2 : @Eq (S1x64.Idx → EReal) (V c main_call0_v57) (shapeCast S1x64 b2 shapeCasts_S64_S1x64)) :
    @Eq (S400000x64.Idx → EReal) ((dat2 V c).arrAt 9 cfg2.N) (Cert.ReferenceIdeal.Steps.msgCore (F := Ideal) s d e W1 b1 W2 b2) := by
  subst hs hd he hw
  refine (Cert.KernelIdeal.MsgArr2.array V c).trans ?_
  exact Cert.ReferenceIdeal.MsgRef.msgCore_eq _ _ _ W1 b1 _ b2 _ _ _ _ _
    (fun k q => (congrFun ha (ix2 k q)).trans (slice2_axis0_apply 0 W1 slices_S136x128_S64x128_0_0 k q _ (Nat.zero_add _).symm))
    (fun k q => (congrFun hb (ix2 k q)).trans (slice2_axis0_apply 64 W1 slices_S136x128_S64x128_64_0 k q _ rfl))
    (fun k q => (congrFun hc (ix2 k q)).trans (slice2_axis0_apply 128 W1 slices_S136x128_S8x128_128_0 k q _ rfl))
    (fun q => (congrFun h1 (ix2 (0 : Fin 1) q)).trans (shapeCast_a_1a_apply b1 shapeCasts_S128_S1x128 0 q))
    (fun j => (congrFun h2 (ix2 (0 : Fin 1) j)).trans (shapeCast_a_1a_apply b2 shapeCasts_S64_S1x64 0 j))

end Cert.KernelIdeal.MsgStep2

end
-- ==== Proof.LibNodeMean.lean ====
/-
  The neighbour mean as whole arrays: a sum per node and feature, scaled by the node's clamped count.

  A per-node vector `v` laid along the feature axis — first as a column `[N, 1]`, then repeated `K` times — reads `v p`
  at every entry `(p, k)`. With `c` the per-node counts, the array of sums multiplied by the broadcast of
  `1 / max c 1` is, entry by entry, the array of sums divided by the broadcast of `max c 1`: the divisor is at least one,
  so never zero, and off zero the quotient of extended reals is the product with the inverse whatever the dividend.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The word `0x3F800000` is the number one. -/
theorem one_word_f32 : Ideal.ofBits .f32 0x3F800000#32 = 1 := by
  simp [Ideal.ofBits, Ideal.ieee, -EReal.coe_mul]; norm_num

variable {α : Type} {N K : ℕ}

/-- A per-node vector as a column `[N, 1]`, then repeated along a second axis of extent `K`: at `(p, k)` it is `v p`. -/
theorem nodeBroadcast_apply (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (p : Fin N) (k : Fin K) :
    broadcastInDim ⟨2, ![N, K]⟩ ![0, 1] h2 (broadcastInDim ⟨2, ![N, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if N = 1 then 0 else p.val
      have hp : p.val < N := p.isLt
      split
      · omega
      · rfl
    | ⟨1, _⟩ => show 0 = if (1 : ℕ) = 1 then 0 else k.val; rw [if_pos rfl]
  · match a with
    | ⟨0, _⟩ =>
      show p.val = if N = 1 then 0 else p.val
      have hp : p.val < N := p.isLt
      split
      · omega
      · rfl

/-- A scalar repeated over a vector reads the scalar everywhere. -/
theorem scalarBroadcast_apply (x : (⟨0, ![]⟩ : Shape).Idx → α)
    (h0 : (⟨0, ![]⟩ : Shape).BroadcastsInDim ⟨1, ![N]⟩ (![] : Fin 0 → Fin 1)) (i : (⟨1, ![N]⟩ : Shape).Idx) :
    broadcastInDim ⟨1, ![N]⟩ ![] h0 x i = x ix0 :=
  broadcastInDim_apply _ h0 x i ix0 fun a => a.elim0

/-- THE MEAN, either way: the sums times the broadcast reciprocal of the clamped counts are the sums divided by the
    broadcast clamped counts, as whole arrays on the extended reals. -/
theorem mean_by_reciprocal (S : FVec Ideal ⟨2, ![N, K]⟩ .f32) (cnt : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) :
    mulf S (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext i
  obtain ⟨p, k, rfl⟩ : ∃ (p : Fin N) (k : Fin K), i = ix2 p k := ⟨i 0, i 1, eq_ix2 i⟩
  have e1 := nodeBroadcast_apply
    (Host.divf (broadcastInDim ⟨1, ![N]⟩ ![] h0 (constant (F := Ideal) ⟨0, ![]⟩ .f32 0x3F800000#32))
      (maximumf cnt (broadcastInDim ⟨1, ![N]⟩ ![] h0 (constant (F := Ideal) ⟨0, ![]⟩ .f32 0x3F800000#32)))) h1 h2 p k
  have e2 := nodeBroadcast_apply
    (maximumf cnt (broadcastInDim ⟨1, ![N]⟩ ![] h0 (constant (F := Ideal) ⟨0, ![]⟩ .f32 0x3F800000#32))) h1 h2 p k
  have e0 : broadcastInDim ⟨1, ![N]⟩ ![] h0 (constant (F := Ideal) ⟨0, ![]⟩ .f32 0x3F800000#32) (ix1 p) = (1 : EReal) :=
    (scalarBroadcast_apply _ h0 (ix1 p)).trans one_word_f32
  show S (ix2 p k) * _ = Ideal.div (S (ix2 p k)) _
  rw [e1, e2]
  show S (ix2 p k) * Ideal.div (broadcastInDim ⟨1, ![N]⟩ ![] h0 (constant (F := Ideal) ⟨0, ![]⟩ .f32 0x3F800000#32) (ix1 p))
      (max (cnt (ix1 p)) (broadcastInDim ⟨1, ![N]⟩ ![] h0 (constant (F := Ideal) ⟨0, ![]⟩ .f32 0x3F800000#32) (ix1 p)))
    = Ideal.div (S (ix2 p k))
      (max (cnt (ix1 p)) (broadcastInDim ⟨1, ![N]⟩ ![] h0 (constant (F := Ideal) ⟨0, ![]⟩ .f32 0x3F800000#32) (ix1 p)))
  rw [e0]
  have hy : max (cnt (ix1 p)) (1 : EReal) ≠ 0 := ne_of_gt (lt_of_lt_of_le zero_lt_one (le_max_right _ _))
  unfold Ideal.div
  rw [if_neg hy, if_neg hy, one_mul]

end Cert.Lib

end
-- ==== Proof.GruMath.lean ====
import Idealize.ShloMosaic.PureOps.Ideal.Laws
import Idealize.ShloMosaic.Lib.ValueIdx
import proofs.«144611_j71408126263501_2_alg».proof.Proof.LibNodeMean

/-!
# One node's recurrent update, on the extended reals

The gated recurrent cell updates a node's state `h` (64 entries) by its aggregated message `x`:
with `z = σ(x·W_xz + b_z + h·W_hz)`, `r = σ(x·W_xr + b_r + h·W_hr)` and
`c = tanh(x·W_xh + b_h + r·(h·W_hh))`, entry `j` of the new state is `z·h_j + (1 − z)·c`, where
`σ(y) = 1 / (1 + exp(−y))`.  The logistic function as one operation and as this quotient are the same
function of an extended real, infinities included, because the one operation is defined as the quotient.
-/

noncomputable section

namespace Cert.Gru

open Idealize.ShloMosaic Idealize.ShloMosaic.ValueIdx
open scoped BigOperators

/-- A matrix of extended reals. -/
abbrev Mat (r c : ℕ) : Type := (⟨2, ![r, c]⟩ : Shape).Idx → EReal

/-- The float word of one. -/
abbrev one : EReal := Ideal.ofBits .f32 0x3F800000#32

/-- The logistic function written as a quotient, with the constant one as its float word. -/
def sigE (y : EReal) : EReal := Ideal.div one (one + Ideal.exp (-y))

/-- The logistic operation is that quotient. -/
theorem logistic_eq_sigE (y : EReal) : Ideal.logistic y = sigE y := by
  unfold Ideal.logistic sigE one
  rw [Cert.Lib.one_word_f32]

/-- A gate's pre-activation at column `j`: `x·W_x + b + h·W_h`. -/
def gate (h x : Fin 64 → EReal) (wx wh : Mat 64 64) (b : Mat 1 64) (j : Fin 64) : EReal :=
  ((∑ k : Fin 64, x k * wx (ix2 k j)) + b (ix2 (0 : Fin 1) j)) + ∑ k : Fin 64, h k * wh (ix2 k j)

/-- Entry `j` of one node's new state. -/
def row (h x : Fin 64 → EReal) (wxz wxr wxh whz whr whh : Mat 64 64) (bz br bh : Mat 1 64) (j : Fin 64) : EReal :=
  sigE (gate h x wxz whz bz j) * h j
    + (one - sigE (gate h x wxz whz bz j))
      * Ideal.tanh (((∑ k : Fin 64, x k * wxh (ix2 k j)) + bh (ix2 (0 : Fin 1) j))
          + sigE (gate h x wxr whr br j) * ∑ k : Fin 64, h k * whh (ix2 k j))

/-- The new states of `R` nodes: node `r`'s from row `r` of the states and of the aggregated messages. -/
def states {R : ℕ} (h x : Mat R 64) (wxz wxr wxh whz whr whh : Mat 64 64) (bz br bh : Mat 1 64) : Mat R 64 :=
  fun i => row (fun k => h (ix2 (i 0) k)) (fun k => x (ix2 (i 0) k)) wxz wxr wxh whz whr whh bz br bh (i 1)

theorem states_apply {R : ℕ} (h x : Mat R 64) (wxz wxr wxh whz whr whh : Mat 64 64) (bz br bh : Mat 1 64) (r : Fin R) (j : Fin 64) :
    states h x wxz wxr wxh whz whr whh bz br bh (ix2 r j)
      = row (fun k => h (ix2 r k)) (fun k => x (ix2 r k)) wxz wxr wxh whz whr whh bz br bh j := rfl

/-- Columns `o, …, o + n − 1` of a matrix. -/
def colsFrom (o : ℕ) {n N r : ℕ} (h : o + n ≤ N) (W : Mat r N) : Mat r n :=
  fun i => W (ix2 (i 0) ⟨o + (i 1).val, by have := (i 1).isLt; simp only [Matrix.cons_val_one, Matrix.cons_val_zero] at this; omega⟩)

theorem colsFrom_apply (o : ℕ) {n N r : ℕ} (h : o + n ≤ N) (W : Mat r N) (k : Fin r) (q : Fin n) :
    colsFrom o h W (ix2 k q) = W (ix2 k ⟨o + q.val, by have := q.isLt; omega⟩) := rfl

end Cert.Gru

end
-- ==== Proof.GruPay1.lean ====
import proofs.«144611_j71408126263501_2_alg».proof.Proof.Gen.KernelIdeal.Skeleton
import proofs.«144611_j71408126263501_2_alg».proof.Proof.GruMath
import proofs.«144611_j71408126263501_2_alg».proof.Proof.LibMatDot
import Idealize.ShloMosaic.Lib.ValueLayout
import Idealize.ShloMosaic.Lib.Pipeline.Value

/-!
# The recurrent-update kernel's arithmetic at an entry (launch 1)

The body forms six products of the block of node states or of aggregated messages with a 64×64 weight block,
adds a bias row to the three that come from the messages, and combines them through the two logistic gates and
the hyperbolic tangent.  Read at row `r` and column `j` it is entry `j` of the new state of the node in row
`r`: each product into a zero accumulator is a row-by-column sum, a change of float format is the identity on
extended reals, a bias row stretched over the block reads its own entry, and the logistic operation is the
quotient `1 / (1 + exp(−y))`.
-/

noncomputable section

namespace Cert.KernelIdeal.GruPay1

open Cert.KernelIdeal Cert.KernelIdeal.Gen Idealize.ShloMosaic Idealize.ShloMosaic.ValueIdx
open scoped BigOperators

/-- A product of a narrowed block with a narrowed weight block into the zero accumulator: the row-by-column sum. -/
theorem mm (a : Vec Ideal S5000x64 .f32) (w : Vec Ideal S64x64 .f32) (r : Fin 5000) (j : Fin 64) :
    matmul (F := Ideal) dot_S5000x64_S64x64_S5000x64_1_0_0_1_n_n none (truncf .bf16 a bitsLt_bf16_f32) (truncf .bf16 w bitsLt_bf16_f32)
        (constant S5000x64 .f32 0x00000000#32) (ix2 r j)
      = ∑ k : Fin 64, a (ix2 r k) * w (ix2 k j) :=
  Cert.Lib.matmul_plain_zero_apply dot_S5000x64_S64x64_S5000x64_1_0_0_1_n_n.wf none (truncf .bf16 a bitsLt_bf16_f32) (truncf .bf16 w bitsLt_bf16_f32) r j

/-- The messages' part of a gate: `x·W + b`. -/
theorem xpart (x : Vec Ideal S5000x64 .f32) (w : Vec Ideal S64x64 .f32) (b : Vec Ideal S1x64 .f32) (r : Fin 5000) (j : Fin 64) :
    addf (matmul (F := Ideal) dot_S5000x64_S64x64_S5000x64_1_0_0_1_n_n none (truncf .bf16 x bitsLt_bf16_f32) (truncf .bf16 w bitsLt_bf16_f32)
        (constant S5000x64 .f32 0x00000000#32)) (broadcastTo S5000x64 b broadcasts_S1x64_S5000x64) (ix2 r j)
      = (∑ k : Fin 64, x (ix2 r k) * w (ix2 k j)) + b (ix2 (0 : Fin 1) j) :=
  (addf_apply _ _ _).trans (congrArg₂ (· + ·) (mm x w r j) (broadcastTo_1b_ab_apply b broadcasts_S1x64_S5000x64 r j))

/-- A logistic gate of `x·W_x + b + h·W_h`. -/
theorem gateK (h x : Vec Ideal S5000x64 .f32) (wx wh : Vec Ideal S64x64 .f32) (b : Vec Ideal S1x64 .f32) (r : Fin 5000) (j : Fin 64) :
    logistic (addf (addf (matmul (F := Ideal) dot_S5000x64_S64x64_S5000x64_1_0_0_1_n_n none (truncf .bf16 x bitsLt_bf16_f32) (truncf .bf16 wx bitsLt_bf16_f32)
          (constant S5000x64 .f32 0x00000000#32)) (broadcastTo S5000x64 b broadcasts_S1x64_S5000x64))
        (matmul (F := Ideal) dot_S5000x64_S64x64_S5000x64_1_0_0_1_n_n none (truncf .bf16 h bitsLt_bf16_f32) (truncf .bf16 wh bitsLt_bf16_f32)
          (constant S5000x64 .f32 0x00000000#32))) (ix2 r j)
      = Cert.Gru.sigE (Cert.Gru.gate (fun k => h (ix2 r k)) (fun k => x (ix2 r k)) wx wh b j) := by
  show Ideal.logistic _ = _
  rw [Cert.Gru.logistic_eq_sigE]
  exact congrArg Cert.Gru.sigE ((addf_apply _ _ _).trans (congrArg₂ (· + ·) (xpart x wx b r j) (mm h wh r j)))

/-- The body's result at row `r`, column `j` of the block is entry `j` of the new state of the node in row `r`. -/
theorem pay_apply (x0 x1 : Vec Ideal S5000x64 .f32) (x2 x3 x4 x5 x6 x7 : Vec Ideal S64x64 .f32) (x8 x9 x10 : Vec Ideal S1x64 .f32)
    (r : Fin 5000) (j : Fin 64) :
    k1_pay1 (F := Ideal) x0 (k1_pay2 x0) (k1_pay4 x1 x2 x8) (k1_pay5 x1 x3 x9) (k1_pay6 x1 x4 x10) (k1_pay7 x0 x5) (k1_pay8 x6) x7 (ix2 r j)
      = Cert.Gru.row (fun k => x0 (ix2 r k)) (fun k => x1 (ix2 r k)) x2 x3 x4 x5 x6 x7 x8 x9 x10 j := by
  unfold k1_pay1 k1_pay4 k1_pay5 k1_pay6 k1_pay7 k1_pay8 k1_pay3 k1_pay2 Cert.Gru.row
  simp only [shapeCast_self]
  refine (addf_apply _ _ _).trans ?_
  refine congrArg₂ (· + ·) ?_ ?_
  · exact (mulf_apply _ _ _).trans (congrArg₂ (· * ·) (gateK x0 x1 x2 x5 x8 r j) rfl)
  · refine (mulf_apply _ _ _).trans (congrArg₂ (· * ·) ?_ ?_)
    · exact (subf_apply _ _ _).trans (congrArg₂ (· - ·) rfl (gateK x0 x1 x2 x5 x8 r j))
    · show Ideal.tanh _ = Ideal.tanh _
      refine congrArg Ideal.tanh ?_
      refine (addf_apply _ _ _).trans (congrArg₂ (· + ·) (xpart x1 x4 x10 r j) ?_)
      exact (mulf_apply _ _ _).trans (congrArg₂ (· * ·) (gateK x0 x1 x3 x6 x9 r j) (mm x0 x7 r j))

end Cert.KernelIdeal.GruPay1

end
-- ==== Proof.GruArr1.lean ====
import proofs.«144611_j71408126263501_2_alg».proof.Proof.Gen.KernelIdeal.Frame
import proofs.«144611_j71408126263501_2_alg».proof.Proof.GruPay1

/-!
# The node states that launch 1 leaves

The launch cuts the 50000 nodes into 10 blocks of 5000 rows; at block `t` the body reads rows
`5000·t, …, 5000·t + 4999` of the node states and of the aggregated messages and the whole of each weight
block and bias row, and writes rows `5000·t, …` of the result.  Row `p` of the block's result is the new
state of node `5000·t + p`, so the blocks together are the new states of all nodes.
-/

set_option maxRecDepth 16384

noncomputable section

namespace Cert.KernelIdeal.GruArr1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-indexed windows sit at block `(t, 0)`, the weight windows at `(0, 0)`. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

/-- Window 2 holds its whole array at every point. -/
theorem whole2 (c : Dev nD) (t : Fin cfg1.N) : iblk1 V c 2 t = V c main_call0_v25 := by
  funext z
  show V c main_call0_v25 (((cfg1.win 2).blk t).view.emb z) = V c main_call0_v25 z
  refine congrArg (V c main_call0_v25) (funext fun ax => Fin.ext ?_)
  have e0 : win1_2.index t (0 : Fin 2) = 0 := (idx_facts t).2.2.2.2.1
  have e1 : win1_2.index t (1 : Fin 2) = 0 := (idx_facts t).2.2.2.2.2.1
  match ax with
  | ⟨0, _⟩ => show win1_2.index t (0 : Fin 2) * 64 + 1 * (z 0).val = (z 0).val; omega
  | ⟨1, _⟩ => show win1_2.index t (1 : Fin 2) * 64 + 1 * (z 1).val = (z 1).val; omega

/-- Window 3 holds its whole array at every point. -/
theorem whole3 (c : Dev nD) (t : Fin cfg1.N) : iblk1 V c 3 t = V c main_call0_v26 := by
  funext z
  show V c main_call0_v26 (((cfg1.win 3).blk t).view.emb z) = V c main_call0_v26 z
  refine congrArg (V c main_call0_v26) (funext fun ax => Fin.ext ?_)
  have e0 : win1_3.index t (0 : Fin 2) = 0 := (idx_facts t).2.2.2.2.2.2.1
  have e1 : win1_3.index t (1 : Fin 2) = 0 := (idx_facts t).2.2.2.2.2.2.2.1
  match ax with
  | ⟨0, _⟩ => show win1_3.index t (0 : Fin 2) * 64 + 1 * (z 0).val = (z 0).val; omega
  | ⟨1, _⟩ => show win1_3.index t (1 : Fin 2) * 64 + 1 * (z 1).val = (z 1).val; omega

/-- Window 4 holds its whole array at every point. -/
theorem whole4 (c : Dev nD) (t : Fin cfg1.N) : iblk1 V c 4 t = V c main_call0_v27 := by
  funext z
  show V c main_call0_v27 (((cfg1.win 4).blk t).view.emb z) = V c main_call0_v27 z
  refine congrArg (V c main_call0_v27) (funext fun ax => Fin.ext ?_)
  have e0 : win1_4.index t (0 : Fin 2) = 0 := (idx_facts t).2.2.2.2.2.2.2.2.1
  have e1 : win1_4.index t (1 : Fin 2) = 0 := (idx_facts t).2.2.2.2.2.2.2.2.2.1
  match ax with
  | ⟨0, _⟩ => show win1_4.index t (0 : Fin 2) * 64 + 1 * (z 0).val = (z 0).val; omega
  | ⟨1, _⟩ => show win1_4.index t (1 : Fin 2) * 64 + 1 * (z 1).val = (z 1).val; omega

/-- Window 5 holds its whole array at every point. -/
theorem whole5 (c : Dev nD) (t : Fin cfg1.N) : iblk1 V c 5 t = V c main_call0_v28 := by
  funext z
  show V c main_call0_v28 (((cfg1.win 5).blk t).view.emb z) = V c main_call0_v28 z
  refine congrArg (V c main_call0_v28) (funext fun ax => Fin.ext ?_)
  have e0 : win1_5.index t (0 : Fin 2) = 0 := (idx_facts t).2.2.2.2.2.2.2.2.2.2.1
  have e1 : win1_5.index t (1 : Fin 2) = 0 := (idx_facts t).2.2.2.2.2.2.2.2.2.2.2.1
  match ax with
  | ⟨0, _⟩ => show win1_5.index t (0 : Fin 2) * 64 + 1 * (z 0).val = (z 0).val; omega
  | ⟨1, _⟩ => show win1_5.index t (1 : Fin 2) * 64 + 1 * (z 1).val = (z 1).val; omega

/-- Window 6 holds its whole array at every point. -/
theorem whole6 (c : Dev nD) (t : Fin cfg1.N) : iblk1 V c 6 t = V c main_call0_v29 := by
  funext z
  show V c main_call0_v29 (((cfg1.win 6).blk t).view.emb z) = V c main_call0_v29 z
  refine congrArg (V c main_call0_v29) (funext fun ax => Fin.ext ?_)
  have e0 : win1_6.index t (0 : Fin 2) = 0 := (idx_facts t).2.2.2.2.2.2.2.2.2.2.2.2.1
  have e1 : win1_6.index t (1 : Fin 2) = 0 := (idx_facts t).2.2.2.2.2.2.2.2.2.2.2.2.2.1
  match ax with
  | ⟨0, _⟩ => show win1_6.index t (0 : Fin 2) * 64 + 1 * (z 0).val = (z 0).val; omega
  | ⟨1, _⟩ => show win1_6.index t (1 : Fin 2) * 64 + 1 * (z 1).val = (z 1).val; omega

/-- Window 7 holds its whole array at every point. -/
theorem whole7 (c : Dev nD) (t : Fin cfg1.N) : iblk1 V c 7 t = V c main_call0_v30 := by
  funext z
  show V c main_call0_v30 (((cfg1.win 7).blk t).view.emb z) = V c main_call0_v30 z
  refine congrArg (V c main_call0_v30) (funext fun ax => Fin.ext ?_)
  have e0 : win1_7.index t (0 : Fin 2) = 0 := (idx_facts t).2.2.2.2.2.2.2.2.2.2.2.2.2.2.1
  have e1 : win1_7.index t (1 : Fin 2) = 0 := (idx_facts t).2.2.2.2.2.2.2.2.2.2.2.2.2.2.2.1
  match ax with
  | ⟨0, _⟩ => show win1_7.index t (0 : Fin 2) * 64 + 1 * (z 0).val = (z 0).val; omega
  | ⟨1, _⟩ => show win1_7.index t (1 : Fin 2) * 64 + 1 * (z 1).val = (z 1).val; omega

/-- Window 8 holds its whole array at every point. -/
theorem whole8 (c : Dev nD) (t : Fin cfg1.N) : iblk1 V c 8 t = V c main_call0_v34 := by
  funext z
  show V c main_call0_v34 (((cfg1.win 8).blk t).view.emb z) = V c main_call0_v34 z
  refine congrArg (V c main_call0_v34) (funext fun ax => Fin.ext ?_)
  have e0 : win1_8.index t (0 : Fin 2) = 0 := (idx_facts t).2.2.2.2.2.2.2.2.2.2.2.2.2.2.2.2.1
  have e1 : win1_8.index t (1 : Fin 2) = 0 := (idx_facts t).2.2.2.2.2.2.2.2.2.2.2.2.2.2.2.2.2.1
  match ax with
  | ⟨0, _⟩ => show win1_8.index t (0 : Fin 2) * 1 + 1 * (z 0).val = (z 0).val; omega
  | ⟨1, _⟩ => show win1_8.index t (1 : Fin 2) * 64 + 1 * (z 1).val = (z 1).val; omega

/-- Window 9 holds its whole array at every point. -/
theorem whole9 (c : Dev nD) (t : Fin cfg1.N) : iblk1 V c 9 t = V c main_call0_v35 := by
  funext z
  show V c main_call0_v35 (((cfg1.win 9).blk t).view.emb z) = V c main_call0_v35 z
  refine congrArg (V c main_call0_v35) (funext fun ax => Fin.ext ?_)
  have e0 : win1_9.index t (0 : Fin 2) = 0 := (idx_facts t).2.2.2.2.2.2.2.2.2.2.2.2.2.2.2.2.2.2.1
  have e1 : win1_9.index t (1 : Fin 2) = 0 := (idx_facts t).2.2.2.2.2.2.2.2.2.2.2.2.2.2.2.2.2.2.2.1
  match ax with
  | ⟨0, _⟩ => show win1_9.index t (0 : Fin 2) * 1 + 1 * (z 0).val = (z 0).val; omega
  | ⟨1, _⟩ => show win1_9.index t (1 : Fin 2) * 64 + 1 * (z 1).val = (z 1).val; omega

/-- Window 10 holds its whole array at every point. -/
theorem whole10 (c : Dev nD) (t : Fin cfg1.N) : iblk1 V c 10 t = V c main_call0_v36 := by
  funext z
  show V c main_call0_v36 (((cfg1.win 10).blk t).view.emb z) = V c main_call0_v36 z
  refine congrArg (V c main_call0_v36) (funext fun ax => Fin.ext ?_)
  have e0 : win1_10.index t (0 : Fin 2) = 0 := (idx_facts t).2.2.2.2.2.2.2.2.2.2.2.2.2.2.2.2.2.2.2.2.1
  have e1 : win1_10.index t (1 : Fin 2) = 0 := (idx_facts t).2.2.2.2.2.2.2.2.2.2.2.2.2.2.2.2.2.2.2.2.2.1
  match ax with
  | ⟨0, _⟩ => show win1_10.index t (0 : Fin 2) * 1 + 1 * (z 0).val = (z 0).val; omega
  | ⟨1, _⟩ => show win1_10.index t (1 : Fin 2) * 64 + 1 * (z 1).val = (z 1).val; omega

/-- Row `p` of window 0's block at point `t` is row `5000·t + p` of its array. -/
theorem rowOf0 (c : Dev nD) (t : Fin cfg1.N) (p : Fin 5000) (k : Fin 64) (g : Fin 50000) (hg : g.val = t.val * 5000 + p.val) :
    iblk1 V c 0 t (ix2 p k) = V c main_arg0 (ix2 g k) := by
  show V c main_arg0 (((cfg1.win 0).blk t).view.emb (ix2 p k)) = V c main_arg0 (ix2 g k)
  refine congrArg (V c main_arg0) (funext fun ax => Fin.ext ?_)
  have e0 : win1_0.index t (0 : Fin 2) = t.val := (idx_facts t).1
  have e1 : win1_0.index t (1 : Fin 2) = 0 := (idx_facts t).2.1
  match ax with
  | ⟨0, _⟩ => show win1_0.index t (0 : Fin 2) * 5000 + 1 * p.val = g.val; omega
  | ⟨1, _⟩ => show win1_0.index t (1 : Fin 2) * 64 + 1 * k.val = k.val; omega

/-- Row `p` of window 1's block at point `t` is row `5000·t + p` of its array. -/
theorem rowOf1 (c : Dev nD) (t : Fin cfg1.N) (p : Fin 5000) (k : Fin 64) (g : Fin 50000) (hg : g.val = t.val * 5000 + p.val) :
    iblk1 V c 1 t (ix2 p k) = V c main_call0_v24 (ix2 g k) := by
  show V c main_call0_v24 (((cfg1.win 1).blk t).view.emb (ix2 p k)) = V c main_call0_v24 (ix2 g k)
  refine congrArg (V c main_call0_v24) (funext fun ax => Fin.ext ?_)
  have e0 : win1_1.index t (0 : Fin 2) = t.val := (idx_facts t).2.2.1
  have e1 : win1_1.index t (1 : Fin 2) = 0 := (idx_facts t).2.2.2.1
  match ax with
  | ⟨0, _⟩ => show win1_1.index t (0 : Fin 2) * 5000 + 1 * p.val = g.val; omega
  | ⟨1, _⟩ => show win1_1.index t (1 : Fin 2) * 64 + 1 * k.val = k.val; omega

/-- The array of all rows, from the arrays the launch finds. -/
abbrev found (c : Dev nD) : Cert.Gru.Mat 50000 64 :=
  Cert.Gru.states (V c main_arg0) (V c main_call0_v24) (V c main_call0_v25) (V c main_call0_v26) (V c main_call0_v27) (V c main_call0_v28) (V c main_call0_v29) (V c main_call0_v30) (V c main_call0_v34) (V c main_call0_v35) (V c main_call0_v36)

set_option maxHeartbeats 1000000 in
/-- What point `t` writes back is block `t` of that array. -/
theorem flushed_eq (c : Dev nD) (t : Fin cfg1.N) :
    (dat1 V c).flushed 11 t = ((cfg1.win 11).blk t).view.read (Elt Ideal) (found V c) := by
  show (cfg1.win 11).cut (grid1.coords t) ((dat1 V c).after 11 t) = _
  rw [after1_11]
  unfold out1_11
  rw [View.canon_unit_zero hz]
  simp only [View.ld_unit_zero (S := S5000x64) hz, View.ld_unit_zero (S := S64x64) hz, View.ld_unit_zero (S := S1x64) hz]
  rw [whole2 V c t, whole3 V c t, whole4 V c t, whole5 V c t, whole6 V c t, whole7 V c t, whole8 V c t, whole9 V c t, whole10 V c t]
  funext y
  have e0 : win1_11.index t (0 : Fin 2) = t.val := (idx_facts t).2.2.2.2.2.2.2.2.2.2.2.2.2.2.2.2.2.2.2.2.2.2.1
  have e1 : win1_11.index t (1 : Fin 2) = 0 := (idx_facts t).2.2.2.2.2.2.2.2.2.2.2.2.2.2.2.2.2.2.2.2.2.2.2
  have hp : (y 0).val < 5000 := (y 0).isLt
  have hq : (y 1).val < 64 := (y 1).isLt
  have ht : t.val < 10 := lt_of_lt_of_eq t.isLt N_1
  let p : Fin 5000 := ⟨(y 0).val, hp⟩
  let q : Fin 64 := ⟨(y 1).val, hq⟩
  let g : Fin 50000 := ⟨t.val * 5000 + (y 0).val, by omega⟩
  have hy : y = ix2 p q := funext fun ax => Fin.ext (by match ax with | ⟨0, _⟩ => rfl | ⟨1, _⟩ => rfl)
  have hemb : ((cfg1.win 11).blk t).view.emb y = ix2 g q := funext fun ax => Fin.ext (by
    match ax with
    | ⟨0, _⟩ => show win1_11.index t (0 : Fin 2) * 5000 + 1 * (y 0).val = t.val * 5000 + (y 0).val; omega
    | ⟨1, _⟩ => show win1_11.index t (1 : Fin 2) * 64 + 1 * (y 1).val = (y 1).val; omega)
  show k1_pay1 (F := Ideal) (iblk1 V c 0 t) (k1_pay2 (iblk1 V c 0 t)) (k1_pay4 (iblk1 V c 1 t) (V c main_call0_v25) (V c main_call0_v34)) (k1_pay5 (iblk1 V c 1 t) (V c main_call0_v26) (V c main_call0_v35)) (k1_pay6 (iblk1 V c 1 t) (V c main_call0_v27) (V c main_call0_v36)) (k1_pay7 (iblk1 V c 0 t) (V c main_call0_v28)) (k1_pay8 (V c main_call0_v29)) (V c main_call0_v30) y
    = found V c (((cfg1.win 11).blk t).view.emb y)
  rw [hemb, hy]
  refine (Cert.KernelIdeal.GruPay1.pay_apply (iblk1 V c 0 t) (iblk1 V c 1 t) (V c main_call0_v25) (V c main_call0_v26) (V c main_call0_v27) (V c main_call0_v28) (V c main_call0_v29) (V c main_call0_v30) (V c main_call0_v34) (V c main_call0_v35) (V c main_call0_v36) p q).trans ?_
  show _ = Cert.Gru.row _ _ _ _ _ _ _ _ _ _ _ q
  have r0 : (fun k : Fin 64 => iblk1 V c 0 t (ix2 p k)) = fun k => V c main_arg0 (ix2 g k) := funext fun k => rowOf0 V c t p k g rfl
  have r1 : (fun k : Fin 64 => iblk1 V c 1 t (ix2 p k)) = fun k => V c main_call0_v24 (ix2 g k) := funext fun k => rowOf1 V c t p k g rfl
  rw [r0, r1]

/-- An index of the array is in point `t`'s block iff each coordinate is in the block's range on its axis. -/
theorem mem_blk (t : Fin cfg1.N) (i : S50000x64.Idx) :
    i ∈ ((cfg1.win 11).blk t).view.set ↔ ∀ a : Fin 2, win1_11.index t a * S5000x64.size a ≤ (i a).val ∧ (i a).val < win1_11.index t a * S5000x64.size a + S5000x64.size a := by
  show i ∈ ((View.whole main_call0_v37).slice (win1_11.rect t)).set ↔ _
  rw [View.set_slice_whole, Rect.mem_set_unit]
  exact Iff.rfl

/-- Every row of the array lies in the block of the point `row / 5000`. -/
theorem cover (i : S50000x64.Idx) : ∃ t : Fin cfg1.N, (cfg1.win 11).flush t = true ∧ i ∈ ((cfg1.win 11).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have e0 : win1_11.index t (0 : Fin 2) = t.val := (idx_facts t).2.2.2.2.2.2.2.2.2.2.2.2.2.2.2.2.2.2.2.2.2.2.1
  have e1 : win1_11.index t (1 : Fin 2) = 0 := (idx_facts t).2.2.2.2.2.2.2.2.2.2.2.2.2.2.2.2.2.2.2.2.2.2.2
  have htv : t.val = (i 0).val / 5000 := rfl
  refine ⟨t, flush1_11 t, ?_⟩
  rw [mem_blk]
  intro a
  match a with
  | ⟨0, _⟩ => show win1_11.index t (0 : Fin 2) * 5000 ≤ (i 0).val ∧ (i 0).val < win1_11.index t (0 : Fin 2) * 5000 + 5000; omega
  | ⟨1, _⟩ => show win1_11.index t (1 : Fin 2) * 64 ≤ (i 1).val ∧ (i 1).val < win1_11.index t (1 : Fin 2) * 64 + 64; omega

/-- The array the launch leaves is that array of all rows. -/
theorem array (c : Dev nD) : (dat1 V c).arrAt 11 cfg1.N = found V c :=
  (dat1 V c).arrAt_eq_of_cover 11 (found V c) (fun t _ => flushed_eq V c t) (cover)

end Cert.KernelIdeal.GruArr1

end
-- ==== Proof.GruRef.lean ====
import proofs.«144611_j71408126263501_2_alg».proof.Proof.RefSteps
import proofs.«144611_j71408126263501_2_alg».proof.Proof.GruMath
import proofs.«144611_j71408126263501_2_alg».proof.Proof.LibMatDot
import proofs.«144611_j71408126263501_2_alg».proof.Proof.LibBiasRows
import Idealize.ShloMosaic.Lib.ValueLayout
import Idealize.ShloMosaic.Lib.Pipeline.Value

/-!
# The reference's recurrent update at an entry

The reference multiplies the aggregated messages by the whole `W_x` (64×192) and adds the whole bias, multiplies
the node states by the whole `W_h`, and then cuts each of the two `[50000, 192]` results into its three column
ranges.  Column `j` of the `t`-th range of a product `a·W` is the product of `a` with column `64·t + j` of
`W`, so each gate's pre-activation is the one computed from the corresponding 64×64 blocks of the weights and
the corresponding 64 entries of the bias.
-/

set_option maxRecDepth 16384

noncomputable section

namespace Cert.ReferenceIdeal.GruRef

open Cert.ReferenceIdeal Cert.ReferenceIdeal.Gen Cert.ReferenceIdeal.Steps Idealize.ShloMosaic Idealize.ShloMosaic.ValueIdx
open scoped BigOperators

theorem gx_apply (x : Arr (F := Ideal) S50000x64) (Wx : Arr (F := Ideal) S64x192) (b : Arr (F := Ideal) S192) (r : Fin 50000) (c : Fin 192) :
    gx x Wx b (ix2 r c) = (∑ k : Fin 64, x (ix2 r k) * Wx (ix2 k c)) + b (ix1 c) := by
  unfold gx
  refine (addf_apply _ _ _).trans (congrArg₂ (· + ·) ?_ (Cert.Lib.biasRows_apply b bcast_S192_S1x192_1 bcast_S1x192_S50000x192_0_1 r c))
  simp only [Host.dotGeneral]
  exact Cert.Lib.dotGeneral_plain_apply dot_S50000x64_S64x192_S50000x192_1_0_0_1_n_n.wf none _ x Wx r c

theorem gh_apply (h : Arr (F := Ideal) S50000x64) (Wh : Arr (F := Ideal) S64x192) (r : Fin 50000) (c : Fin 192) :
    gh h Wh (ix2 r c) = ∑ k : Fin 64, h (ix2 r k) * Wh (ix2 k c) := by
  unfold gh
  simp only [Host.dotGeneral]
  exact Cert.Lib.dotGeneral_plain_apply dot_S50000x64_S64x192_S50000x192_1_0_0_1_n_n.wf none _ h Wh r c

theorem colsZ_apply (y : Arr (F := Ideal) S50000x192) (r : Fin 50000) (j : Fin 64) :
    colsZ y (ix2 r j) = y (ix2 r ⟨j.val, by have := j.isLt; omega⟩) :=
  slice2_axis1_apply 0 y slices_S50000x192_S50000x64_0_0 r j _ (Nat.zero_add _).symm

theorem colsR_apply (y : Arr (F := Ideal) S50000x192) (r : Fin 50000) (j : Fin 64) :
    colsR y (ix2 r j) = y (ix2 r ⟨64 + j.val, by have := j.isLt; omega⟩) :=
  slice2_axis1_apply 64 y slices_S50000x192_S50000x64_0_64 r j _ rfl

theorem colsH_apply (y : Arr (F := Ideal) S50000x192) (r : Fin 50000) (j : Fin 64) :
    colsH y (ix2 r j) = y (ix2 r ⟨128 + j.val, by have := j.isLt; omega⟩) :=
  slice2_axis1_apply 128 y slices_S50000x192_S50000x64_0_128 r j _ rfl

theorem ones_apply (i : S50000x64.Idx) : ones (F := Ideal) i = Cert.Gru.one :=
  (Cert.Lib.splat2_apply _ bcast_S_S50000x64 i).trans (constant_apply _ _)

/-- The reference's logistic quotient at an entry. -/
theorem sigm_apply (y : Arr (F := Ideal) S50000x64) (i : S50000x64.Idx) : sigm y i = Cert.Gru.sigE (y i) := by
  unfold sigm Cert.Gru.sigE
  show Ideal.div (ones (F := Ideal) i) (ones (F := Ideal) i + Ideal.exp (-(y i))) = _
  rw [ones_apply]

/-- A gate's pre-activation at column `c` of the wide products is the gate computed from the blocks that hold that column. -/
theorem gate_at (h x : Arr (F := Ideal) S50000x64) (Wx Wh : Arr (F := Ideal) S64x192) (b : Arr (F := Ideal) S192)
    (wx wh : Cert.Gru.Mat 64 64) (bb : Cert.Gru.Mat 1 64) (r : Fin 50000) (j : Fin 64) (c : Fin 192)
    (hwx : ∀ k : Fin 64, wx (ix2 k j) = Wx (ix2 k c)) (hwh : ∀ k : Fin 64, wh (ix2 k j) = Wh (ix2 k c))
    (hb : bb (ix2 (0 : Fin 1) j) = b (ix1 c)) :
    gx x Wx b (ix2 r c) + gh h Wh (ix2 r c) = Cert.Gru.gate (fun k => h (ix2 r k)) (fun k => x (ix2 r k)) wx wh bb j := by
  rw [gx_apply, gh_apply]
  unfold Cert.Gru.gate
  exact congrArg₂ (· + ·) (congrArg₂ (· + ·) (Finset.sum_congr rfl fun k _ => congrArg₂ (· * ·) rfl (hwx k).symm) hb.symm)
    (Finset.sum_congr rfl fun k _ => congrArg₂ (· * ·) rfl (hwh k).symm)

/-- The reference's updated states are the states computed from the 64×64 blocks of the two weight arrays and the
    three 64-entry parts of the bias. -/
theorem gru_eq (h x : Arr (F := Ideal) S50000x64) (Wx Wh : Arr (F := Ideal) S64x192) (b : Arr (F := Ideal) S192)
    (wxz wxr wxh whz whr whh : Cert.Gru.Mat 64 64) (bz br bh : Cert.Gru.Mat 1 64)
    (hxz : ∀ k j : Fin 64, wxz (ix2 k j) = Wx (ix2 k ⟨j.val, by have := j.isLt; omega⟩))
    (hxr : ∀ k j : Fin 64, wxr (ix2 k j) = Wx (ix2 k ⟨64 + j.val, by have := j.isLt; omega⟩))
    (hxh : ∀ k j : Fin 64, wxh (ix2 k j) = Wx (ix2 k ⟨128 + j.val, by have := j.isLt; omega⟩))
    (hhz : ∀ k j : Fin 64, whz (ix2 k j) = Wh (ix2 k ⟨j.val, by have := j.isLt; omega⟩))
    (hhr : ∀ k j : Fin 64, whr (ix2 k j) = Wh (ix2 k ⟨64 + j.val, by have := j.isLt; omega⟩))
    (hhh : ∀ k j : Fin 64, whh (ix2 k j) = Wh (ix2 k ⟨128 + j.val, by have := j.isLt; omega⟩))
    (hbz : ∀ j : Fin 64, bz (ix2 (0 : Fin 1) j) = b (ix1 ⟨j.val, by have := j.isLt; omega⟩))
    (hbr : ∀ j : Fin 64, br (ix2 (0 : Fin 1) j) = b (ix1 ⟨64 + j.val, by have := j.isLt; omega⟩))
    (hbh : ∀ j : Fin 64, bh (ix2 (0 : Fin 1) j) = b (ix1 ⟨128 + j.val, by have := j.isLt; omega⟩)) :
    Cert.Gru.states h x wxz wxr wxh whz whr whh bz br bh = gru (F := Ideal) h x Wx Wh b := by
  funext i
  obtain ⟨r, j, rfl⟩ : ∃ (r : Fin 50000) (j : Fin 64), i = ix2 r j := ⟨i 0, i 1, eq_ix2 i⟩
  rw [Cert.Gru.states_apply]
  have hz : sigm (addf (colsZ (gx x Wx b)) (colsZ (gh h Wh))) (ix2 r j)
      = Cert.Gru.sigE (Cert.Gru.gate (fun k => h (ix2 r k)) (fun k => x (ix2 r k)) wxz whz bz j) := by
    rw [sigm_apply]
    refine congrArg Cert.Gru.sigE ?_
    refine (addf_apply _ _ _).trans ?_
    rw [colsZ_apply, colsZ_apply]
    exact gate_at h x Wx Wh b wxz whz bz r j _ (fun k => hxz k j) (fun k => hhz k j) (hbz j)
  have hr : sigm (addf (colsR (gx x Wx b)) (colsR (gh h Wh))) (ix2 r j)
      = Cert.Gru.sigE (Cert.Gru.gate (fun k => h (ix2 r k)) (fun k => x (ix2 r k)) wxr whr br j) := by
    rw [sigm_apply]
    refine congrArg Cert.Gru.sigE ?_
    refine (addf_apply _ _ _).trans ?_
    rw [colsR_apply, colsR_apply]
    exact gate_at h x Wx Wh b wxr whr br r j _ (fun k => hxr k j) (fun k => hhr k j) (hbr j)
  unfold gru Cert.Gru.row
  refine ((addf_apply _ _ _).trans ?_).symm
  refine congrArg₂ (· + ·) ?_ ?_
  · exact (mulf_apply _ _ _).trans (congrArg₂ (· * ·) hz rfl)
  · refine (mulf_apply _ _ _).trans (congrArg₂ (· * ·) ?_ ?_)
    · exact (subf_apply _ _ _).trans (congrArg₂ (· - ·) (ones_apply _) hz)
    · show Ideal.tanh _ = Ideal.tanh _
      refine congrArg Ideal.tanh ?_
      refine (addf_apply _ _ _).trans ?_
      refine congrArg₂ (· + ·) ?_ ?_
      · rw [colsH_apply, gx_apply]
        exact congrArg₂ (· + ·) (Finset.sum_congr rfl fun k _ => congrArg₂ (· * ·) rfl (hxh k j).symm) (hbh j).symm
      · refine (mulf_apply _ _ _).trans (congrArg₂ (· * ·) hr ?_)
        rw [colsH_apply, gh_apply]
        exact Finset.sum_congr rfl fun k _ => congrArg₂ (· * ·) rfl (hhh k j).symm

end Cert.ReferenceIdeal.GruRef

end
-- ==== Proof.LibVecLayout.lean ====
import Idealize.ShloMosaic.Lib.ValueIdx
import Idealize.ShloMosaic.Lib.Pipeline.Value

/-!
# Two small layout forms read at an index

General, program-free lemmas: a contiguous part of a vector (`slice [o : o + m]` of `[n]`) reads, at `j`, the
vector's entry `o + j`; and a one-column array `[a, 1]` reshaped to one row `[1, a]` reads, at `(0, q)`, the
column's entry `(q, 0)`, because both sit at position `q` in row-major order.
-/

noncomputable section

namespace Cert.Lib

open Idealize.ShloMosaic Idealize.ShloMosaic.ValueIdx

variable {α : Type}

/-- Entry `j` of the part of a vector that starts at `o` is the vector's entry `o + j`. -/
theorem sliceVec_apply {n m : ℕ} (o : ℕ) (X : (⟨1, ![n]⟩ : Shape).Idx → α) (h : (⟨1, ![n]⟩ : Shape).Slices ![o] ⟨1, ![m]⟩)
    (j : Fin m) (k : Fin n) (hk : k.val = o + j.val) :
    extractStridedSlice ⟨1, ![m]⟩ ![o] X h (ix1 j) = X (ix1 k) :=
  extractStridedSlice_apply _ _ _ _ _ (fun ax => by
    match ax with
    | ⟨0, _⟩ => exact hk)

/-- A one-column array reshaped to one row: entry `(0, q)` of the row is entry `(q, 0)` of the column. -/
theorem colAsRow_apply {a : ℕ} (X : (⟨2, ![a, 1]⟩ : Shape).Idx → α) (h : (⟨2, ![a, 1]⟩ : Shape).ShapeCasts ⟨2, ![1, a]⟩)
    (q : Fin a) (u v : Fin 1) : shapeCast ⟨2, ![1, a]⟩ X h (ix2 v q) = X (ix2 q u) :=
  shapeCast_apply X h _ _ (by
    have hu : u.val = 0 := by omega
    have hv : v.val = 0 := by omega
    rw [Shape.rowMajor_val_two, Shape.rowMajor_val_two]
    show q.val * 1 + u.val = v.val * a + q.val
    rw [hu, hv, Nat.mul_one, Nat.add_zero, Nat.zero_mul, Nat.zero_add])

end Cert.Lib

end
-- ==== Proof.GruStep1.lean ====
import proofs.«144611_j71408126263501_2_alg».proof.Proof.GruArr1
import proofs.«144611_j71408126263501_2_alg».proof.Proof.GruRef
import proofs.«144611_j71408126263501_2_alg».proof.Proof.LibVecLayout

/-!
# Launch 1 computes the reference's recurrent update

If the arrays the launch finds are the node states, the aggregated messages, the three column ranges of each of
the two gate weight arrays and the three parts of the gate bias laid out as rows, then the array it leaves is the
reference's updated node states.
-/

set_option maxRecDepth 16384

noncomputable section

namespace Cert.KernelIdeal.GruStep1

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem gru_of (c : Dev nD) (h x : S50000x64.Idx → EReal) (Wx Wh : S64x192.Idx → EReal) (b : S192.Idx → EReal)
    (hh : @Eq (S50000x64.Idx → EReal) (V c main_arg0) h) (hx : @Eq (S50000x64.Idx → EReal) (V c main_call0_v24) x)
    (h2 : @Eq (S64x64.Idx → EReal) (V c main_call0_v25) (extractStridedSlice S64x64 ![0, 0] Wx slices_S64x192_S64x64_0_0))
    (h3 : @Eq (S64x64.Idx → EReal) (V c main_call0_v26) (extractStridedSlice S64x64 ![0, 64] Wx slices_S64x192_S64x64_0_64))
    (h4 : @Eq (S64x64.Idx → EReal) (V c main_call0_v27) (extractStridedSlice S64x64 ![0, 128] Wx slices_S64x192_S64x64_0_128))
    (h5 : @Eq (S64x64.Idx → EReal) (V c main_call0_v28) (extractStridedSlice S64x64 ![0, 0] Wh slices_S64x192_S64x64_0_0))
    (h6 : @Eq (S64x64.Idx → EReal) (V c main_call0_v29) (extractStridedSlice S64x64 ![0, 64] Wh slices_S64x192_S64x64_0_64))
    (h7 : @Eq (S64x64.Idx → EReal) (V c main_call0_v30) (extractStridedSlice S64x64 ![0, 128] Wh slices_S64x192_S64x64_0_128))
    (h8 : @Eq (S1x64.Idx → EReal) (V c main_call0_v34) (shapeCast S1x64 (extractStridedSlice S64 ![0] b slices_S192_S64_0) shapeCasts_S64_S1x64))
    (h9 : @Eq (S1x64.Idx → EReal) (V c main_call0_v35) (shapeCast S1x64 (extractStridedSlice S64 ![64] b slices_S192_S64_64) shapeCasts_S64_S1x64))
    (h10 : @Eq (S1x64.Idx → EReal) (V c main_call0_v36) (shapeCast S1x64 (extractStridedSlice S64 ![128] b slices_S192_S64_128) shapeCasts_S64_S1x64)) :
    @Eq (S50000x64.Idx → EReal) ((dat1 V c).arrAt 11 cfg1.N) (Cert.ReferenceIdeal.Steps.gru (F := Ideal) h x Wx Wh b) := by
  subst hh hx
  refine (Cert.KernelIdeal.GruArr1.array V c).trans ?_
  exact Cert.ReferenceIdeal.GruRef.gru_eq _ _ Wx Wh b _ _ _ _ _ _ _ _ _
    (fun k j => (congrFun h2 (ix2 k j)).trans (slice2_axis1_apply 0 Wx slices_S64x192_S64x64_0_0 k j _ (Nat.zero_add _).symm))
    (fun k j => (congrFun h3 (ix2 k j)).trans (slice2_axis1_apply 64 Wx slices_S64x192_S64x64_0_64 k j _ rfl))
    (fun k j => (congrFun h4 (ix2 k j)).trans (slice2_axis1_apply 128 Wx slices_S64x192_S64x64_0_128 k j _ rfl))
    (fun k j => (congrFun h5 (ix2 k j)).trans (slice2_axis1_apply 0 Wh slices_S64x192_S64x64_0_0 k j _ (Nat.zero_add _).symm))
    (fun k j => (congrFun h6 (ix2 k j)).trans (slice2_axis1_apply 64 Wh slices_S64x192_S64x64_0_64 k j _ rfl))
    (fun k j => (congrFun h7 (ix2 k j)).trans (slice2_axis1_apply 128 Wh slices_S64x192_S64x64_0_128 k j _ rfl))
    (fun j => (congrFun h8 (ix2 (0 : Fin 1) j)).trans ((shapeCast_a_1a_apply _ shapeCasts_S64_S1x64 0 j).trans (Cert.Lib.sliceVec_apply 0 b slices_S192_S64_0 j _ (Nat.zero_add _).symm)))
    (fun j => (congrFun h9 (ix2 (0 : Fin 1) j)).trans ((shapeCast_a_1a_apply _ shapeCasts_S64_S1x64 0 j).trans (Cert.Lib.sliceVec_apply 64 b slices_S192_S64_64 j _ rfl)))
    (fun j => (congrFun h10 (ix2 (0 : Fin 1) j)).trans ((shapeCast_a_1a_apply _ shapeCasts_S64_S1x64 0 j).trans (Cert.Lib.sliceVec_apply 128 b slices_S192_S64_128 j _ rfl)))

end Cert.KernelIdeal.GruStep1

end
-- ==== Proof.GruPay3.lean ====
import proofs.«144611_j71408126263501_2_alg».proof.Proof.Gen.KernelIdeal.Skeleton
import proofs.«144611_j71408126263501_2_alg».proof.Proof.GruMath
import proofs.«144611_j71408126263501_2_alg».proof.Proof.LibMatDot
import Idealize.ShloMosaic.Lib.ValueLayout
import Idealize.ShloMosaic.Lib.Pipeline.Value

/-!
# The recurrent-update kernel's arithmetic at an entry (launch 3)

The body forms six products of the block of node states or of aggregated messages with a 64×64 weight block,
adds a bias row to the three that come from the messages, and combines them through the two logistic gates and
the hyperbolic tangent.  Read at row `r` and column `j` it is entry `j` of the new state of the node in row
`r`: each product into a zero accumulator is a row-by-column sum, a change of float format is the identity on
extended reals, a bias row stretched over the block reads its own entry, and the logistic operation is the
quotient `1 / (1 + exp(−y))`.
-/

noncomputable section

namespace Cert.KernelIdeal.GruPay3

open Cert.KernelIdeal Cert.KernelIdeal.Gen Idealize.ShloMosaic Idealize.ShloMosaic.ValueIdx
open scoped BigOperators

/-- A product of a narrowed block with a narrowed weight block into the zero accumulator: the row-by-column sum. -/
theorem mm (a : Vec Ideal S5000x64 .f32) (w : Vec Ideal S64x64 .f32) (r : Fin 5000) (j : Fin 64) :
    matmul (F := Ideal) dot_S5000x64_S64x64_S5000x64_1_0_0_1_n_n none (truncf .bf16 a bitsLt_bf16_f32) (truncf .bf16 w bitsLt_bf16_f32)
        (constant S5000x64 .f32 0x00000000#32) (ix2 r j)
      = ∑ k : Fin 64, a (ix2 r k) * w (ix2 k j) :=
  Cert.Lib.matmul_plain_zero_apply dot_S5000x64_S64x64_S5000x64_1_0_0_1_n_n.wf none (truncf .bf16 a bitsLt_bf16_f32) (truncf .bf16 w bitsLt_bf16_f32) r j

/-- The messages' part of a gate: `x·W + b`. -/
theorem xpart (x : Vec Ideal S5000x64 .f32) (w : Vec Ideal S64x64 .f32) (b : Vec Ideal S1x64 .f32) (r : Fin 5000) (j : Fin 64) :
    addf (matmul (F := Ideal) dot_S5000x64_S64x64_S5000x64_1_0_0_1_n_n none (truncf .bf16 x bitsLt_bf16_f32) (truncf .bf16 w bitsLt_bf16_f32)
        (constant S5000x64 .f32 0x00000000#32)) (broadcastTo S5000x64 b broadcasts_S1x64_S5000x64) (ix2 r j)
      = (∑ k : Fin 64, x (ix2 r k) * w (ix2 k j)) + b (ix2 (0 : Fin 1) j) :=
  (addf_apply _ _ _).trans (congrArg₂ (· + ·) (mm x w r j) (broadcastTo_1b_ab_apply b broadcasts_S1x64_S5000x64 r j))

/-- A logistic gate of `x·W_x + b + h·W_h`. -/
theorem gateK (h x : Vec Ideal S5000x64 .f32) (wx wh : Vec Ideal S64x64 .f32) (b : Vec Ideal S1x64 .f32) (r : Fin 5000) (j : Fin 64) :
    logistic (addf (addf (matmul (F := Ideal) dot_S5000x64_S64x64_S5000x64_1_0_0_1_n_n none (truncf .bf16 x bitsLt_bf16_f32) (truncf .bf16 wx bitsLt_bf16_f32)
          (constant S5000x64 .f32 0x00000000#32)) (broadcastTo S5000x64 b broadcasts_S1x64_S5000x64))
        (matmul (F := Ideal) dot_S5000x64_S64x64_S5000x64_1_0_0_1_n_n none (truncf .bf16 h bitsLt_bf16_f32) (truncf .bf16 wh bitsLt_bf16_f32)
          (constant S5000x64 .f32 0x00000000#32))) (ix2 r j)
      = Cert.Gru.sigE (Cert.Gru.gate (fun k => h (ix2 r k)) (fun k => x (ix2 r k)) wx wh b j) := by
  show Ideal.logistic _ = _
  rw [Cert.Gru.logistic_eq_sigE]
  exact congrArg Cert.Gru.sigE ((addf_apply _ _ _).trans (congrArg₂ (· + ·) (xpart x wx b r j) (mm h wh r j)))

/-- The body's result at row `r`, column `j` of the block is entry `j` of the new state of the node in row `r`. -/
theorem pay_apply (x0 x1 : Vec Ideal S5000x64 .f32) (x2 x3 x4 x5 x6 x7 : Vec Ideal S64x64 .f32) (x8 x9 x10 : Vec Ideal S1x64 .f32)
    (r : Fin 5000) (j : Fin 64) :
    k3_pay1 (F := Ideal) (k3_pay2 x0) (k3_pay3 x0) (k3_pay5 x1 x2 x8) (k3_pay6 x1 x3 x9) (k3_pay7 x1 x4 x10) (k3_pay8 x0 x5) x6 x7 (ix2 r j)
      = Cert.Gru.row (fun k => x0 (ix2 r k)) (fun k => x1 (ix2 r k)) x2 x3 x4 x5 x6 x7 x8 x9 x10 j := by
  unfold k3_pay1 k3_pay5 k3_pay6 k3_pay7 k3_pay8 k3_pay4 k3_pay3 k3_pay2 Cert.Gru.row
  simp only [shapeCast_self]
  refine (addf_apply _ _ _).trans ?_
  refine congrArg₂ (· + ·) ?_ ?_
  · exact (mulf_apply _ _ _).trans (congrArg₂ (· * ·) (gateK x0 x1 x2 x5 x8 r j) rfl)
  · refine (mulf_apply _ _ _).trans (congrArg₂ (· * ·) ?_ ?_)
    · exact (subf_apply _ _ _).trans (congrArg₂ (· - ·) rfl (gateK x0 x1 x2 x5 x8 r j))
    · show Ideal.tanh _ = Ideal.tanh _
      refine congrArg Ideal.tanh ?_
      refine (addf_apply _ _ _).trans (congrArg₂ (· + ·) (xpart x1 x4 x10 r j) ?_)
      exact (mulf_apply _ _ _).trans (congrArg₂ (· * ·) (gateK x0 x1 x3 x6 x9 r j) (mm x0 x7 r j))

end Cert.KernelIdeal.GruPay3

end
-- ==== Proof.GruArr3.lean ====
import proofs.«144611_j71408126263501_2_alg».proof.Proof.Gen.KernelIdeal.Frame
import proofs.«144611_j71408126263501_2_alg».proof.Proof.GruPay3

/-!
# The node states that launch 3 leaves

The launch cuts the 50000 nodes into 10 blocks of 5000 rows; at block `t` the body reads rows
`5000·t, …, 5000·t + 4999` of the node states and of the aggregated messages and the whole of each weight
block and bias row, and writes rows `5000·t, …` of the result.  Row `p` of the block's result is the new
state of node `5000·t + p`, so the blocks together are the new states of all nodes.
-/

set_option maxRecDepth 16384

noncomputable section

namespace Cert.KernelIdeal.GruArr3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-indexed windows sit at block `(t, 0)`, the weight windows at `(0, 0)`. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = t.val
    ∧ win3_11.index t (1 : Fin 2) = 0 :=
  (by decide +kernel : ∀ t : Fin grid3.N, _)

/-- Window 2 holds its whole array at every point. -/
theorem whole2 (c : Dev nD) (t : Fin cfg3.N) : iblk3 V c 2 t = V c main_call0_v62 := by
  funext z
  show V c main_call0_v62 (((cfg3.win 2).blk t).view.emb z) = V c main_call0_v62 z
  refine congrArg (V c main_call0_v62) (funext fun ax => Fin.ext ?_)
  have e0 : win3_2.index t (0 : Fin 2) = 0 := (idx_facts t).2.2.2.2.1
  have e1 : win3_2.index t (1 : Fin 2) = 0 := (idx_facts t).2.2.2.2.2.1
  match ax with
  | ⟨0, _⟩ => show win3_2.index t (0 : Fin 2) * 64 + 1 * (z 0).val = (z 0).val; omega
  | ⟨1, _⟩ => show win3_2.index t (1 : Fin 2) * 64 + 1 * (z 1).val = (z 1).val; omega

/-- Window 3 holds its whole array at every point. -/
theorem whole3 (c : Dev nD) (t : Fin cfg3.N) : iblk3 V c 3 t = V c main_call0_v63 := by
  funext z
  show V c main_call0_v63 (((cfg3.win 3).blk t).view.emb z) = V c main_call0_v63 z
  refine congrArg (V c main_call0_v63) (funext fun ax => Fin.ext ?_)
  have e0 : win3_3.index t (0 : Fin 2) = 0 := (idx_facts t).2.2.2.2.2.2.1
  have e1 : win3_3.index t (1 : Fin 2) = 0 := (idx_facts t).2.2.2.2.2.2.2.1
  match ax with
  | ⟨0, _⟩ => show win3_3.index t (0 : Fin 2) * 64 + 1 * (z 0).val = (z 0).val; omega
  | ⟨1, _⟩ => show win3_3.index t (1 : Fin 2) * 64 + 1 * (z 1).val = (z 1).val; omega

/-- Window 4 holds its whole array at every point. -/
theorem whole4 (c : Dev nD) (t : Fin cfg3.N) : iblk3 V c 4 t = V c main_call0_v64 := by
  funext z
  show V c main_call0_v64 (((cfg3.win 4).blk t).view.emb z) = V c main_call0_v64 z
  refine congrArg (V c main_call0_v64) (funext fun ax => Fin.ext ?_)
  have e0 : win3_4.index t (0 : Fin 2) = 0 := (idx_facts t).2.2.2.2.2.2.2.2.1
  have e1 : win3_4.index t (1 : Fin 2) = 0 := (idx_facts t).2.2.2.2.2.2.2.2.2.1
  match ax with
  | ⟨0, _⟩ => show win3_4.index t (0 : Fin 2) * 64 + 1 * (z 0).val = (z 0).val; omega
  | ⟨1, _⟩ => show win3_4.index t (1 : Fin 2) * 64 + 1 * (z 1).val = (z 1).val; omega

/-- Window 5 holds its whole array at every point. -/
theorem whole5 (c : Dev nD) (t : Fin cfg3.N) : iblk3 V c 5 t = V c main_call0_v65 := by
  funext z
  show V c main_call0_v65 (((cfg3.win 5).blk t).view.emb z) = V c main_call0_v65 z
  refine congrArg (V c main_call0_v65) (funext fun ax => Fin.ext ?_)
  have e0 : win3_5.index t (0 : Fin 2) = 0 := (idx_facts t).2.2.2.2.2.2.2.2.2.2.1
  have e1 : win3_5.index t (1 : Fin 2) = 0 := (idx_facts t).2.2.2.2.2.2.2.2.2.2.2.1
  match ax with
  | ⟨0, _⟩ => show win3_5.index t (0 : Fin 2) * 64 + 1 * (z 0).val = (z 0).val; omega
  | ⟨1, _⟩ => show win3_5.index t (1 : Fin 2) * 64 + 1 * (z 1).val = (z 1).val; omega

/-- Window 6 holds its whole array at every point. -/
theorem whole6 (c : Dev nD) (t : Fin cfg3.N) : iblk3 V c 6 t = V c main_call0_v66 := by
  funext z
  show V c main_call0_v66 (((cfg3.win 6).blk t).view.emb z) = V c main_call0_v66 z
  refine congrArg (V c main_call0_v66) (funext fun ax => Fin.ext ?_)
  have e0 : win3_6.index t (0 : Fin 2) = 0 := (idx_facts t).2.2.2.2.2.2.2.2.2.2.2.2.1
  have e1 : win3_6.index t (1 : Fin 2) = 0 := (idx_facts t).2.2.2.2.2.2.2.2.2.2.2.2.2.1
  match ax with
  | ⟨0, _⟩ => show win3_6.index t (0 : Fin 2) * 64 + 1 * (z 0).val = (z 0).val; omega
  | ⟨1, _⟩ => show win3_6.index t (1 : Fin 2) * 64 + 1 * (z 1).val = (z 1).val; omega

/-- Window 7 holds its whole array at every point. -/
theorem whole7 (c : Dev nD) (t : Fin cfg3.N) : iblk3 V c 7 t = V c main_call0_v67 := by
  funext z
  show V c main_call0_v67 (((cfg3.win 7).blk t).view.emb z) = V c main_call0_v67 z
  refine congrArg (V c main_call0_v67) (funext fun ax => Fin.ext ?_)
  have e0 : win3_7.index t (0 : Fin 2) = 0 := (idx_facts t).2.2.2.2.2.2.2.2.2.2.2.2.2.2.1
  have e1 : win3_7.index t (1 : Fin 2) = 0 := (idx_facts t).2.2.2.2.2.2.2.2.2.2.2.2.2.2.2.1
  match ax with
  | ⟨0, _⟩ => show win3_7.index t (0 : Fin 2) * 64 + 1 * (z 0).val = (z 0).val; omega
  | ⟨1, _⟩ => show win3_7.index t (1 : Fin 2) * 64 + 1 * (z 1).val = (z 1).val; omega

/-- Window 8 holds its whole array at every point. -/
theorem whole8 (c : Dev nD) (t : Fin cfg3.N) : iblk3 V c 8 t = V c main_call0_v71 := by
  funext z
  show V c main_call0_v71 (((cfg3.win 8).blk t).view.emb z) = V c main_call0_v71 z
  refine congrArg (V c main_call0_v71) (funext fun ax => Fin.ext ?_)
  have e0 : win3_8.index t (0 : Fin 2) = 0 := (idx_facts t).2.2.2.2.2.2.2.2.2.2.2.2.2.2.2.2.1
  have e1 : win3_8.index t (1 : Fin 2) = 0 := (idx_facts t).2.2.2.2.2.2.2.2.2.2.2.2.2.2.2.2.2.1
  match ax with
  | ⟨0, _⟩ => show win3_8.index t (0 : Fin 2) * 1 + 1 * (z 0).val = (z 0).val; omega
  | ⟨1, _⟩ => show win3_8.index t (1 : Fin 2) * 64 + 1 * (z 1).val = (z 1).val; omega

/-- Window 9 holds its whole array at every point. -/
theorem whole9 (c : Dev nD) (t : Fin cfg3.N) : iblk3 V c 9 t = V c main_call0_v72 := by
  funext z
  show V c main_call0_v72 (((cfg3.win 9).blk t).view.emb z) = V c main_call0_v72 z
  refine congrArg (V c main_call0_v72) (funext fun ax => Fin.ext ?_)
  have e0 : win3_9.index t (0 : Fin 2) = 0 := (idx_facts t).2.2.2.2.2.2.2.2.2.2.2.2.2.2.2.2.2.2.1
  have e1 : win3_9.index t (1 : Fin 2) = 0 := (idx_facts t).2.2.2.2.2.2.2.2.2.2.2.2.2.2.2.2.2.2.2.1
  match ax with
  | ⟨0, _⟩ => show win3_9.index t (0 : Fin 2) * 1 + 1 * (z 0).val = (z 0).val; omega
  | ⟨1, _⟩ => show win3_9.index t (1 : Fin 2) * 64 + 1 * (z 1).val = (z 1).val; omega

/-- Window 10 holds its whole array at every point. -/
theorem whole10 (c : Dev nD) (t : Fin cfg3.N) : iblk3 V c 10 t = V c main_call0_v73 := by
  funext z
  show V c main_call0_v73 (((cfg3.win 10).blk t).view.emb z) = V c main_call0_v73 z
  refine congrArg (V c main_call0_v73) (funext fun ax => Fin.ext ?_)
  have e0 : win3_10.index t (0 : Fin 2) = 0 := (idx_facts t).2.2.2.2.2.2.2.2.2.2.2.2.2.2.2.2.2.2.2.2.1
  have e1 : win3_10.index t (1 : Fin 2) = 0 := (idx_facts t).2.2.2.2.2.2.2.2.2.2.2.2.2.2.2.2.2.2.2.2.2.1
  match ax with
  | ⟨0, _⟩ => show win3_10.index t (0 : Fin 2) * 1 + 1 * (z 0).val = (z 0).val; omega
  | ⟨1, _⟩ => show win3_10.index t (1 : Fin 2) * 64 + 1 * (z 1).val = (z 1).val; omega

/-- Row `p` of window 0's block at point `t` is row `5000·t + p` of its array. -/
theorem rowOf0 (c : Dev nD) (t : Fin cfg3.N) (p : Fin 5000) (k : Fin 64) (g : Fin 50000) (hg : g.val = t.val * 5000 + p.val) :
    iblk3 V c 0 t (ix2 p k) = V c main_call0_v37 (ix2 g k) := by
  show V c main_call0_v37 (((cfg3.win 0).blk t).view.emb (ix2 p k)) = V c main_call0_v37 (ix2 g k)
  refine congrArg (V c main_call0_v37) (funext fun ax => Fin.ext ?_)
  have e0 : win3_0.index t (0 : Fin 2) = t.val := (idx_facts t).1
  have e1 : win3_0.index t (1 : Fin 2) = 0 := (idx_facts t).2.1
  match ax with
  | ⟨0, _⟩ => show win3_0.index t (0 : Fin 2) * 5000 + 1 * p.val = g.val; omega
  | ⟨1, _⟩ => show win3_0.index t (1 : Fin 2) * 64 + 1 * k.val = k.val; omega

/-- Row `p` of window 1's block at point `t` is row `5000·t + p` of its array. -/
theorem rowOf1 (c : Dev nD) (t : Fin cfg3.N) (p : Fin 5000) (k : Fin 64) (g : Fin 50000) (hg : g.val = t.val * 5000 + p.val) :
    iblk3 V c 1 t (ix2 p k) = V c main_call0_v61 (ix2 g k) := by
  show V c main_call0_v61 (((cfg3.win 1).blk t).view.emb (ix2 p k)) = V c main_call0_v61 (ix2 g k)
  refine congrArg (V c main_call0_v61) (funext fun ax => Fin.ext ?_)
  have e0 : win3_1.index t (0 : Fin 2) = t.val := (idx_facts t).2.2.1
  have e1 : win3_1.index t (1 : Fin 2) = 0 := (idx_facts t).2.2.2.1
  match ax with
  | ⟨0, _⟩ => show win3_1.index t (0 : Fin 2) * 5000 + 1 * p.val = g.val; omega
  | ⟨1, _⟩ => show win3_1.index t (1 : Fin 2) * 64 + 1 * k.val = k.val; omega

/-- The array of all rows, from the arrays the launch finds. -/
abbrev found (c : Dev nD) : Cert.Gru.Mat 50000 64 :=
  Cert.Gru.states (V c main_call0_v37) (V c main_call0_v61) (V c main_call0_v62) (V c main_call0_v63) (V c main_call0_v64) (V c main_call0_v65) (V c main_call0_v66) (V c main_call0_v67) (V c main_call0_v71) (V c main_call0_v72) (V c main_call0_v73)

set_option maxHeartbeats 1000000 in
/-- What point `t` writes back is block `t` of that array. -/
theorem flushed_eq (c : Dev nD) (t : Fin cfg3.N) :
    (dat3 V c).flushed 11 t = ((cfg3.win 11).blk t).view.read (Elt Ideal) (found V c) := by
  show (cfg3.win 11).cut (grid3.coords t) ((dat3 V c).after 11 t) = _
  rw [after3_11]
  unfold out3_11
  rw [View.canon_unit_zero hz]
  simp only [View.ld_unit_zero (S := S5000x64) hz, View.ld_unit_zero (S := S64x64) hz, View.ld_unit_zero (S := S1x64) hz]
  rw [whole2 V c t, whole3 V c t, whole4 V c t, whole5 V c t, whole6 V c t, whole7 V c t, whole8 V c t, whole9 V c t, whole10 V c t]
  funext y
  have e0 : win3_11.index t (0 : Fin 2) = t.val := (idx_facts t).2.2.2.2.2.2.2.2.2.2.2.2.2.2.2.2.2.2.2.2.2.2.1
  have e1 : win3_11.index t (1 : Fin 2) = 0 := (idx_facts t).2.2.2.2.2.2.2.2.2.2.2.2.2.2.2.2.2.2.2.2.2.2.2
  have hp : (y 0).val < 5000 := (y 0).isLt
  have hq : (y 1).val < 64 := (y 1).isLt
  have ht : t.val < 10 := lt_of_lt_of_eq t.isLt N_3
  let p : Fin 5000 := ⟨(y 0).val, hp⟩
  let q : Fin 64 := ⟨(y 1).val, hq⟩
  let g : Fin 50000 := ⟨t.val * 5000 + (y 0).val, by omega⟩
  have hy : y = ix2 p q := funext fun ax => Fin.ext (by match ax with | ⟨0, _⟩ => rfl | ⟨1, _⟩ => rfl)
  have hemb : ((cfg3.win 11).blk t).view.emb y = ix2 g q := funext fun ax => Fin.ext (by
    match ax with
    | ⟨0, _⟩ => show win3_11.index t (0 : Fin 2) * 5000 + 1 * (y 0).val = t.val * 5000 + (y 0).val; omega
    | ⟨1, _⟩ => show win3_11.index t (1 : Fin 2) * 64 + 1 * (y 1).val = (y 1).val; omega)
  show k3_pay1 (F := Ideal) (k3_pay2 (iblk3 V c 0 t)) (k3_pay3 (iblk3 V c 0 t)) (k3_pay5 (iblk3 V c 1 t) (V c main_call0_v62) (V c main_call0_v71)) (k3_pay6 (iblk3 V c 1 t) (V c main_call0_v63) (V c main_call0_v72)) (k3_pay7 (iblk3 V c 1 t) (V c main_call0_v64) (V c main_call0_v73)) (k3_pay8 (iblk3 V c 0 t) (V c main_call0_v65)) (V c main_call0_v66) (V c main_call0_v67) y
    = found V c (((cfg3.win 11).blk t).view.emb y)
  rw [hemb, hy]
  refine (Cert.KernelIdeal.GruPay3.pay_apply (iblk3 V c 0 t) (iblk3 V c 1 t) (V c main_call0_v62) (V c main_call0_v63) (V c main_call0_v64) (V c main_call0_v65) (V c main_call0_v66) (V c main_call0_v67) (V c main_call0_v71) (V c main_call0_v72) (V c main_call0_v73) p q).trans ?_
  show _ = Cert.Gru.row _ _ _ _ _ _ _ _ _ _ _ q
  have r0 : (fun k : Fin 64 => iblk3 V c 0 t (ix2 p k)) = fun k => V c main_call0_v37 (ix2 g k) := funext fun k => rowOf0 V c t p k g rfl
  have r1 : (fun k : Fin 64 => iblk3 V c 1 t (ix2 p k)) = fun k => V c main_call0_v61 (ix2 g k) := funext fun k => rowOf1 V c t p k g rfl
  rw [r0, r1]

/-- An index of the array is in point `t`'s block iff each coordinate is in the block's range on its axis. -/
theorem mem_blk (t : Fin cfg3.N) (i : S50000x64.Idx) :
    i ∈ ((cfg3.win 11).blk t).view.set ↔ ∀ a : Fin 2, win3_11.index t a * S5000x64.size a ≤ (i a).val ∧ (i a).val < win3_11.index t a * S5000x64.size a + S5000x64.size a := by
  show i ∈ ((View.whole main_call0_v74).slice (win3_11.rect t)).set ↔ _
  rw [View.set_slice_whole, Rect.mem_set_unit]
  exact Iff.rfl

/-- Every row of the array lies in the block of the point `row / 5000`. -/
theorem cover (i : S50000x64.Idx) : ∃ t : Fin cfg3.N, (cfg3.win 11).flush t = true ∧ i ∈ ((cfg3.win 11).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  have e0 : win3_11.index t (0 : Fin 2) = t.val := (idx_facts t).2.2.2.2.2.2.2.2.2.2.2.2.2.2.2.2.2.2.2.2.2.2.1
  have e1 : win3_11.index t (1 : Fin 2) = 0 := (idx_facts t).2.2.2.2.2.2.2.2.2.2.2.2.2.2.2.2.2.2.2.2.2.2.2
  have htv : t.val = (i 0).val / 5000 := rfl
  refine ⟨t, flush3_11 t, ?_⟩
  rw [mem_blk]
  intro a
  match a with
  | ⟨0, _⟩ => show win3_11.index t (0 : Fin 2) * 5000 ≤ (i 0).val ∧ (i 0).val < win3_11.index t (0 : Fin 2) * 5000 + 5000; omega
  | ⟨1, _⟩ => show win3_11.index t (1 : Fin 2) * 64 ≤ (i 1).val ∧ (i 1).val < win3_11.index t (1 : Fin 2) * 64 + 64; omega

/-- The array the launch leaves is that array of all rows. -/
theorem array (c : Dev nD) : (dat3 V c).arrAt 11 cfg3.N = found V c :=
  (dat3 V c).arrAt_eq_of_cover 11 (found V c) (fun t _ => flushed_eq V c t) (cover)

end Cert.KernelIdeal.GruArr3

end
-- ==== Proof.GruStep3.lean ====
import proofs.«144611_j71408126263501_2_alg».proof.Proof.GruArr3
import proofs.«144611_j71408126263501_2_alg».proof.Proof.GruRef
import proofs.«144611_j71408126263501_2_alg».proof.Proof.LibVecLayout

/-!
# Launch 3 computes the reference's recurrent update

If the arrays the launch finds are the node states, the aggregated messages, the three column ranges of each of
the two gate weight arrays and the three parts of the gate bias laid out as rows, then the array it leaves is the
reference's updated node states.
-/

set_option maxRecDepth 16384

noncomputable section

namespace Cert.KernelIdeal.GruStep3

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem gru_of (c : Dev nD) (h x : S50000x64.Idx → EReal) (Wx Wh : S64x192.Idx → EReal) (b : S192.Idx → EReal)
    (hh : @Eq (S50000x64.Idx → EReal) (V c main_call0_v37) h) (hx : @Eq (S50000x64.Idx → EReal) (V c main_call0_v61) x)
    (h2 : @Eq (S64x64.Idx → EReal) (V c main_call0_v62) (extractStridedSlice S64x64 ![0, 0] Wx slices_S64x192_S64x64_0_0))
    (h3 : @Eq (S64x64.Idx → EReal) (V c main_call0_v63) (extractStridedSlice S64x64 ![0, 64] Wx slices_S64x192_S64x64_0_64))
    (h4 : @Eq (S64x64.Idx → EReal) (V c main_call0_v64) (extractStridedSlice S64x64 ![0, 128] Wx slices_S64x192_S64x64_0_128))
    (h5 : @Eq (S64x64.Idx → EReal) (V c main_call0_v65) (extractStridedSlice S64x64 ![0, 0] Wh slices_S64x192_S64x64_0_0))
    (h6 : @Eq (S64x64.Idx → EReal) (V c main_call0_v66) (extractStridedSlice S64x64 ![0, 64] Wh slices_S64x192_S64x64_0_64))
    (h7 : @Eq (S64x64.Idx → EReal) (V c main_call0_v67) (extractStridedSlice S64x64 ![0, 128] Wh slices_S64x192_S64x64_0_128))
    (h8 : @Eq (S1x64.Idx → EReal) (V c main_call0_v71) (shapeCast S1x64 (extractStridedSlice S64 ![0] b slices_S192_S64_0) shapeCasts_S64_S1x64))
    (h9 : @Eq (S1x64.Idx → EReal) (V c main_call0_v72) (shapeCast S1x64 (extractStridedSlice S64 ![64] b slices_S192_S64_64) shapeCasts_S64_S1x64))
    (h10 : @Eq (S1x64.Idx → EReal) (V c main_call0_v73) (shapeCast S1x64 (extractStridedSlice S64 ![128] b slices_S192_S64_128) shapeCasts_S64_S1x64)) :
    @Eq (S50000x64.Idx → EReal) ((dat3 V c).arrAt 11 cfg3.N) (Cert.ReferenceIdeal.Steps.gru (F := Ideal) h x Wx Wh b) := by
  subst hh hx
  refine (Cert.KernelIdeal.GruArr3.array V c).trans ?_
  exact Cert.ReferenceIdeal.GruRef.gru_eq _ _ Wx Wh b _ _ _ _ _ _ _ _ _
    (fun k j => (congrFun h2 (ix2 k j)).trans (slice2_axis1_apply 0 Wx slices_S64x192_S64x64_0_0 k j _ (Nat.zero_add _).symm))
    (fun k j => (congrFun h3 (ix2 k j)).trans (slice2_axis1_apply 64 Wx slices_S64x192_S64x64_0_64 k j _ rfl))
    (fun k j => (congrFun h4 (ix2 k j)).trans (slice2_axis1_apply 128 Wx slices_S64x192_S64x64_0_128 k j _ rfl))
    (fun k j => (congrFun h5 (ix2 k j)).trans (slice2_axis1_apply 0 Wh slices_S64x192_S64x64_0_0 k j _ (Nat.zero_add _).symm))
    (fun k j => (congrFun h6 (ix2 k j)).trans (slice2_axis1_apply 64 Wh slices_S64x192_S64x64_0_64 k j _ rfl))
    (fun k j => (congrFun h7 (ix2 k j)).trans (slice2_axis1_apply 128 Wh slices_S64x192_S64x64_0_128 k j _ rfl))
    (fun j => (congrFun h8 (ix2 (0 : Fin 1) j)).trans ((shapeCast_a_1a_apply _ shapeCasts_S64_S1x64 0 j).trans (Cert.Lib.sliceVec_apply 0 b slices_S192_S64_0 j _ (Nat.zero_add _).symm)))
    (fun j => (congrFun h9 (ix2 (0 : Fin 1) j)).trans ((shapeCast_a_1a_apply _ shapeCasts_S64_S1x64 0 j).trans (Cert.Lib.sliceVec_apply 64 b slices_S192_S64_64 j _ rfl)))
    (fun j => (congrFun h10 (ix2 (0 : Fin 1) j)).trans ((shapeCast_a_1a_apply _ shapeCasts_S64_S1x64 0 j).trans (Cert.Lib.sliceVec_apply 128 b slices_S192_S64_128 j _ rfl)))

end Cert.KernelIdeal.GruStep3

end
-- ==== Proof.ReadMath.lean ====
import Idealize.ShloMosaic.PureOps.Ideal.Laws
import Idealize.ShloMosaic.Lib.ValueIdx

/-!
# One node's readout, on the extended reals

The readout is a two-layer perceptron with a single output: `relu(h·W₁ + b₁)·w₂ + b₂`, where `w₂` has one
column.  Whether the second layer is taken as a matrix product with that one column or as the sum over the
hidden units of the products with the column's entries, it is the same finite sum.
-/

noncomputable section

namespace Cert.Read

open Idealize.ShloMosaic Idealize.ShloMosaic.ValueIdx
open scoped BigOperators

/-- A matrix of extended reals. -/
abbrev Mat (r c : ℕ) : Type := (⟨2, ![r, c]⟩ : Shape).Idx → EReal

/-- One node's output from its state `h`, the first layer `w1`, `b1`, the second layer's column `w2` and its bias. -/
def row (h : Fin 64 → EReal) (w1 : Mat 64 128) (b1 : Mat 1 128) (w2 : Fin 128 → EReal) (b2 : EReal) : EReal :=
  (∑ q : Fin 128, max ((∑ k : Fin 64, h k * w1 (ix2 k q)) + b1 (ix2 (0 : Fin 1) q)) (Ideal.ofBits .f32 0x00000000#32) * w2 q) + b2

/-- The outputs of `R` nodes as a one-column array, the second layer given as a row `[1, 128]` and its bias as `[1, 1]`. -/
def outs {R : ℕ} (h : Mat R 64) (w1 : Mat 64 128) (b1 : Mat 1 128) (w2 : Mat 1 128) (b2 : Mat 1 1) : Mat R 1 :=
  fun i => row (fun k => h (ix2 (i 0) k)) w1 b1 (fun q => w2 (ix2 (0 : Fin 1) q)) (b2 (ix2 (0 : Fin 1) (i 1)))

theorem outs_apply {R : ℕ} (h : Mat R 64) (w1 : Mat 64 128) (b1 : Mat 1 128) (w2 : Mat 1 128) (b2 : Mat 1 1) (r : Fin R) (u : Fin 1) :
    outs h w1 b1 w2 b2 (ix2 r u) = row (fun k => h (ix2 r k)) w1 b1 (fun q => w2 (ix2 (0 : Fin 1) q)) (b2 (ix2 (0 : Fin 1) u)) := rfl

end Cert.Read

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«144611_j71408126263501_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.ReadPay4.lean ====
import proofs.«144611_j71408126263501_2_alg».proof.Proof.Gen.KernelIdeal.Skeleton
import proofs.«144611_j71408126263501_2_alg».proof.Proof.ReadMath
import proofs.«144611_j71408126263501_2_alg».proof.Proof.LibMatDot
import proofs.«144611_j71408126263501_2_alg».proof.Proof.LibRowSum
import proofs.«144611_j71408126263501_2_alg».proof.Proof.LibColumn
import Idealize.ShloMosaic.Lib.ValueLayout
import Idealize.ShloMosaic.Lib.Pipeline.Value

/-!
# The readout kernel's arithmetic at an entry (launch 4)

The body multiplies the block of node states by `W₁`, adds the bias row, clamps at zero, multiplies entrywise by
the second layer's row, sums each row from a zero accumulator, lays the sums out as a column and adds the scalar
bias.  At row `r` this is the readout of the node in row `r`.
-/

noncomputable section

namespace Cert.KernelIdeal.ReadPay4

open Cert.KernelIdeal Cert.KernelIdeal.Gen Idealize.ShloMosaic Idealize.ShloMosaic.ValueIdx
open scoped BigOperators

/-- The body's result at row `r` of the block is the readout of the node in row `r`. -/
theorem pay_apply (x0 : Vec Ideal S10000x64 .f32) (x1 : Vec Ideal S64x128 .f32) (x2 x3 : Vec Ideal S1x128 .f32) (x4 : Vec Ideal S1x1 .f32)
    (r : Fin 10000) (u : Fin 1) :
    k4_pay1 (F := Ideal) x0 x1 x2 x3 x4 (ix2 r u)
      = Cert.Read.row (fun k => x0 (ix2 r k)) x1 x2 (fun q => x3 (ix2 (0 : Fin 1) q)) (x4 (ix2 (0 : Fin 1) u)) := by
  unfold k4_pay1 Cert.Read.row
  simp only [shapeCast_self]
  refine (addf_apply _ _ _).trans ?_
  refine congrArg₂ (· + ·) ?_ (broadcastTo_1b_ab_apply x4 broadcasts_S1x1_S10000x1 r u)
  refine (Cert.Lib.shapeCast_a_a1_apply _ shapeCasts_S10000_S10000x1 r u).trans ?_
  refine (Cert.Lib.multiReduction_add_rows (R := 10000) (K := 128) _ 0x00000000#32 reduces_S10000x128_S10000 (.inl rfl) rfl r).trans ?_
  refine Finset.sum_congr rfl fun q _ => ?_
  refine (mulf_apply _ _ _).trans ?_
  refine congrArg₂ (· * ·) ?_ (broadcastTo_1b_ab_apply x3 broadcasts_S1x128_S10000x128 r q)
  refine (maximumf_apply _ _ _).trans ?_
  refine congrArg₂ max ?_ rfl
  refine (addf_apply _ _ _).trans ?_
  refine congrArg₂ (· + ·) ?_ (broadcastTo_1b_ab_apply x2 broadcasts_S1x128_S10000x128 r q)
  exact Cert.Lib.matmul_plain_zero_apply dot_S10000x64_S64x128_S10000x128_1_0_0_1_n_n.wf none (truncf .bf16 x0 bitsLt_bf16_f32) (truncf .bf16 x1 bitsLt_bf16_f32) r q

end Cert.KernelIdeal.ReadPay4

end
-- ==== Proof.ReadArr4.lean ====
import proofs.«144611_j71408126263501_2_alg».proof.Proof.Gen.KernelIdeal.Frame
import proofs.«144611_j71408126263501_2_alg».proof.Proof.ReadPay4

/-!
# The outputs that launch 4 leaves

The launch cuts the 50000 nodes into 5 blocks of 10000 rows; at block `t` the body reads rows
`10000·t, …` of the node states and the whole of the readout's weights and biases, and writes rows
`10000·t, …` of the one-column result.  Row `p` of the block's result is the readout of node `10000·t + p`.
-/

set_option maxRecDepth 16384

noncomputable section

namespace Cert.KernelIdeal.ReadArr4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-indexed windows sit at block `(t, 0)`, the weight windows at `(0, 0)`. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- Window 1 holds its whole array at every point. -/
theorem whole1 (c : Dev nD) (t : Fin cfg4.N) : iblk4 V c 1 t = V c main_arg11 := by
  funext z
  show V c main_arg11 (((cfg4.win 1).blk t).view.emb z) = V c main_arg11 z
  refine congrArg (V c main_arg11) (funext fun ax => Fin.ext ?_)
  have e0 : win4_1.index t (0 : Fin 2) = 0 := (idx_facts t).2.2.1
  have e1 : win4_1.index t (1 : Fin 2) = 0 := (idx_facts t).2.2.2.1
  match ax with
  | ⟨0, _⟩ => show win4_1.index t (0 : Fin 2) * 64 + 1 * (z 0).val = (z 0).val; omega
  | ⟨1, _⟩ => show win4_1.index t (1 : Fin 2) * 128 + 1 * (z 1).val = (z 1).val; omega

/-- Window 2 holds its whole array at every point. -/
theorem whole2 (c : Dev nD) (t : Fin cfg4.N) : iblk4 V c 2 t = V c main_call0_v75 := by
  funext z
  show V c main_call0_v75 (((cfg4.win 2).blk t).view.emb z) = V c main_call0_v75 z
  refine congrArg (V c main_call0_v75) (funext fun ax => Fin.ext ?_)
  have e0 : win4_2.index t (0 : Fin 2) = 0 := (idx_facts t).2.2.2.2.1
  have e1 : win4_2.index t (1 : Fin 2) = 0 := (idx_facts t).2.2.2.2.2.1
  match ax with
  | ⟨0, _⟩ => show win4_2.index t (0 : Fin 2) * 1 + 1 * (z 0).val = (z 0).val; omega
  | ⟨1, _⟩ => show win4_2.index t (1 : Fin 2) * 128 + 1 * (z 1).val = (z 1).val; omega

/-- Window 3 holds its whole array at every point. -/
theorem whole3 (c : Dev nD) (t : Fin cfg4.N) : iblk4 V c 3 t = V c main_call0_v77 := by
  funext z
  show V c main_call0_v77 (((cfg4.win 3).blk t).view.emb z) = V c main_call0_v77 z
  refine congrArg (V c main_call0_v77) (funext fun ax => Fin.ext ?_)
  have e0 : win4_3.index t (0 : Fin 2) = 0 := (idx_facts t).2.2.2.2.2.2.1
  have e1 : win4_3.index t (1 : Fin 2) = 0 := (idx_facts t).2.2.2.2.2.2.2.1
  match ax with
  | ⟨0, _⟩ => show win4_3.index t (0 : Fin 2) * 1 + 1 * (z 0).val = (z 0).val; omega
  | ⟨1, _⟩ => show win4_3.index t (1 : Fin 2) * 128 + 1 * (z 1).val = (z 1).val; omega

/-- Window 4 holds its whole array at every point. -/
theorem whole4 (c : Dev nD) (t : Fin cfg4.N) : iblk4 V c 4 t = V c main_call0_v76 := by
  funext z
  show V c main_call0_v76 (((cfg4.win 4).blk t).view.emb z) = V c main_call0_v76 z
  refine congrArg (V c main_call0_v76) (funext fun ax => Fin.ext ?_)
  have e0 : win4_4.index t (0 : Fin 2) = 0 := (idx_facts t).2.2.2.2.2.2.2.2.1
  have e1 : win4_4.index t (1 : Fin 2) = 0 := (idx_facts t).2.2.2.2.2.2.2.2.2.1
  match ax with
  | ⟨0, _⟩ => show win4_4.index t (0 : Fin 2) * 1 + 1 * (z 0).val = (z 0).val; omega
  | ⟨1, _⟩ => show win4_4.index t (1 : Fin 2) * 1 + 1 * (z 1).val = (z 1).val; omega

/-- Row `p` of window 0's block at point `t` is row `10000·t + p` of its array. -/
theorem rowOf0 (c : Dev nD) (t : Fin cfg4.N) (p : Fin 10000) (k : Fin 64) (g : Fin 50000) (hg : g.val = t.val * 10000 + p.val) :
    iblk4 V c 0 t (ix2 p k) = V c main_call0_v74 (ix2 g k) := by
  show V c main_call0_v74 (((cfg4.win 0).blk t).view.emb (ix2 p k)) = V c main_call0_v74 (ix2 g k)
  refine congrArg (V c main_call0_v74) (funext fun ax => Fin.ext ?_)
  have e0 : win4_0.index t (0 : Fin 2) = t.val := (idx_facts t).1
  have e1 : win4_0.index t (1 : Fin 2) = 0 := (idx_facts t).2.1
  match ax with
  | ⟨0, _⟩ => show win4_0.index t (0 : Fin 2) * 10000 + 1 * p.val = g.val; omega
  | ⟨1, _⟩ => show win4_0.index t (1 : Fin 2) * 64 + 1 * k.val = k.val; omega

/-- The array of all rows, from the arrays the launch finds. -/
abbrev found (c : Dev nD) : Cert.Read.Mat 50000 1 :=
  Cert.Read.outs (V c main_call0_v74) (V c main_arg11) (V c main_call0_v75) (V c main_call0_v77) (V c main_call0_v76)

/-- What point `t` writes back is block `t` of that array. -/
theorem flushed_eq (c : Dev nD) (t : Fin cfg4.N) :
    (dat4 V c).flushed 5 t = ((cfg4.win 5).blk t).view.read (Elt Ideal) (found V c) := by
  show (cfg4.win 5).cut (grid4.coords t) ((dat4 V c).after 5 t) = _
  rw [after4_5]
  unfold out4_5
  rw [View.canon_unit_zero hz]
  simp only [View.ld_unit_zero (S := S10000x64) hz, View.ld_unit_zero (S := S64x128) hz, View.ld_unit_zero (S := S1x128) hz, View.ld_unit_zero (S := S1x1) hz]
  rw [whole1 V c t, whole2 V c t, whole3 V c t, whole4 V c t]
  funext y
  have e0 : win4_5.index t (0 : Fin 2) = t.val := (idx_facts t).2.2.2.2.2.2.2.2.2.2.1
  have e1 : win4_5.index t (1 : Fin 2) = 0 := (idx_facts t).2.2.2.2.2.2.2.2.2.2.2
  have hp : (y 0).val < 10000 := (y 0).isLt
  have hq : (y 1).val < 1 := (y 1).isLt
  have ht : t.val < 5 := lt_of_lt_of_eq t.isLt N_4
  let p : Fin 10000 := ⟨(y 0).val, hp⟩
  let q : Fin 1 := ⟨(y 1).val, hq⟩
  let g : Fin 50000 := ⟨t.val * 10000 + (y 0).val, by omega⟩
  have hy : y = ix2 p q := funext fun ax => Fin.ext (by match ax with | ⟨0, _⟩ => rfl | ⟨1, _⟩ => rfl)
  have hemb : ((cfg4.win 5).blk t).view.emb y = ix2 g q := funext fun ax => Fin.ext (by
    match ax with
    | ⟨0, _⟩ => show win4_5.index t (0 : Fin 2) * 10000 + 1 * (y 0).val = t.val * 10000 + (y 0).val; omega
    | ⟨1, _⟩ => show win4_5.index t (1 : Fin 2) * 1 + 1 * (y 1).val = (y 1).val; omega)
  show k4_pay1 (F := Ideal) (iblk4 V c 0 t) (V c main_arg11) (V c main_call0_v75) (V c main_call0_v77) (V c main_call0_v76) y
    = found V c (((cfg4.win 5).blk t).view.emb y)
  rw [hemb, hy]
  refine (Cert.KernelIdeal.ReadPay4.pay_apply _ _ _ _ _ p q).trans ?_
  show _ = Cert.Read.row _ _ _ _ _
  have r0 : (fun k : Fin 64 => iblk4 V c 0 t (ix2 p k)) = fun k => V c main_call0_v74 (ix2 g k) := funext fun k => rowOf0 V c t p k g rfl
  rw [r0]

/-- An index of the array is in point `t`'s block iff each coordinate is in the block's range on its axis. -/
theorem mem_blk (t : Fin cfg4.N) (i : S50000x1.Idx) :
    i ∈ ((cfg4.win 5).blk t).view.set ↔ ∀ a : Fin 2, win4_5.index t a * S10000x1.size a ≤ (i a).val ∧ (i a).val < win4_5.index t a * S10000x1.size a + S10000x1.size a := by
  show i ∈ ((View.whole main_v0).slice (win4_5.rect t)).set ↔ _
  rw [View.set_slice_whole, Rect.mem_set_unit]
  exact Iff.rfl

/-- Every row of the array lies in the block of the point `row / 10000`. -/
theorem cover (i : S50000x1.Idx) : ∃ t : Fin cfg4.N, (cfg4.win 5).flush t = true ∧ i ∈ ((cfg4.win 5).blk t).view.set := by
  have hi0 : (i 0).val < 50000 := (i 0).isLt
  have hi1 : (i 1).val < 1 := (i 1).isLt
  have hN : cfg4.N = 5 := N_4
  let t : Fin cfg4.N := ⟨(i 0).val / 10000, by rw [hN]; omega⟩
  have e0 : win4_5.index t (0 : Fin 2) = t.val := (idx_facts t).2.2.2.2.2.2.2.2.2.2.1
  have e1 : win4_5.index t (1 : Fin 2) = 0 := (idx_facts t).2.2.2.2.2.2.2.2.2.2.2
  have htv : t.val = (i 0).val / 10000 := rfl
  refine ⟨t, flush4_5 t, ?_⟩
  rw [mem_blk]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 1 ≤ (i 1).val ∧ (i 1).val < win4_5.index t (1 : Fin 2) * 1 + 1; omega

/-- The array the launch leaves is that array of all rows. -/
theorem array (c : Dev nD) : (dat4 V c).arrAt 5 cfg4.N = found V c :=
  (dat4 V c).arrAt_eq_of_cover 5 (found V c) (fun t _ => flushed_eq V c t) (cover)

end Cert.KernelIdeal.ReadArr4

end
-- ==== Proof.ReadRef.lean ====
import proofs.«144611_j71408126263501_2_alg».proof.Proof.RefSteps
import proofs.«144611_j71408126263501_2_alg».proof.Proof.ReadMath
import proofs.«144611_j71408126263501_2_alg».proof.Proof.LibMatDot
import proofs.«144611_j71408126263501_2_alg».proof.Proof.LibBiasRows
import Idealize.ShloMosaic.Lib.ValueLayout
import Idealize.ShloMosaic.Lib.Pipeline.Value

/-!
# The reference's readout at an entry

The reference's second layer is the matrix product of the hidden units with the one-column array `W₂`; entry
`(r, 0)` of that product is the sum over the hidden units of their products with the column's entries — the
same sum a row of the column's entries gives when multiplied entrywise and added up.
-/

set_option maxRecDepth 16384

noncomputable section

namespace Cert.ReferenceIdeal.ReadRef

open Cert.ReferenceIdeal Cert.ReferenceIdeal.Gen Cert.ReferenceIdeal.Steps Idealize.ShloMosaic Idealize.ShloMosaic.ValueIdx
open scoped BigOperators

/-- The reference's outputs are the readouts computed from the first bias as a row, the second layer as a row and
    its bias as a `[1, 1]` array. -/
theorem readout_eq (h : Arr (F := Ideal) S50000x64) (W1 : Arr (F := Ideal) S64x128) (b1 : Arr (F := Ideal) S128)
    (W2 : Arr (F := Ideal) S128x1) (b2 : Arr (F := Ideal) S1)
    (r1 w2 : Cert.Read.Mat 1 128) (c2 : Cert.Read.Mat 1 1)
    (h1 : ∀ q : Fin 128, r1 (ix2 (0 : Fin 1) q) = b1 (ix1 q))
    (hw : ∀ (q : Fin 128) (u : Fin 1), w2 (ix2 (0 : Fin 1) q) = W2 (ix2 q u))
    (hc : ∀ u : Fin 1, c2 (ix2 (0 : Fin 1) u) = b2 (ix1 u)) :
    Cert.Read.outs h W1 r1 w2 c2 = readout (F := Ideal) h W1 b1 W2 b2 := by
  funext i
  obtain ⟨r, u, rfl⟩ : ∃ (r : Fin 50000) (u : Fin 1), i = ix2 r u := ⟨i 0, i 1, eq_ix2 i⟩
  rw [Cert.Read.outs_apply]
  unfold readout Cert.Read.row
  refine ((addf_apply _ _ _).trans ?_).symm
  refine congrArg₂ (· + ·) ?_ ((Cert.Lib.biasRows_apply b2 bcast_S1_S1x1_1 bcast_S1x1_S50000x1_0_1 r u).trans (hc u).symm)
  simp only [Host.dotGeneral]
  refine (Cert.Lib.dotGeneral_plain_apply dot_S50000x128_S128x1_S50000x1_1_0_0_1_n_n.wf none _ _ W2 r u).trans ?_
  refine Finset.sum_congr rfl fun q _ => congrArg₂ (· * ·) ?_ (hw q u).symm
  refine (maximumf_apply _ _ _).trans ?_
  refine congrArg₂ max ?_ ((Cert.Lib.splat2_apply _ bcast_S_S50000x128 _).trans (constant_apply _ _))
  refine (addf_apply _ _ _).trans ?_
  refine congrArg₂ (· + ·) ?_ ((Cert.Lib.biasRows_apply b1 bcast_S128_S1x128_1 bcast_S1x128_S50000x128_0_1 r q).trans (h1 q).symm)
  exact Cert.Lib.dotGeneral_plain_apply dot_S50000x64_S64x128_S50000x128_1_0_0_1_n_n.wf none _ h W1 r q

end Cert.ReferenceIdeal.ReadRef

end
-- ==== Proof.ReadStep4.lean ====
import proofs.«144611_j71408126263501_2_alg».proof.Proof.ReadArr4
import proofs.«144611_j71408126263501_2_alg».proof.Proof.ReadRef
import proofs.«144611_j71408126263501_2_alg».proof.Proof.LibVecLayout

/-!
# Launch 4 computes the reference's readout

If the arrays the launch finds are the node states, the first layer's weights, its bias laid out as a row, the
second layer's one column laid out as a row and its bias as a `[1, 1]` array, then the array it leaves is the
reference's output.
-/

set_option maxRecDepth 16384

noncomputable section

namespace Cert.KernelIdeal.ReadStep4

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

theorem read_of (c : Dev nD) (h : S50000x64.Idx → EReal) (W1 : S64x128.Idx → EReal) (b1 : S128.Idx → EReal)
    (W2 : S128x1.Idx → EReal) (b2 : S1.Idx → EReal)
    (hh : @Eq (S50000x64.Idx → EReal) (V c main_call0_v74) h) (hw : @Eq (S64x128.Idx → EReal) (V c main_arg11) W1)
    (h1 : @Eq (S1x128.Idx → EReal) (V c main_call0_v75) (shapeCast S1x128 b1 shapeCasts_S128_S1x128))
    (h2 : @Eq (S1x128.Idx → EReal) (V c main_call0_v77) (shapeCast S1x128 W2 shapeCasts_S128x1_S1x128))
    (h3 : @Eq (S1x1.Idx → EReal) (V c main_call0_v76) (shapeCast S1x1 b2 shapeCasts_S1_S1x1)) :
    @Eq (S50000x1.Idx → EReal) ((dat4 V c).arrAt 5 cfg4.N) (Cert.ReferenceIdeal.Steps.readout (F := Ideal) h W1 b1 W2 b2) := by
  subst hh hw
  refine (Cert.KernelIdeal.ReadArr4.array V c).trans ?_
  exact Cert.ReferenceIdeal.ReadRef.readout_eq _ _ b1 W2 b2 _ _ _
    (fun q => (congrFun h1 (ix2 (0 : Fin 1) q)).trans (shapeCast_a_1a_apply b1 shapeCasts_S128_S1x128 0 q))
    (fun q u => (congrFun h2 (ix2 (0 : Fin 1) q)).trans (Cert.Lib.colAsRow_apply W2 shapeCasts_S128x1_S1x128 q u 0))
    (fun u => (congrFun h3 (ix2 (0 : Fin 1) u)).trans (shapeCast_a_1a_apply b2 shapeCasts_S1_S1x1 0 u))

end Cert.KernelIdeal.ReadStep4

end
-- ==== Proof.KChain.lean ====
import proofs.«144611_j71408126263501_2_alg».proof.Proof.KCarry
import proofs.«144611_j71408126263501_2_alg».proof.Proof.MsgStep0
import proofs.«144611_j71408126263501_2_alg».proof.Proof.MsgStep2
import proofs.«144611_j71408126263501_2_alg».proof.Proof.GruStep1
import proofs.«144611_j71408126263501_2_alg».proof.Proof.GruStep3
import proofs.«144611_j71408126263501_2_alg».proof.Proof.ReadStep4
import Idealize.ShloMosaic.Lib.StableHlo.Run

/-!
# The kernel program's result, boundary by boundary

Each stretch of host operations prepares the arrays the next launch reads — the node states' rows at the two ends
of every edge, the three row ranges of `W₁`, the biases laid out as rows; the messages summed at their
destinations, the column ranges of the gate weights; the readout's biases and its second layer as a row — from
buffers that still hold what an earlier boundary left.  Reading those preparations and applying each launch's
step gives, in turn: the first round's messages, the node states after the first round, the second round's
messages, the node states after the second round, and the readout — the reference's own steps of the argument
arrays.
-/

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- Arrays of extended reals and of 32-bit integers of a given shape. -/
abbrev FA (s : Shape) : Type := s.Idx → EReal
abbrev IA (s : Shape) : Type := Cert.ReferenceIdeal.Steps.IArr (F := Ideal) s

variable (m : (ℓ : Loc nD τ sig) → Buf (Elt Ideal) ℓ) (ρ : Dev nD → PrngReg)

/-! The argument arrays as launched. -/
abbrev A0 (c : Dev nD) : FA S50000x64 := m ((c : Thread nD τ).loc main_arg0)
abbrev A1 (c : Dev nD) : FA S400000x8 := m ((c : Thread nD τ).loc main_arg1)
abbrev A2 (c : Dev nD) : IA S400000 := m ((c : Thread nD τ).loc main_arg2)
abbrev A3 (c : Dev nD) : IA S400000 := m ((c : Thread nD τ).loc main_arg3)
abbrev A4 (c : Dev nD) : FA S136x128 := m ((c : Thread nD τ).loc main_arg4)
abbrev A5 (c : Dev nD) : FA S128 := m ((c : Thread nD τ).loc main_arg5)
abbrev A6 (c : Dev nD) : FA S128x64 := m ((c : Thread nD τ).loc main_arg6)
abbrev A7 (c : Dev nD) : FA S64 := m ((c : Thread nD τ).loc main_arg7)
abbrev A8 (c : Dev nD) : FA S64x192 := m ((c : Thread nD τ).loc main_arg8)
abbrev A9 (c : Dev nD) : FA S64x192 := m ((c : Thread nD τ).loc main_arg9)
abbrev A10 (c : Dev nD) : FA S192 := m ((c : Thread nD τ).loc main_arg10)
abbrev A11 (c : Dev nD) : FA S64x128 := m ((c : Thread nD τ).loc main_arg11)
abbrev A12 (c : Dev nD) : FA S128 := m ((c : Thread nD τ).loc main_arg12)
abbrev A13 (c : Dev nD) : FA S128x1 := m ((c : Thread nD τ).loc main_arg13)
abbrev A14 (c : Dev nD) : FA S1 := m ((c : Thread nD τ).loc main_arg14)

/-- The first round's messages, the node states after it, the second round's messages, the node states after it. -/
def msg0 (c : Dev nD) : FA S400000x64 :=
  Cert.ReferenceIdeal.Steps.msgCore (F := Ideal) (Cert.ReferenceIdeal.Steps.rows (F := Ideal) (A0 m c) (A2 m c)) (Cert.ReferenceIdeal.Steps.rows (F := Ideal) (A0 m c) (A3 m c)) (A1 m c) (A4 m c) (A5 m c) (A6 m c) (A7 m c)
def hid1 (c : Dev nD) : FA S50000x64 := Cert.ReferenceIdeal.Steps.gru (F := Ideal) (A0 m c) (Cert.ReferenceIdeal.Steps.agg (F := Ideal) (msg0 m c) (A3 m c)) (A8 m c) (A9 m c) (A10 m c)
def msg1 (c : Dev nD) : FA S400000x64 :=
  Cert.ReferenceIdeal.Steps.msgCore (F := Ideal) (Cert.ReferenceIdeal.Steps.rows (F := Ideal) (hid1 m c) (A2 m c)) (Cert.ReferenceIdeal.Steps.rows (F := Ideal) (hid1 m c) (A3 m c)) (A1 m c) (A4 m c) (A5 m c) (A6 m c) (A7 m c)
def hid2 (c : Dev nD) : FA S50000x64 := Cert.ReferenceIdeal.Steps.gru (F := Ideal) (hid1 m c) (Cert.ReferenceIdeal.Steps.agg (F := Ideal) (msg1 m c) (A3 m c)) (A8 m c) (A9 m c) (A10 m c)

/-- The kernel program's lookup of the rows of the node states — the states narrowed in place, negative row numbers
    wrapped — is the reference's. -/
theorem rows_eq (h : FA S50000x64) (x : IA S400000) :
    @Eq (FA S400000x64) (Host.gather gather_S50000x64_S400000x1_S400000x64_1_0_n_n_0_1_164 (truncf (F := Ideal) .bf16 (h : FVec Ideal S50000x64 .f32) bitsLt_bf16_f32)
        (broadcastInDim S400000x1 ![0] bcast_S400000_S400000x1_0
          (select (cmpi .slt (x : IVec S400000 32) (broadcastInDim S400000 ![] bcast_S_S400000 (constantI S_ 32 0#32)))
            (addi (x : IVec S400000 32) (broadcastInDim S400000 ![] bcast_S_S400000 (constantI S_ 32 50000#32))) (x : IVec S400000 32)))) (Cert.ReferenceIdeal.Steps.rows (F := Ideal) h x) := rfl

theorem s1_src (c : Dev nD) : @Eq (FA S400000x64) (V1 m ρ c main_call0_v8) (Cert.ReferenceIdeal.Steps.rows (F := Ideal) (A0 m c) (A2 m c)) := by
  show StableHlo.after hostOps0 (W0 m ρ c) (Proc.devRef .tc main_call0_v8) = _
  after_results
  rfl
theorem s1_dst (c : Dev nD) : @Eq (FA S400000x64) (V1 m ρ c main_call0_v15) (Cert.ReferenceIdeal.Steps.rows (F := Ideal) (A0 m c) (A3 m c)) := by
  show StableHlo.after hostOps0 (W0 m ρ c) (Proc.devRef .tc main_call0_v15) = _
  after_results
  rfl
theorem s1_ef (c : Dev nD) : @Eq (FA S400000x8) (V1 m ρ c main_call0_v0) (A1 m c) := by
  show StableHlo.after hostOps0 (W0 m ρ c) (Proc.devRef .tc main_call0_v0) = _
  after_results
  rfl
theorem s1_wa (c : Dev nD) : @Eq (FA S64x128) (V1 m ρ c main_call0_v16) (extractStridedSlice S64x128 ![0, 0] (A4 m c) slices_S136x128_S64x128_0_0) := by
  show StableHlo.after hostOps0 (W0 m ρ c) (Proc.devRef .tc main_call0_v16) = _
  after_results
  rfl
theorem s1_wb (c : Dev nD) : @Eq (FA S64x128) (V1 m ρ c main_call0_v17) (extractStridedSlice S64x128 ![64, 0] (A4 m c) slices_S136x128_S64x128_64_0) := by
  show StableHlo.after hostOps0 (W0 m ρ c) (Proc.devRef .tc main_call0_v17) = _
  after_results
  rfl
theorem s1_wc (c : Dev nD) : @Eq (FA S8x128) (V1 m ρ c main_call0_v18) (extractStridedSlice S8x128 ![128, 0] (A4 m c) slices_S136x128_S8x128_128_0) := by
  show StableHlo.after hostOps0 (W0 m ρ c) (Proc.devRef .tc main_call0_v18) = _
  after_results
  rfl
theorem s1_b1 (c : Dev nD) : @Eq (FA S1x128) (V1 m ρ c main_call0_v19) (shapeCast S1x128 (A5 m c) shapeCasts_S128_S1x128) := by
  show StableHlo.after hostOps0 (W0 m ρ c) (Proc.devRef .tc main_call0_v19) = _
  after_results
  rfl
theorem s1_b2 (c : Dev nD) : @Eq (FA S1x64) (V1 m ρ c main_call0_v20) (shapeCast S1x64 (A7 m c) shapeCasts_S64_S1x64) := by
  show StableHlo.after hostOps0 (W0 m ρ c) (Proc.devRef .tc main_call0_v20) = _
  after_results
  rfl
theorem s1_w2 (c : Dev nD) : @Eq (FA S128x64) (V1 m ρ c main_arg6) (A6 m c) := Cert.KernelIdeal.Carry.W1_arg6 m ρ c

/-- After launch 0 the message buffer holds the first round's messages. -/
theorem at2_msg (c : Dev nD) : @Eq (FA S400000x64) (W2 m ρ c (Proc.devRef .tc main_call0_v21)) (msg0 m c) :=
  (W2_arr m ρ c 9).trans (Cert.KernelIdeal.MsgStep0.msg_of (V1 m ρ) c _ _ _ _ _ _ _
    (s1_src m ρ c) (s1_dst m ρ c) (s1_ef m ρ c) (s1_wa m ρ c) (s1_wb m ρ c) (s1_wc m ρ c) (s1_b1 m ρ c) (s1_w2 m ρ c) (s1_b2 m ρ c))

set_option maxHeartbeats 2000000 in
theorem s3_x (c : Dev nD) : @Eq (FA S50000x64) (V3 m ρ c main_call0_v24) (Cert.ReferenceIdeal.Steps.agg (F := Ideal) (msg0 m c) (A3 m c)) :=
  (show @Eq (FA S50000x64) (StableHlo.after hostOps1 (W2 m ρ c) (Proc.devRef .tc main_call0_v24)) (Cert.ReferenceIdeal.Steps.agg (F := Ideal) (W2 m ρ c (Proc.devRef .tc main_call0_v21) : FA S400000x64) (W2 m ρ c (Proc.devRef .tc main_arg3) : IA S400000)) from by
    after_results
    generalize W2 m ρ c = W
    rfl).trans (by rw [at2_msg m ρ c, Cert.KernelIdeal.Carry.W2_arg3 m ρ c])
set_option maxHeartbeats 2000000 in
theorem s3_wx0 (c : Dev nD) : @Eq (FA S64x64) (V3 m ρ c main_call0_v25) (extractStridedSlice S64x64 ![0, 0] (A8 m c) slices_S64x192_S64x64_0_0) :=
  (show @Eq (FA S64x64) (StableHlo.after hostOps1 (W2 m ρ c) (Proc.devRef .tc main_call0_v25)) (extractStridedSlice S64x64 ![0, 0] (W2 m ρ c (Proc.devRef .tc main_arg8) : FA S64x192) slices_S64x192_S64x64_0_0) from by
    after_results
    generalize W2 m ρ c = W
    rfl).trans (by rw [Cert.KernelIdeal.Carry.W2_arg8 m ρ c])
set_option maxHeartbeats 2000000 in
theorem s3_wx1 (c : Dev nD) : @Eq (FA S64x64) (V3 m ρ c main_call0_v26) (extractStridedSlice S64x64 ![0, 64] (A8 m c) slices_S64x192_S64x64_0_64) :=
  (show @Eq (FA S64x64) (StableHlo.after hostOps1 (W2 m ρ c) (Proc.devRef .tc main_call0_v26)) (extractStridedSlice S64x64 ![0, 64] (W2 m ρ c (Proc.devRef .tc main_arg8) : FA S64x192) slices_S64x192_S64x64_0_64) from by
    after_results
    generalize W2 m ρ c = W
    rfl).trans (by rw [Cert.KernelIdeal.Carry.W2_arg8 m ρ c])
set_option maxHeartbeats 2000000 in
theorem s3_wx2 (c : Dev nD) : @Eq (FA S64x64) (V3 m ρ c main_call0_v27) (extractStridedSlice S64x64 ![0, 128] (A8 m c) slices_S64x192_S64x64_0_128) :=
  (show @Eq (FA S64x64) (StableHlo.after hostOps1 (W2 m ρ c) (Proc.devRef .tc main_call0_v27)) (extractStridedSlice S64x64 ![0, 128] (W2 m ρ c (Proc.devRef .tc main_arg8) : FA S64x192) slices_S64x192_S64x64_0_128) from by
    after_results
    generalize W2 m ρ c = W
    rfl).trans (by rw [Cert.KernelIdeal.Carry.W2_arg8 m ρ c])
set_option maxHeartbeats 2000000 in
theorem s3_wh0 (c : Dev nD) : @Eq (FA S64x64) (V3 m ρ c main_call0_v28) (extractStridedSlice S64x64 ![0, 0] (A9 m c) slices_S64x192_S64x64_0_0) :=
  (show @Eq (FA S64x64) (StableHlo.after hostOps1 (W2 m ρ c) (Proc.devRef .tc main_call0_v28)) (extractStridedSlice S64x64 ![0, 0] (W2 m ρ c (Proc.devRef .tc main_arg9) : FA S64x192) slices_S64x192_S64x64_0_0) from by
    after_results
    generalize W2 m ρ c = W
    rfl).trans (by rw [Cert.KernelIdeal.Carry.W2_arg9 m ρ c])
set_option maxHeartbeats 2000000 in
theorem s3_wh1 (c : Dev nD) : @Eq (FA S64x64) (V3 m ρ c main_call0_v29) (extractStridedSlice S64x64 ![0, 64] (A9 m c) slices_S64x192_S64x64_0_64) :=
  (show @Eq (FA S64x64) (StableHlo.after hostOps1 (W2 m ρ c) (Proc.devRef .tc main_call0_v29)) (extractStridedSlice S64x64 ![0, 64] (W2 m ρ c (Proc.devRef .tc main_arg9) : FA S64x192) slices_S64x192_S64x64_0_64) from by
    after_results
    generalize W2 m ρ c = W
    rfl).trans (by rw [Cert.KernelIdeal.Carry.W2_arg9 m ρ c])
set_option maxHeartbeats 2000000 in
theorem s3_wh2 (c : Dev nD) : @Eq (FA S64x64) (V3 m ρ c main_call0_v30) (extractStridedSlice S64x64 ![0, 128] (A9 m c) slices_S64x192_S64x64_0_128) :=
  (show @Eq (FA S64x64) (StableHlo.after hostOps1 (W2 m ρ c) (Proc.devRef .tc main_call0_v30)) (extractStridedSlice S64x64 ![0, 128] (W2 m ρ c (Proc.devRef .tc main_arg9) : FA S64x192) slices_S64x192_S64x64_0_128) from by
    after_results
    generalize W2 m ρ c = W
    rfl).trans (by rw [Cert.KernelIdeal.Carry.W2_arg9 m ρ c])
set_option maxHeartbeats 2000000 in
theorem s3_b0 (c : Dev nD) : @Eq (FA S1x64) (V3 m ρ c main_call0_v34) (shapeCast S1x64 (extractStridedSlice S64 ![0] (A10 m c) slices_S192_S64_0) shapeCasts_S64_S1x64) :=
  (show @Eq (FA S1x64) (StableHlo.after hostOps1 (W2 m ρ c) (Proc.devRef .tc main_call0_v34)) (shapeCast S1x64 (extractStridedSlice S64 ![0] (W2 m ρ c (Proc.devRef .tc main_arg10) : FA S192) slices_S192_S64_0) shapeCasts_S64_S1x64) from by
    after_results
    generalize W2 m ρ c = W
    rfl).trans (by rw [Cert.KernelIdeal.Carry.W2_arg10 m ρ c])
set_option maxHeartbeats 2000000 in
theorem s3_b1 (c : Dev nD) : @Eq (FA S1x64) (V3 m ρ c main_call0_v35) (shapeCast S1x64 (extractStridedSlice S64 ![64] (A10 m c) slices_S192_S64_64) shapeCasts_S64_S1x64) :=
  (show @Eq (FA S1x64) (StableHlo.after hostOps1 (W2 m ρ c) (Proc.devRef .tc main_call0_v35)) (shapeCast S1x64 (extractStridedSlice S64 ![64] (W2 m ρ c (Proc.devRef .tc main_arg10) : FA S192) slices_S192_S64_64) shapeCasts_S64_S1x64) from by
    after_results
    generalize W2 m ρ c = W
    rfl).trans (by rw [Cert.KernelIdeal.Carry.W2_arg10 m ρ c])
set_option maxHeartbeats 2000000 in
theorem s3_b2 (c : Dev nD) : @Eq (FA S1x64) (V3 m ρ c main_call0_v36) (shapeCast S1x64 (extractStridedSlice S64 ![128] (A10 m c) slices_S192_S64_128) shapeCasts_S64_S1x64) :=
  (show @Eq (FA S1x64) (StableHlo.after hostOps1 (W2 m ρ c) (Proc.devRef .tc main_call0_v36)) (shapeCast S1x64 (extractStridedSlice S64 ![128] (W2 m ρ c (Proc.devRef .tc main_arg10) : FA S192) slices_S192_S64_128) shapeCasts_S64_S1x64) from by
    after_results
    generalize W2 m ρ c = W
    rfl).trans (by rw [Cert.KernelIdeal.Carry.W2_arg10 m ρ c])
theorem s3_h (c : Dev nD) : @Eq (FA S50000x64) (V3 m ρ c main_arg0) (A0 m c) := Cert.KernelIdeal.Carry.W3_arg0 m ρ c

/-- After launch 1 the state buffer holds the node states after the first round. -/
theorem at4_hid (c : Dev nD) : @Eq (FA S50000x64) (W4 m ρ c (Proc.devRef .tc main_call0_v37)) (hid1 m c) :=
  (W4_arr m ρ c 11).trans (Cert.KernelIdeal.GruStep1.gru_of (V3 m ρ) c _ _ _ _ _
    (s3_h m ρ c) (s3_x m ρ c) (s3_wx0 m ρ c) (s3_wx1 m ρ c) (s3_wx2 m ρ c) (s3_wh0 m ρ c) (s3_wh1 m ρ c) (s3_wh2 m ρ c)
    (s3_b0 m ρ c) (s3_b1 m ρ c) (s3_b2 m ρ c))

set_option maxHeartbeats 2000000 in
theorem s5_src (c : Dev nD) : @Eq (FA S400000x64) (V5 m ρ c main_call0_v45) (Cert.ReferenceIdeal.Steps.rows (F := Ideal) (hid1 m c) (A2 m c)) :=
  (show @Eq (FA S400000x64) (StableHlo.after hostOps2 (W4 m ρ c) (Proc.devRef .tc main_call0_v45)) (Host.gather gather_S50000x64_S400000x1_S400000x64_1_0_n_n_0_1_164 (truncf (F := Ideal) .bf16 (W4 m ρ c (Proc.devRef .tc main_call0_v37) : FVec Ideal S50000x64 .f32) bitsLt_bf16_f32)
        (broadcastInDim S400000x1 ![0] bcast_S400000_S400000x1_0
          (select (cmpi .slt (W4 m ρ c (Proc.devRef .tc main_arg2) : IVec S400000 32) (broadcastInDim S400000 ![] bcast_S_S400000 (constantI S_ 32 0#32)))
            (addi (W4 m ρ c (Proc.devRef .tc main_arg2) : IVec S400000 32) (broadcastInDim S400000 ![] bcast_S_S400000 (constantI S_ 32 50000#32))) (W4 m ρ c (Proc.devRef .tc main_arg2) : IVec S400000 32)))) from by
    after_results
    generalize W4 m ρ c = W
    rfl).trans (by rw [at4_hid m ρ c, Cert.KernelIdeal.Carry.W4_arg2 m ρ c]; exact rows_eq _ _)
set_option maxHeartbeats 2000000 in
theorem s5_dst (c : Dev nD) : @Eq (FA S400000x64) (V5 m ρ c main_call0_v52) (Cert.ReferenceIdeal.Steps.rows (F := Ideal) (hid1 m c) (A3 m c)) :=
  (show @Eq (FA S400000x64) (StableHlo.after hostOps2 (W4 m ρ c) (Proc.devRef .tc main_call0_v52)) (Host.gather gather_S50000x64_S400000x1_S400000x64_1_0_n_n_0_1_164 (truncf (F := Ideal) .bf16 (W4 m ρ c (Proc.devRef .tc main_call0_v37) : FVec Ideal S50000x64 .f32) bitsLt_bf16_f32)
        (broadcastInDim S400000x1 ![0] bcast_S400000_S400000x1_0
          (select (cmpi .slt (W4 m ρ c (Proc.devRef .tc main_arg3) : IVec S400000 32) (broadcastInDim S400000 ![] bcast_S_S400000 (constantI S_ 32 0#32)))
            (addi (W4 m ρ c (Proc.devRef .tc main_arg3) : IVec S400000 32) (broadcastInDim S400000 ![] bcast_S_S400000 (constantI S_ 32 50000#32))) (W4 m ρ c (Proc.devRef .tc main_arg3) : IVec S400000 32)))) from by
    after_results
    generalize W4 m ρ c = W
    rfl).trans (by rw [at4_hid m ρ c, Cert.KernelIdeal.Carry.W4_arg3 m ρ c]; exact rows_eq _ _)
theorem s5_ef (c : Dev nD) : @Eq (FA S400000x8) (V5 m ρ c main_call0_v0) (A1 m c) :=
  (Cert.KernelIdeal.Carry.W5_v0 m ρ c).trans (s1_ef m ρ c)
set_option maxHeartbeats 2000000 in
theorem s5_wa (c : Dev nD) : @Eq (FA S64x128) (V5 m ρ c main_call0_v53) (extractStridedSlice S64x128 ![0, 0] (A4 m c) slices_S136x128_S64x128_0_0) :=
  (show @Eq (FA S64x128) (StableHlo.after hostOps2 (W4 m ρ c) (Proc.devRef .tc main_call0_v53)) (extractStridedSlice S64x128 ![0, 0] (W4 m ρ c (Proc.devRef .tc main_arg4) : FA S136x128) slices_S136x128_S64x128_0_0) from by
    after_results
    generalize W4 m ρ c = W
    rfl).trans (by rw [Cert.KernelIdeal.Carry.W4_arg4 m ρ c])
set_option maxHeartbeats 2000000 in
theorem s5_wb (c : Dev nD) : @Eq (FA S64x128) (V5 m ρ c main_call0_v54) (extractStridedSlice S64x128 ![64, 0] (A4 m c) slices_S136x128_S64x128_64_0) :=
  (show @Eq (FA S64x128) (StableHlo.after hostOps2 (W4 m ρ c) (Proc.devRef .tc main_call0_v54)) (extractStridedSlice S64x128 ![64, 0] (W4 m ρ c (Proc.devRef .tc main_arg4) : FA S136x128) slices_S136x128_S64x128_64_0) from by
    after_results
    generalize W4 m ρ c = W
    rfl).trans (by rw [Cert.KernelIdeal.Carry.W4_arg4 m ρ c])
set_option maxHeartbeats 2000000 in
theorem s5_wc (c : Dev nD) : @Eq (FA S8x128) (V5 m ρ c main_call0_v55) (extractStridedSlice S8x128 ![128, 0] (A4 m c) slices_S136x128_S8x128_128_0) :=
  (show @Eq (FA S8x128) (StableHlo.after hostOps2 (W4 m ρ c) (Proc.devRef .tc main_call0_v55)) (extractStridedSlice S8x128 ![128, 0] (W4 m ρ c (Proc.devRef .tc main_arg4) : FA S136x128) slices_S136x128_S8x128_128_0) from by
    after_results
    generalize W4 m ρ c = W
    rfl).trans (by rw [Cert.KernelIdeal.Carry.W4_arg4 m ρ c])
set_option maxHeartbeats 2000000 in
theorem s5_b1 (c : Dev nD) : @Eq (FA S1x128) (V5 m ρ c main_call0_v56) (shapeCast S1x128 (A5 m c) shapeCasts_S128_S1x128) :=
  (show @Eq (FA S1x128) (StableHlo.after hostOps2 (W4 m ρ c) (Proc.devRef .tc main_call0_v56)) (shapeCast S1x128 (W4 m ρ c (Proc.devRef .tc main_arg5) : FA S128) shapeCasts_S128_S1x128) from by
    after_results
    generalize W4 m ρ c = W
    rfl).trans (by rw [Cert.KernelIdeal.Carry.W4_arg5 m ρ c])
set_option maxHeartbeats 2000000 in
theorem s5_b2 (c : Dev nD) : @Eq (FA S1x64) (V5 m ρ c main_call0_v57) (shapeCast S1x64 (A7 m c) shapeCasts_S64_S1x64) :=
  (show @Eq (FA S1x64) (StableHlo.after hostOps2 (W4 m ρ c) (Proc.devRef .tc main_call0_v57)) (shapeCast S1x64 (W4 m ρ c (Proc.devRef .tc main_arg7) : FA S64) shapeCasts_S64_S1x64) from by
    after_results
    generalize W4 m ρ c = W
    rfl).trans (by rw [Cert.KernelIdeal.Carry.W4_arg7 m ρ c])
theorem s5_w2 (c : Dev nD) : @Eq (FA S128x64) (V5 m ρ c main_arg6) (A6 m c) := Cert.KernelIdeal.Carry.W5_arg6 m ρ c

/-- After launch 2 the message buffer holds the second round's messages. -/
theorem at6_msg (c : Dev nD) : @Eq (FA S400000x64) (W6 m ρ c (Proc.devRef .tc main_call0_v58)) (msg1 m c) :=
  (W6_arr m ρ c 9).trans (Cert.KernelIdeal.MsgStep2.msg_of (V5 m ρ) c _ _ _ _ _ _ _
    (s5_src m ρ c) (s5_dst m ρ c) (s5_ef m ρ c) (s5_wa m ρ c) (s5_wb m ρ c) (s5_wc m ρ c) (s5_b1 m ρ c) (s5_w2 m ρ c) (s5_b2 m ρ c))

set_option maxHeartbeats 2000000 in
theorem s7_x (c : Dev nD) : @Eq (FA S50000x64) (V7 m ρ c main_call0_v61) (Cert.ReferenceIdeal.Steps.agg (F := Ideal) (msg1 m c) (A3 m c)) :=
  (show @Eq (FA S50000x64) (StableHlo.after hostOps3 (W6 m ρ c) (Proc.devRef .tc main_call0_v61)) (Cert.ReferenceIdeal.Steps.agg (F := Ideal) (W6 m ρ c (Proc.devRef .tc main_call0_v58) : FA S400000x64) (W6 m ρ c (Proc.devRef .tc main_arg3) : IA S400000)) from by
    after_results
    generalize W6 m ρ c = W
    rfl).trans (by rw [at6_msg m ρ c, Cert.KernelIdeal.Carry.W6_arg3 m ρ c])
set_option maxHeartbeats 2000000 in
theorem s7_wx0 (c : Dev nD) : @Eq (FA S64x64) (V7 m ρ c main_call0_v62) (extractStridedSlice S64x64 ![0, 0] (A8 m c) slices_S64x192_S64x64_0_0) :=
  (show @Eq (FA S64x64) (StableHlo.after hostOps3 (W6 m ρ c) (Proc.devRef .tc main_call0_v62)) (extractStridedSlice S64x64 ![0, 0] (W6 m ρ c (Proc.devRef .tc main_arg8) : FA S64x192) slices_S64x192_S64x64_0_0) from by
    after_results
    generalize W6 m ρ c = W
    rfl).trans (by rw [Cert.KernelIdeal.Carry.W6_arg8 m ρ c])
set_option maxHeartbeats 2000000 in
theorem s7_wx1 (c : Dev nD) : @Eq (FA S64x64) (V7 m ρ c main_call0_v63) (extractStridedSlice S64x64 ![0, 64] (A8 m c) slices_S64x192_S64x64_0_64) :=
  (show @Eq (FA S64x64) (StableHlo.after hostOps3 (W6 m ρ c) (Proc.devRef .tc main_call0_v63)) (extractStridedSlice S64x64 ![0, 64] (W6 m ρ c (Proc.devRef .tc main_arg8) : FA S64x192) slices_S64x192_S64x64_0_64) from by
    after_results
    generalize W6 m ρ c = W
    rfl).trans (by rw [Cert.KernelIdeal.Carry.W6_arg8 m ρ c])
set_option maxHeartbeats 2000000 in
theorem s7_wx2 (c : Dev nD) : @Eq (FA S64x64) (V7 m ρ c main_call0_v64) (extractStridedSlice S64x64 ![0, 128] (A8 m c) slices_S64x192_S64x64_0_128) :=
  (show @Eq (FA S64x64) (StableHlo.after hostOps3 (W6 m ρ c) (Proc.devRef .tc main_call0_v64)) (extractStridedSlice S64x64 ![0, 128] (W6 m ρ c (Proc.devRef .tc main_arg8) : FA S64x192) slices_S64x192_S64x64_0_128) from by
    after_results
    generalize W6 m ρ c = W
    rfl).trans (by rw [Cert.KernelIdeal.Carry.W6_arg8 m ρ c])
set_option maxHeartbeats 2000000 in
theorem s7_wh0 (c : Dev nD) : @Eq (FA S64x64) (V7 m ρ c main_call0_v65) (extractStridedSlice S64x64 ![0, 0] (A9 m c) slices_S64x192_S64x64_0_0) :=
  (show @Eq (FA S64x64) (StableHlo.after hostOps3 (W6 m ρ c) (Proc.devRef .tc main_call0_v65)) (extractStridedSlice S64x64 ![0, 0] (W6 m ρ c (Proc.devRef .tc main_arg9) : FA S64x192) slices_S64x192_S64x64_0_0) from by
    after_results
    generalize W6 m ρ c = W
    rfl).trans (by rw [Cert.KernelIdeal.Carry.W6_arg9 m ρ c])
set_option maxHeartbeats 2000000 in
theorem s7_wh1 (c : Dev nD) : @Eq (FA S64x64) (V7 m ρ c main_call0_v66) (extractStridedSlice S64x64 ![0, 64] (A9 m c) slices_S64x192_S64x64_0_64) :=
  (show @Eq (FA S64x64) (StableHlo.after hostOps3 (W6 m ρ c) (Proc.devRef .tc main_call0_v66)) (extractStridedSlice S64x64 ![0, 64] (W6 m ρ c (Proc.devRef .tc main_arg9) : FA S64x192) slices_S64x192_S64x64_0_64) from by
    after_results
    generalize W6 m ρ c = W
    rfl).trans (by rw [Cert.KernelIdeal.Carry.W6_arg9 m ρ c])
set_option maxHeartbeats 2000000 in
theorem s7_wh2 (c : Dev nD) : @Eq (FA S64x64) (V7 m ρ c main_call0_v67) (extractStridedSlice S64x64 ![0, 128] (A9 m c) slices_S64x192_S64x64_0_128) :=
  (show @Eq (FA S64x64) (StableHlo.after hostOps3 (W6 m ρ c) (Proc.devRef .tc main_call0_v67)) (extractStridedSlice S64x64 ![0, 128] (W6 m ρ c (Proc.devRef .tc main_arg9) : FA S64x192) slices_S64x192_S64x64_0_128) from by
    after_results
    generalize W6 m ρ c = W
    rfl).trans (by rw [Cert.KernelIdeal.Carry.W6_arg9 m ρ c])
set_option maxHeartbeats 2000000 in
theorem s7_b0 (c : Dev nD) : @Eq (FA S1x64) (V7 m ρ c main_call0_v71) (shapeCast S1x64 (extractStridedSlice S64 ![0] (A10 m c) slices_S192_S64_0) shapeCasts_S64_S1x64) :=
  (show @Eq (FA S1x64) (StableHlo.after hostOps3 (W6 m ρ c) (Proc.devRef .tc main_call0_v71)) (shapeCast S1x64 (extractStridedSlice S64 ![0] (W6 m ρ c (Proc.devRef .tc main_arg10) : FA S192) slices_S192_S64_0) shapeCasts_S64_S1x64) from by
    after_results
    generalize W6 m ρ c = W
    rfl).trans (by rw [Cert.KernelIdeal.Carry.W6_arg10 m ρ c])
set_option maxHeartbeats 2000000 in
theorem s7_b1 (c : Dev nD) : @Eq (FA S1x64) (V7 m ρ c main_call0_v72) (shapeCast S1x64 (extractStridedSlice S64 ![64] (A10 m c) slices_S192_S64_64) shapeCasts_S64_S1x64) :=
  (show @Eq (FA S1x64) (StableHlo.after hostOps3 (W6 m ρ c) (Proc.devRef .tc main_call0_v72)) (shapeCast S1x64 (extractStridedSlice S64 ![64] (W6 m ρ c (Proc.devRef .tc main_arg10) : FA S192) slices_S192_S64_64) shapeCasts_S64_S1x64) from by
    after_results
    generalize W6 m ρ c = W
    rfl).trans (by rw [Cert.KernelIdeal.Carry.W6_arg10 m ρ c])
set_option maxHeartbeats 2000000 in
theorem s7_b2 (c : Dev nD) : @Eq (FA S1x64) (V7 m ρ c main_call0_v73) (shapeCast S1x64 (extractStridedSlice S64 ![128] (A10 m c) slices_S192_S64_128) shapeCasts_S64_S1x64) :=
  (show @Eq (FA S1x64) (StableHlo.after hostOps3 (W6 m ρ c) (Proc.devRef .tc main_call0_v73)) (shapeCast S1x64 (extractStridedSlice S64 ![128] (W6 m ρ c (Proc.devRef .tc main_arg10) : FA S192) slices_S192_S64_128) shapeCasts_S64_S1x64) from by
    after_results
    generalize W6 m ρ c = W
    rfl).trans (by rw [Cert.KernelIdeal.Carry.W6_arg10 m ρ c])
theorem s7_h (c : Dev nD) : @Eq (FA S50000x64) (V7 m ρ c main_call0_v37) (hid1 m c) := (Cert.KernelIdeal.Carry.W7_v37 m ρ c).trans (at4_hid m ρ c)

/-- After launch 3 the state buffer holds the node states after the second round. -/
theorem at8_hid (c : Dev nD) : @Eq (FA S50000x64) (W8 m ρ c (Proc.devRef .tc main_call0_v74)) (hid2 m c) :=
  (W8_arr m ρ c 11).trans (Cert.KernelIdeal.GruStep3.gru_of (V7 m ρ) c _ _ _ _ _
    (s7_h m ρ c) (s7_x m ρ c) (s7_wx0 m ρ c) (s7_wx1 m ρ c) (s7_wx2 m ρ c) (s7_wh0 m ρ c) (s7_wh1 m ρ c) (s7_wh2 m ρ c)
    (s7_b0 m ρ c) (s7_b1 m ρ c) (s7_b2 m ρ c))

theorem s9_h (c : Dev nD) : @Eq (FA S50000x64) (V9 m ρ c main_call0_v74) (hid2 m c) :=
  (Cert.KernelIdeal.Carry.W9_v74 m ρ c).trans (at8_hid m ρ c)
theorem s9_w1 (c : Dev nD) : @Eq (FA S64x128) (V9 m ρ c main_arg11) (A11 m c) := Cert.KernelIdeal.Carry.W9_arg11 m ρ c
set_option maxHeartbeats 2000000 in
theorem s9_b1 (c : Dev nD) : @Eq (FA S1x128) (V9 m ρ c main_call0_v75) (shapeCast S1x128 (A12 m c) shapeCasts_S128_S1x128) :=
  (show @Eq (FA S1x128) (StableHlo.after hostOps4 (W8 m ρ c) (Proc.devRef .tc main_call0_v75)) (shapeCast S1x128 (W8 m ρ c (Proc.devRef .tc main_arg12) : FA S128) shapeCasts_S128_S1x128) from by
    after_results
    generalize W8 m ρ c = W
    rfl).trans (by rw [Cert.KernelIdeal.Carry.W8_arg12 m ρ c])
set_option maxHeartbeats 2000000 in
theorem s9_w2 (c : Dev nD) : @Eq (FA S1x128) (V9 m ρ c main_call0_v77) (shapeCast S1x128 (A13 m c) shapeCasts_S128x1_S1x128) :=
  (show @Eq (FA S1x128) (StableHlo.after hostOps4 (W8 m ρ c) (Proc.devRef .tc main_call0_v77)) (shapeCast S1x128 (W8 m ρ c (Proc.devRef .tc main_arg13) : FA S128x1) shapeCasts_S128x1_S1x128) from by
    after_results
    generalize W8 m ρ c = W
    rfl).trans (by rw [Cert.KernelIdeal.Carry.W8_arg13 m ρ c])
set_option maxHeartbeats 2000000 in
theorem s9_b2 (c : Dev nD) : @Eq (FA S1x1) (V9 m ρ c main_call0_v76) (shapeCast S1x1 (A14 m c) shapeCasts_S1_S1x1) :=
  (show @Eq (FA S1x1) (StableHlo.after hostOps4 (W8 m ρ c) (Proc.devRef .tc main_call0_v76)) (shapeCast S1x1 (W8 m ρ c (Proc.devRef .tc main_arg14) : FA S1) shapeCasts_S1_S1x1) from by
    after_results
    generalize W8 m ρ c = W
    rfl).trans (by rw [Cert.KernelIdeal.Carry.W8_arg14 m ρ c])

/-- After launch 4 the result buffer holds the reference's whole computation of the argument arrays. -/
theorem result (c : Dev nD) : @Eq (FA S50000x1) (W10 m ρ c (Proc.devRef .tc main_v0)) (Cert.ReferenceIdeal.Steps.whole (F := Ideal) (A0 m c) (A1 m c) (A2 m c) (A3 m c) (A4 m c) (A5 m c) (A6 m c) (A7 m c) (A8 m c) (A9 m c) (A10 m c) (A11 m c) (A12 m c) (A13 m c) (A14 m c)) :=
  (W10_arr m ρ c 5).trans (Cert.KernelIdeal.ReadStep4.read_of (V9 m ρ) c _ _ _ _ _
    (s9_h m ρ c) (s9_w1 m ρ c) (s9_b1 m ρ c) (s9_w2 m ρ c) (s9_b2 m ρ c))

end Cert.KernelIdeal.Chain

end
-- ==== Proof.lean ====
/-
  The kernel program runs five launches — the message perceptron, the gated recurrent update, the same two again,
  and the readout — among stretches of host operations that gather the node states at the ends of every edge,
  sum the messages at their destinations, and cut the weights into the blocks each launch reads.  The reference
  computes the same two rounds and the readout in plain array operations.

  At the ideal instance every launch computes the reference's corresponding step of the arrays it finds:
  the message launch's three products with the row ranges of `W₁` add up to the reference's one product with the
  joined row (a finite sum split at two positions); each gate of the recurrent update read from a 64-column block
  of the weights is the corresponding column range of the reference's wide products; the logistic operation is the
  quotient `1 / (1 + exp(−y))` the reference writes; and the readout's multiply-and-sum over the hidden units is the
  reference's product with the one-column second layer.  None of these uses more of the extended reals than that
  finite sums can be regrouped, so the finiteness of the inputs is never opened.  Threading the five launches
  through the host operations between them (Proof/KChain.lean) gives the kernel program's result as the
  reference's whole computation of the argument arrays (Proof/RefSteps.lean), which is what the reference's run
  ends with.  The idealized kernel is the kernel's own text read at the ideal instance: there is nothing to
  preserve beyond that.
-/
import proofs.«144611_j71408126263501_2_alg».proof.Defs
import proofs.«144611_j71408126263501_2_alg».proof.Proof.Gen.Kernel
import proofs.«144611_j71408126263501_2_alg».proof.Proof.Gen.Kernel.Frame
import proofs.«144611_j71408126263501_2_alg».proof.Proof.Gen.KernelIdeal
import proofs.«144611_j71408126263501_2_alg».proof.Proof.Gen.KernelIdeal.Frame
import proofs.«144611_j71408126263501_2_alg».proof.Proof.Gen.ReferenceIdeal
import proofs.«144611_j71408126263501_2_alg».proof.Proof.Gen.ReferenceIdeal.Run
import proofs.«144611_j71408126263501_2_alg».proof.Proof.Gen.Pre_finite_inputs
import proofs.«144611_j71408126263501_2_alg».proof.Proof.KRun
import proofs.«144611_j71408126263501_2_alg».proof.Proof.KChain
import proofs.«144611_j71408126263501_2_alg».proof.Proof.RefSteps
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's whole computation of the argument arrays in their result buffers. -/
theorem algebraic : Cert.algebraic_KernelIdeal_ReferenceIdeal := by
  intro m ρ m' ρ' _ hagree
  refine ⟨fun c => Cert.ReferenceIdeal.Steps.whole (F := Ideal) (Cert.KernelIdeal.Chain.A0 m c) (Cert.KernelIdeal.Chain.A1 m c) (Cert.KernelIdeal.Chain.A2 m c) (Cert.KernelIdeal.Chain.A3 m c) (Cert.KernelIdeal.Chain.A4 m c) (Cert.KernelIdeal.Chain.A5 m c) (Cert.KernelIdeal.Chain.A6 m c) (Cert.KernelIdeal.Chain.A7 m c) (Cert.KernelIdeal.Chain.A8 m c) (Cert.KernelIdeal.Chain.A9 m c) (Cert.KernelIdeal.Chain.A10 m c) (Cert.KernelIdeal.Chain.A11 m c) (Cert.KernelIdeal.Chain.A12 m c) (Cert.KernelIdeal.Chain.A13 m c) (Cert.KernelIdeal.Chain.A14 m c), ?_, ?_⟩
  · exact (θ_run Cert.KernelIdeal.defs _ _).mono
      (fun r h c => ⟨(h c).1.trans (Cert.KernelIdeal.Chain.result m ρ c), (h c).2⟩)
      (Cert.KernelIdeal.Whole.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Steps.res_eq, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
